-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1 : Shape := ⟨2, ![128, 1]⟩
abbrev S128x1024 : Shape := ⟨2, ![128, 1024]⟩
abbrev S32000x256 : Shape := ⟨2, ![32000, 256]⟩
abbrev S256x3072 : Shape := ⟨2, ![256, 3072]⟩
abbrev S1024x3072 : Shape := ⟨2, ![1024, 3072]⟩
abbrev S3072 : Shape := ⟨1, ![3072]⟩
abbrev S1024x32000 : Shape := ⟨2, ![1024, 32000]⟩
abbrev S32000 : Shape := ⟨1, ![32000]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S32000x256 : S_.BroadcastsInDim S32000x256 (![] : Fin 0 → Fin S32000x256.rank)
  reducesTo_S32000x256_S_d0_1 : S32000x256.ReducesTo [0, 1] S_
  bcast_S_S256x3072 : S_.BroadcastsInDim S256x3072 (![] : Fin 0 → Fin S256x3072.rank)
  reducesTo_S256x3072_S_d0_1 : S256x3072.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x32000 : S_.BroadcastsInDim S1024x32000 (![] : Fin 0 → Fin S1024x32000.rank)
  reducesTo_S1024x32000_S_d0_1 : S1024x32000.ReducesTo [0, 1] S_
  bcast_S_S32000 : S_.BroadcastsInDim S32000 (![] : Fin 0 → Fin S32000.rank)
  reducesTo_S32000_S_d0 : S32000.ReducesTo [0] S_

variable [Facts]

def fn_part3 {F : FTy → Type} [FloatOps F] (main_arg12 : FVec F S1024x32000 .f32) (main_arg13 : FVec F S32000 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S1024x32000 .f32 := Host.absf main_arg12
  let main_cst_20 : FVec F S_ .f32 := constant S_ .f32 0x7F800000#32
  let main_v55 : FVec F S1024x32000 .f32 := broadcastInDim S1024x32000 ![] bcast_S_S1024x32000 main_cst_20
  let main_v56 : IVec S1024x32000 1 := cmpf .olt main_v54 main_v55
  let main_c_21 : IVec S_ 1 := constantI S_ 1 1#1
  let main_v57 : IVec S_ 1 := (fun x v => Host.reduce IntOp.andi x v reducesTo_S1024x32000_S_d0_1 h_S_) main_v56 main_c_21
  let main_v58 : IVec S_ 1 := andi main_v53 main_v57
  let main_v59 : FVec F S32000 .f32 := Host.absf main_arg13
  let main_cst_22 : FVec F S_ .f32 := constant S_ .f32 0x7F800000#32
  let main_v60 : FVec F S32000 .f32 := broadcastInDim S32000 ![] bcast_S_S32000 main_cst_22
  let main_v61 : IVec S32000 1 := cmpf .olt main_v59 main_v60
  let main_c_23 : IVec S_ 1 := constantI S_ 1 1#1
  let main_v62 : IVec S_ 1 := (fun x v => Host.reduce IntOp.andi x v reducesTo_S32000_S_d0 h_S_) main_v61 main_c_23
  let main_v63 : IVec S_ 1 := andi main_v58 main_v62
  main_v63

def fn_part2 {F : FTy → Type} [FloatOps F] (main_arg8 : FVec F S1024x3072 .f32) (main_arg9 : FVec F S1024x3072 .f32) (main_arg10 : FVec F S3072 .f32) (main_arg11 : FVec F S3072 .f32) (main_arg12 : FVec F S1024x32000 .f32) (main_arg13 : FVec F S32000 .f32) (main_v33 : IVec S_ 1) : IVec S_ 1 :=
  let main_v34 : FVec F S1024x3072 .f32 := Host.absf main_arg8
  let main_cst_12 : FVec F S_ .f32 := constant S_ .f32 0x7F800000#32
  let main_v35 : FVec F S1024x3072 .f32 := broadcastInDim S1024x3072 ![] bcast_S_S1024x3072 main_cst_12
  let main_v36 : IVec S1024x3072 1 := cmpf .olt main_v34 main_v35
  let main_c_13 : IVec S_ 1 := constantI S_ 1 1#1
  let main_v37 : IVec S_ 1 := (fun x v => Host.reduce IntOp.andi x v reducesTo_S1024x3072_S_d0_1 h_S_) main_v36 main_c_13
  let main_v38 : IVec S_ 1 := andi main_v33 main_v37
  let main_v39 : FVec F S1024x3072 .f32 := Host.absf main_arg9
  let main_cst_14 : FVec F S_ .f32 := constant S_ .f32 0x7F800000#32
  let main_v40 : FVec F S1024x3072 .f32 := broadcastInDim S1024x3072 ![] bcast_S_S1024x3072 main_cst_14
  let main_v41 : IVec S1024x3072 1 := cmpf .olt main_v39 main_v40
  let main_c_15 : IVec S_ 1 := constantI S_ 1 1#1
  let main_v42 : IVec S_ 1 := (fun x v => Host.reduce IntOp.andi x v reducesTo_S1024x3072_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S1024x3072 .f32) (main_arg6 : FVec F S3072 .f32) (main_arg7 : FVec F S3072 .f32) (main_arg8 : FVec F S1024x3072 .f32) (main_arg9 : FVec F S1024x3072 .f32) (main_arg10 : FVec F S3072 .f32) (main_arg11 : FVec F S3072 .f32) (main_arg12 : FVec F S1024x32000 .f32) (main_arg13 : FVec F S32000 .f32) (main_v13 : IVec S_ 1) (main_v16 : IVec S256x3072 1) : IVec S_ 1 :=
  let main_c_5 : IVec S_ 1 := constantI S_ 1 1#1
  let main_v17 : IVec S_ 1 := (fun x v => Host.reduce IntOp.andi x v reducesTo_S256x3072_S_d0_1 h_S_) main_v16 main_c_5
  let main_v18 : IVec S_ 1 := andi main_v13 main_v17
  let main_v19 : FVec F S1024x3072 .f32 := Host.absf main_arg5
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S3072 .f32 := Host.absf main_arg7
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S128x1 32) (main_arg1 : FVec F S128x1024 .f32) (main_arg2 : FVec F S128x1024 .f32) (main_arg3 : FVec F S32000x256 .f32) (main_arg4 : FVec F S256x3072 .f32) (main_arg5 : FVec F S1024x3072 .f32) (main_arg6 : FVec F S3072 .f32) (main_arg7 : FVec F S3072 .f32) (main_arg8 : FVec F S1024x3072 .f32) (main_arg9 : FVec F S1024x3072 .f32) (main_arg10 : FVec F S3072 .f32) (main_arg11 : FVec F S3072 .f32) (main_arg12 : FVec F S1024x32000 .f32) (main_arg13 : FVec F S32000 .f32) : IVec S_ 1 :=
  let main_v0 : FVec F S128x1024 .f32 := Host.absf main_arg1
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S32000x256 .f32 := Host.absf main_arg3
  let main_cst_2 : FVec F S_ .f32 := constant S_ .f32 0x7F800000#32
  let main_v10 : FVec F S32000x256 .f32 := broadcastInDim S32000x256 ![] bcast_S_S32000x256 main_cst_2
  let main_v11 : IVec S32000x256 1 := cmpf .olt main_v9 main_v10
  let main_c_3 : IVec S_ 1 := constantI S_ 1 1#1
  let main_v12 : IVec S_ 1 := (fun x v => Host.reduce IntOp.andi x v reducesTo_S32000x256_S_d0_1 h_S_) main_v11 main_c_3
  let main_v13 : IVec S_ 1 := andi main_v8 main_v12
  let main_v14 : FVec F S256x3072 .f32 := Host.absf main_arg4
  let main_cst_4 : FVec F S_ .f32 := constant S_ .f32 0x7F800000#32
  let main_v15 : FVec F S256x3072 .f32 := broadcastInDim S256x3072 ![] bcast_S_S256x3072 main_cst_4
  let main_v16 : IVec S256x3072 1 := cmpf .olt main_v14 main_v15
  fn_part1 (F := F) main_arg5 main_arg6 main_arg7 main_arg8 main_arg9 main_arg10 main_arg11 main_arg12 main_arg13 main_v13 main_v16
-- ==== Kernel.lean ====
abbrev S128x1 : Shape := ⟨2, ![128, 1]⟩
abbrev S128x1024 : Shape := ⟨2, ![128, 1024]⟩
abbrev S32000x256 : Shape := ⟨2, ![32000, 256]⟩
abbrev S256x3072 : Shape := ⟨2, ![256, 3072]⟩
abbrev S1024x3072 : Shape := ⟨2, ![1024, 3072]⟩
abbrev S3072 : Shape := ⟨1, ![3072]⟩
abbrev S1024x32000 : Shape := ⟨2, ![1024, 32000]⟩
abbrev S32000 : Shape := ⟨1, ![32000]⟩
abbrev S128 : Shape := ⟨1, ![128]⟩
abbrev S_ : Shape := ⟨0, ![]⟩
abbrev S128x256 : Shape := ⟨2, ![128, 256]⟩
abbrev S256x3x1024 : Shape := ⟨3, ![256, 3, 1024]⟩
abbrev S1024x3x1024 : Shape := ⟨3, ![1024, 3, 1024]⟩
abbrev S1x3x1024 : Shape := ⟨3, ![1, 3, 1024]⟩
abbrev S256x3x256 : Shape := ⟨3, ![256, 3, 256]⟩
abbrev S1024x3x256 : Shape := ⟨3, ![1024, 3, 256]⟩
abbrev S1x3x256 : Shape := ⟨3, ![1, 3, 256]⟩
abbrev S256x1x256 : Shape := ⟨3, ![256, 1, 256]⟩
abbrev S256x256 : Shape := ⟨2, ![256, 256]⟩
abbrev S1x1x256 : Shape := ⟨3, ![1, 1, 256]⟩
abbrev S1x256 : Shape := ⟨2, ![1, 256]⟩
abbrev S1024x1x256 : Shape := ⟨3, ![1024, 1, 256]⟩
abbrev S1024x256 : Shape := ⟨2, ![1024, 256]⟩
abbrev S1x32000 : Shape := ⟨2, ![1, 32000]⟩
abbrev S128x32000 : Shape := ⟨2, ![128, 32000]⟩
abbrev S1024x3200 : Shape := ⟨2, ![1024, 3200]⟩
abbrev S1x3200 : Shape := ⟨2, ![1, 3200]⟩
abbrev S128x3200 : Shape := ⟨2, ![128, 3200]⟩

abbrev nBuf : Space → Nat
  | .hbm => 36
  | .vmem => 35
  | .smem => 0
  | _ => 0

abbrev bufTy : (tb : Table) → Fin (tcTables nBuf tb) → BufTy
  | .hbm, ⟨0, _⟩ => ⟨S128x1, .i32⟩
  | .hbm, ⟨1, _⟩ => ⟨S128x1024, .f32⟩
  | .hbm, ⟨2, _⟩ => ⟨S128x1024, .f32⟩
  | .hbm, ⟨3, _⟩ => ⟨S32000x256, .f32⟩
  | .hbm, ⟨4, _⟩ => ⟨S256x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024x3072, .f32⟩
  | .hbm, ⟨9, _⟩ => ⟨S1024x3072, .f32⟩
  | .hbm, ⟨10, _⟩ => ⟨S3072, .f32⟩
  | .hbm, ⟨11, _⟩ => ⟨S3072, .f32⟩
  | .hbm, ⟨12, _⟩ => ⟨S1024x32000, .f32⟩
  | .hbm, ⟨13, _⟩ => ⟨S32000, .f32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S128x256, .f32⟩
  | .hbm, ⟨24, _⟩ => ⟨S256x3x1024, .f32⟩
  | .hbm, ⟨25, _⟩ => ⟨S1024x3x1024, .f32⟩
  | .hbm, ⟨26, _⟩ => ⟨S1x3x1024, .f32⟩
  | .hbm, ⟨27, _⟩ => ⟨S1x3x1024, .f32⟩
  | .hbm, ⟨28, _⟩ => ⟨S128x1024, .f32⟩
  | .hbm, ⟨29, _⟩ => ⟨S1024x3x1024, .f32⟩
  | .hbm, ⟨30, _⟩ => ⟨S1024x3x1024, .f32⟩
  | .hbm, ⟨31, _⟩ => ⟨S1x3x1024, .f32⟩
  | .hbm, ⟨32, _⟩ => ⟨S1x3x1024, .f32⟩
  | .hbm, ⟨33, _⟩ => ⟨S128x1024, .f32⟩
  | .hbm, ⟨34, _⟩ => ⟨S1x32000, .f32⟩
  | .hbm, ⟨35, _⟩ => ⟨S128x32000, .f32⟩
  | .local _ .vmem, ⟨0, _⟩ => ⟨S128x256, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S256x3x256, .f32⟩
  | .local _ .vmem, ⟨5, _⟩ => ⟨S256x3x256, .f32⟩
  | .local _ .vmem, ⟨6, _⟩ => ⟨S1024x3x256, .f32⟩
  | .local _ .vmem, ⟨7, _⟩ => ⟨S1024x3x256, .f32⟩
  | .local _ .vmem, ⟨8, _⟩ => ⟨S1x3x256, .f32⟩
  | .local _ .vmem, ⟨9, _⟩ => ⟨S1x3x256, .f32⟩
  | .local _ .vmem, ⟨10, _⟩ => ⟨S1x3x256, .f32⟩
  | .local _ .vmem, ⟨11, _⟩ => ⟨S1x3x256, .f32⟩
  | .local _ .vmem, ⟨12, _⟩ => ⟨S128x256, .f32⟩
  | .local _ .vmem, ⟨13, _⟩ => ⟨S128x256, .f32⟩
  | .local _ .vmem, ⟨14, _⟩ => ⟨S128x1024, .f32⟩
  | .local _ .vmem, ⟨15, _⟩ => ⟨S128x1024, .f32⟩
  | .local _ .vmem, ⟨16, _⟩ => ⟨S128x256, .f32⟩
  | .local _ .vmem, ⟨17, _⟩ => ⟨S128x256, .f32⟩
  | .local _ .vmem, ⟨18, _⟩ => ⟨S1024x3x256, .f32⟩
  | .local _ .vmem, ⟨19, _⟩ => ⟨S1024x3x256, .f32⟩
  | .local _ .vmem, ⟨20, _⟩ => ⟨S1024x3x256, .f32⟩
  | .local _ .vmem, ⟨21, _⟩ => ⟨S1024x3x256, .f32⟩
  | .local _ .vmem, ⟨22, _⟩ => ⟨S1x3x256, .f32⟩
  | .local _ .vmem, ⟨23, _⟩ => ⟨S1x3x256, .f32⟩
  | .local _ .vmem, ⟨24, _⟩ => ⟨S1x3x256, .f32⟩
  | .local _ .vmem, ⟨25, _⟩ => ⟨S1x3x256, .f32⟩
  | .local _ .vmem, ⟨26, _⟩ => ⟨S128x256, .f32⟩
  | .local _ .vmem, ⟨27, _⟩ => ⟨S128x256, .f32⟩
  | .local _ .vmem, ⟨28, _⟩ => ⟨S128x1024, .f32⟩
  | .local _ .vmem, ⟨29, _⟩ => ⟨S1024x3200, .f32⟩
  | .local _ .vmem, ⟨30, _⟩ => ⟨S1024x3200, .f32⟩
  | .local _ .vmem, ⟨31, _⟩ => ⟨S1x3200, .f32⟩
  | .local _ .vmem, ⟨32, _⟩ => ⟨S1x3200, .f32⟩
  | .local _ .vmem, ⟨33, _⟩ => ⟨S128x3200, .f32⟩
  | .local _ .vmem, ⟨34, _⟩ => ⟨S128x3200, .f32⟩
  | _, _ => ⟨S128x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x3x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x3x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x3200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  shapeCasts_S256x3072_S256x3x1024 : S256x3072.ShapeCasts S256x3x1024
  shapeCasts_S1024x3072_S1024x3x1024 : S1024x3072.ShapeCasts S1024x3x1024
  shapeCasts_S3072_S1x3x1024 : S3072.ShapeCasts S1x3x1024
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S256x3x256_S256x3x256_0_0_0 : ∀ a, (![0, 0, 0] : Fin 3 → Nat) a + S256x3x256.size a ≤ S256x3x256.size a
  h_S256x3x256 : 0 < S256x3x256.numel
  shapeCasts_S256x3x256_S256x3x256 : S256x3x256.ShapeCasts S256x3x256
  inb_S1024x3x256_S1024x3x256_0_0_0 : ∀ a, (![0, 0, 0] : Fin 3 → Nat) a + S1024x3x256.size a ≤ S1024x3x256.size a
  h_S1024x3x256 : 0 < S1024x3x256.numel
  shapeCasts_S1024x3x256_S1024x3x256 : S1024x3x256.ShapeCasts S1024x3x256
  inb_S1x3x256_S1x3x256_0_0_0 : ∀ a, (![0, 0, 0] : Fin 3 → Nat) a + S1x3x256.size a ≤ S1x3x256.size a
  h_S1x3x256 : 0 < S1x3x256.numel
  shapeCasts_S1x3x256_S1x3x256 : S1x3x256.ShapeCasts S1x3x256
  slices_S256x3x256_o0_0_0_S256x1x256 : S256x3x256.Slices ![0, 0, 0] S256x1x256
  shapeCasts_S256x1x256_S256x256 : S256x1x256.ShapeCasts S256x256
  slices_S1x3x256_o0_0_0_S1x1x256 : S1x3x256.Slices ![0, 0, 0] S1x1x256
  shapeCasts_S1x1x256_S1x256 : S1x1x256.ShapeCasts S1x256
  broadcasts_S1x256_S128x256 : S1x256.Broadcasts S128x256
  slices_S256x3x256_o0_1_0_S256x1x256 : S256x3x256.Slices ![0, 1, 0] S256x1x256
  slices_S1x3x256_o0_1_0_S1x1x256 : S1x3x256.Slices ![0, 1, 0] S1x1x256
  slices_S256x3x256_o0_2_0_S256x1x256 : S256x3x256.Slices ![0, 2, 0] S256x1x256
  slices_S1x3x256_o0_2_0_S1x1x256 : S1x3x256.Slices ![0, 2, 0] S1x1x256
  slices_S1024x3x256_o0_0_0_S1024x1x256 : S1024x3x256.Slices ![0, 0, 0] S1024x1x256
  shapeCasts_S1024x1x256_S1024x256 : S1024x1x256.ShapeCasts S1024x256
  slices_S1024x3x256_o0_1_0_S1024x1x256 : S1024x3x256.Slices ![0, 1, 0] S1024x1x256
  slices_S1024x3x256_o0_2_0_S1024x1x256 : S1024x3x256.Slices ![0, 2, 0] S1024x1x256
  shapeCasts_S128x1024_S128x1024 : S128x1024.ShapeCasts S128x1024
  shapeCasts_S32000_S1x32000 : S32000.ShapeCasts S1x32000
  inb_S1024x3200_S1024x3200_0_0 : ∀ a, (![0, 0] : Fin 2 → Nat) a + S1024x3200.size a ≤ S1024x3200.size a
  h_S1024x3200 : 0 < S1024x3200.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S128x3200 : S1x3200.Broadcasts S128x3200
  inb_S128x3200_S128x3200_0_0 : ∀ a, (![0, 0] : Fin 2 → Nat) a + S128x3200.size a ≤ S128x3200.size a
  h_S128x3200 : 0 < S128x3200.numel
  gather_S32000x256_S128x1_S128x256_1_0_n_n_0_1_1256_wf : GatherDims.WF S32000x256 S128x1 S128x256 [1] [0] [] [0] [] 1 ![1, 256]
  dot_S128x256_S256x256_S128x256_1_0_0_1_n_n_wf : DotDims.WF S128x256 S256x256 S128x256 [1] [0] [0] [1] [] []
  dot_S128x1024_S1024x256_S128x256_1_0_0_1_n_n_wf : DotDims.WF S128x1024 S1024x256 S128x256 [1] [0] [0] [1] [] []
  dot_S128x1024_S1024x3200_S128x3200_1_0_0_1_n_n_wf : DotDims.WF S128x1024 S1024x3200 S128x3200 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .f32 = 32 ∨ (Rect.block (s := S128x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x1024.size a
  hwx0_2 : ∀ i : grid0.Coords, EltTy.bits .f32 = 32 ∨ (Rect.block (s := S128x1024) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3x256.size a ≤ S256x3x1024.size a
  hwx0_3 : ∀ i : grid0.Coords, EltTy.bits .f32 = 32 ∨ (Rect.block (s := S256x3x1024) S256x3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x3x256.size a ≤ S1024x3x1024.size a
  hwx0_4 : ∀ i : grid0.Coords, EltTy.bits .f32 = 32 ∨ (Rect.block (s := S1024x3x1024) S1024x3x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x256.size a ≤ S1x3x1024.size a
  hwx0_5 : ∀ i : grid0.Coords, EltTy.bits .f32 = 32 ∨ (Rect.block (s := S1x3x1024) S1x3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x3x256.size a ≤ S1x3x1024.size a
  hwx0_6 : ∀ i : grid0.Coords, EltTy.bits .f32 = 32 ∨ (Rect.block (s := S1x3x1024) S1x3x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x1024.size a
  hwx0_7 : ∀ i : grid0.Coords, EltTy.bits .f32 = 32 ∨ (Rect.block (s := S128x1024) S128x256.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .f32 = 32 ∨ (Rect.block (s := S128x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x1024.size a
  hwx1_2 : ∀ i : grid1.Coords, EltTy.bits .f32 = 32 ∨ (Rect.block (s := S128x1024) S128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x3x256.size a ≤ S1024x3x1024.size a
  hwx1_3 : ∀ i : grid1.Coords, EltTy.bits .f32 = 32 ∨ (Rect.block (s := S1024x3x1024) S1024x3x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x3x256.size a ≤ S1024x3x1024.size a
  hwx1_4 : ∀ i : grid1.Coords, EltTy.bits .f32 = 32 ∨ (Rect.block (s := S1024x3x1024) S1024x3x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x3x256.size a ≤ S1x3x1024.size a
  hwx1_5 : ∀ i : grid1.Coords, EltTy.bits .f32 = 32 ∨ (Rect.block (s := S1x3x1024) S1x3x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x3x256.size a ≤ S1x3x1024.size a
  hwx1_6 : ∀ i : grid1.Coords, EltTy.bits .f32 = 32 ∨ (Rect.block (s := S1x3x1024) S1x3x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x1024.size a
  hwx1_7 : ∀ i : grid1.Coords, EltTy.bits .f32 = 32 ∨ (Rect.block (s := S128x1024) S128x256.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x1024.size a ≤ S128x1024.size a
  hwx2_0 : ∀ i : grid2.Coords, EltTy.bits .f32 = 32 ∨ (Rect.block (s := S128x1024) S128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x3200.size a ≤ S1024x32000.size a
  hwx2_1 : ∀ i : grid2.Coords, EltTy.bits .f32 = 32 ∨ (Rect.block (s := S1024x32000) S1024x3200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x3200.size a ≤ S1x32000.size a
  hwx2_2 : ∀ i : grid2.Coords, EltTy.bits .f32 = 32 ∨ (Rect.block (s := S1x32000) S1x3200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x3200.size a ≤ S128x32000.size a
  hwx2_3 : ∀ i : grid2.Coords, EltTy.bits .f32 = 32 ∨ (Rect.block (s := S128x32000) S128x3200.size (cc2_transform_3 i) (hinb2_3 i)).WholeWords (EltTy.packing .f32)

variable [Facts₀]

def gather_S32000x256_S128x1_S128x256_1_0_n_n_0_1_1256 : GatherDims S32000x256 S128x1 S128x256 where
  offsetDims := [1]
  collapsedSliceDims := [0]
  operandBatchingDims := []
  startIndicesBatchingDims := []
  startIndexMap := [0]
  indexVectorDim := 1
  sliceSizes := ![1, 256]
  wf := gather_S32000x256_S128x1_S128x256_1_0_n_n_0_1_1256_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf
def dot_S128x1024_S1024x3200_S128x3200_1_0_0_1_n_n : DotDims S128x1024 S1024x3200 S128x3200 where
  lhsContracting := [1]
  rhsContracting := [0]
  lhsNonContracting := [0]
  rhsNonContracting := [1]
  lhsBatch := []
  rhsBatch := []
  wf := dot_S128x1024_S1024x3200_S128x3200_1_0_0_1_n_n_wf

abbrev win0_0 : Pipeline.Window sig grid0 :=
  Pipeline.Window.ofSpec (Memref.whole main_v7) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x3x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x3x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x3x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x3x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v12) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x3x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1024x3x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x3x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x3x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v17) S128x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v17) S128x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S1024x3200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x3200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S128x1 : Shape := ⟨2, ![128, 1]⟩
abbrev S128x1024 : Shape := ⟨2, ![128, 1024]⟩
abbrev S32000x256 : Shape := ⟨2, ![32000, 256]⟩
abbrev S256x3072 : Shape := ⟨2, ![256, 3072]⟩
abbrev S1024x3072 : Shape := ⟨2, ![1024, 3072]⟩
abbrev S3072 : Shape := ⟨1, ![3072]⟩
abbrev S1024x32000 : Shape := ⟨2, ![1024, 32000]⟩
abbrev S32000 : Shape := ⟨1, ![32000]⟩
abbrev S128 : Shape := ⟨1, ![128]⟩
abbrev S_ : Shape := ⟨0, ![]⟩
abbrev S128x256 : Shape := ⟨2, ![128, 256]⟩
abbrev S128x3072 : Shape := ⟨2, ![128, 3072]⟩
abbrev S1x3072 : Shape := ⟨2, ![1, 3072]⟩
abbrev S128x32000 : Shape := ⟨2, ![128, 32000]⟩
abbrev S1x32000 : Shape := ⟨2, ![1, 32000]⟩

abbrev nBuf : Space → Nat
  | .hbm => 110
  | .vmem => 0
  | .smem => 0
  | _ => 0

abbrev bufTy : (tb : Table) → Fin (tcTables nBuf tb) → BufTy
  | .hbm, ⟨0, _⟩ => ⟨S128x1, .i32⟩
  | .hbm, ⟨1, _⟩ => ⟨S128x1024, .f32⟩
  | .hbm, ⟨2, _⟩ => ⟨S128x1024, .f32⟩
  | .hbm, ⟨3, _⟩ => ⟨S32000x256, .f32⟩
  | .hbm, ⟨4, _⟩ => ⟨S256x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024x3072, .f32⟩
  | .hbm, ⟨9, _⟩ => ⟨S1024x3072, .f32⟩
  | .hbm, ⟨10, _⟩ => ⟨S3072, .f32⟩
  | .hbm, ⟨11, _⟩ => ⟨S3072, .f32⟩
  | .hbm, ⟨12, _⟩ => ⟨S1024x32000, .f32⟩
  | .hbm, ⟨13, _⟩ => ⟨S32000, .f32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S128x256, .f32⟩
  | .hbm, ⟨24, _⟩ => ⟨S128x3072, .f32⟩
  | .hbm, ⟨25, _⟩ => ⟨S1x3072, .f32⟩
  | .hbm, ⟨26, _⟩ => ⟨S128x3072, .f32⟩
  | .hbm, ⟨27, _⟩ => ⟨S128x3072, .f32⟩
  | .hbm, ⟨28, _⟩ => ⟨S128x3072, .f32⟩
  | .hbm, ⟨29, _⟩ => ⟨S1x3072, .f32⟩
  | .hbm, ⟨30, _⟩ => ⟨S128x3072, .f32⟩
  | .hbm, ⟨31, _⟩ => ⟨S128x3072, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S_, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S128x3072, .f32⟩
  | .hbm, ⟨66, _⟩ => ⟨S1x3072, .f32⟩
  | .hbm, ⟨67, _⟩ => ⟨S128x3072, .f32⟩
  | .hbm, ⟨68, _⟩ => ⟨S128x3072, .f32⟩
  | .hbm, ⟨69, _⟩ => ⟨S128x3072, .f32⟩
  | .hbm, ⟨70, _⟩ => ⟨S1x3072, .f32⟩
  | .hbm, ⟨71, _⟩ => ⟨S128x3072, .f32⟩
  | .hbm, ⟨72, _⟩ => ⟨S128x3072, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S128x1024, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S128x1024, .f32⟩
  | .hbm, ⟨81, _⟩ => ⟨S128x1024, .f32⟩
  | .hbm, ⟨82, _⟩ => ⟨S_, .f32⟩
  | .hbm, ⟨83, _⟩ => ⟨S128x1024, .f32⟩
  | .hbm, ⟨84, _⟩ => ⟨S128x1024, .f32⟩
  | .hbm, ⟨85, _⟩ => ⟨S_, .f32⟩
  | .hbm, ⟨86, _⟩ => ⟨S128x1024, .f32⟩
  | .hbm, ⟨87, _⟩ => ⟨S128x1024, .f32⟩
  | .hbm, ⟨88, _⟩ => ⟨S128x1024, .f32⟩
  | .hbm, ⟨89, _⟩ => ⟨S128x1024, .f32⟩
  | .hbm, ⟨90, _⟩ => ⟨S128x1024, .f32⟩
  | .hbm, ⟨91, _⟩ => ⟨S_, .f32⟩
  | .hbm, ⟨92, _⟩ => ⟨S128x1024, .f32⟩
  | .hbm, ⟨93, _⟩ => ⟨S128x1024, .f32⟩
  | .hbm, ⟨94, _⟩ => ⟨S_, .f32⟩
  | .hbm, ⟨95, _⟩ => ⟨S128x1024, .f32⟩
  | .hbm, ⟨96, _⟩ => ⟨S128x1024, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S128x1024, .f32⟩
  | .hbm, ⟨101, _⟩ => ⟨S_, .f32⟩
  | .hbm, ⟨102, _⟩ => ⟨S128x1024, .f32⟩
  | .hbm, ⟨103, _⟩ => ⟨S128x1024, .f32⟩
  | .hbm, ⟨104, _⟩ => ⟨S128x1024, .f32⟩
  | .hbm, ⟨105, _⟩ => ⟨S128x1024, .f32⟩
  | .hbm, ⟨106, _⟩ => ⟨S128x32000, .f32⟩
  | .hbm, ⟨107, _⟩ => ⟨S1x32000, .f32⟩
  | .hbm, ⟨108, _⟩ => ⟨S128x32000, .f32⟩
  | .hbm, ⟨109, _⟩ => ⟨S128x32000, .f32⟩
  | _, _ => ⟨S128x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]

class Facts₀ : Prop where
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S3072_S1x3072_1 : S3072.BroadcastsInDim S1x3072 (![1] : Fin 1 → Fin S1x3072.rank)
  bcast_S1x3072_S128x3072_0_1 : S1x3072.BroadcastsInDim S128x3072 (![0, 1] : Fin 2 → Fin S128x3072.rank)
  slices_S128x3072_S128x1024_0_0 : S128x3072.Slices ![0, 0] S128x1024
  slices_S128x3072_S128x1024_0_1024 : S128x3072.Slices ![0, 1024] S128x1024
  slices_S128x3072_S128x1024_0_2048 : S128x3072.Slices ![0, 2048] S128x1024
  bcast_S_S128x1024 : S_.BroadcastsInDim S128x1024 (![] : Fin 0 → Fin S128x1024.rank)
  bcast_S32000_S1x32000_1 : S32000.BroadcastsInDim S1x32000 (![1] : Fin 1 → Fin S1x32000.rank)
  bcast_S1x32000_S128x32000_0_1 : S1x32000.BroadcastsInDim S128x32000 (![0, 1] : Fin 2 → Fin S128x32000.rank)
  gather_S32000x256_S128x1_S128x256_1_0_n_n_0_1_1256_wf : GatherDims.WF S32000x256 S128x1 S128x256 [1] [0] [] [0] [] 1 ![1, 256]
  dot_S128x256_S256x3072_S128x3072_1_0_0_1_n_n_wf : DotDims.WF S128x256 S256x3072 S128x3072 [1] [0] [0] [1] [] []
  dot_S128x1024_S1024x3072_S128x3072_1_0_0_1_n_n_wf : DotDims.WF S128x1024 S1024x3072 S128x3072 [1] [0] [0] [1] [] []
  dot_S128x1024_S1024x32000_S128x32000_1_0_0_1_n_n_wf : DotDims.WF S128x1024 S1024x32000 S128x32000 [1] [0] [0] [1] [] []

variable [Facts₀]

def gather_S32000x256_S128x1_S128x256_1_0_n_n_0_1_1256 : GatherDims S32000x256 S128x1 S128x256 where
  offsetDims := [1]
  collapsedSliceDims := [0]
  operandBatchingDims := []
  startIndicesBatchingDims := []
  startIndexMap := [0]
  indexVectorDim := 1
  sliceSizes := ![1, 256]
  wf := gather_S32000x256_S128x1_S128x256_1_0_n_n_0_1_1256_wf
def dot_S128x256_S256x3072_S128x3072_1_0_0_1_n_n : DotDims S128x256 S256x3072 S128x3072 where
  lhsContracting := [1]
  rhsContracting := [0]
  lhsNonContracting := [0]
  rhsNonContracting := [1]
  lhsBatch := []
  rhsBatch := []
  wf := dot_S128x256_S256x3072_S128x3072_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S128x1024_S1024x32000_S128x32000_1_0_0_1_n_n : DotDims S128x1024 S1024x32000 S128x32000 where
  lhsContracting := [1]
  rhsContracting := [0]
  lhsNonContracting := [0]
  rhsNonContracting := [1]
  lhsBatch := []
  rhsBatch := []
  wf := dot_S128x1024_S1024x32000_S128x32000_1_0_0_1_n_n_wf

class Facts : Prop extends Facts₀ where

variable [Facts]
-- ==== Proof.KRunCond.lean ====
/-
  The program's run from one record per region.

  The program is six items in a row: a stretch of host operations, the first recurrent layer's region, a second
  stretch, the second layer's region, a third stretch, the head's region. Between two items every core holds each of
  its unscoped buffers whole at a known valuation: the launch contents, then each stretch applied in turn, then, after
  a region, the region's output array replaced by what the region leaves. Given for each region a record that it may
  be entered from the valuation before it and is left at the one after it, every execution ends with every unscoped
  buffer at the last valuation. Both the claim that the arguments end unchanged and the values of the results are read
  off this one statement.
-/
import proofs.«120770_j4544075399464_2_alg».proof.Proof.Gen.Kernel.Regions

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

set_option backward.isDefEq.respectTransparency.types false in
/-- The program's run, given each region's record: from any launch memory with zero counters every weakly fair execution
    ends, nothing faulting, with every unscoped buffer of every core at the last valuation of the chain: launch contents,
    then each stretch of host operations applied, then each region's output array replaced by what the region leaves. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V6 m outs c) s')
    isplitl [Hh] <;> iassumption

end Cert.Kernel.Fr

end
-- ==== Proof.KFrameHead.lean ====
/-
  The vocabulary head as one region of the program: what each grid point is handed, what it leaves, and that the
  body, run on those blocks, leaves exactly that.

  Grid point t works on the strip of 3200 output columns starting at column 3200 * t. It is handed the whole hidden
  state (fetched once, at the first point, and still in place afterwards), the strip's 1024 x 3200 block of the
  weight matrix and its 1 x 3200 block of the bias, and leaves in the output window's buffer one whole-block store:
  the body's arithmetic applied to those three blocks.
-/
import proofs.«120770_j4544075399464_2_alg».proof.Proof.Gen.Kernel.Launch
import proofs.«120770_j4544075399464_2_alg».proof.Proof.Gen.Kernel.Skeleton
import proofs.«120770_j4544075399464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether the point fetches it or finds it in
    place: the block's position has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each buffer, as the body's loads and its one store address it. -/
abbrev rH2 : Rect S128x1024 := Rect.unit (s := S128x1024) ![0, 0] S128x1024.size inb_S128x1024_S128x1024_0_0
abbrev rW2 : Rect S1024x3200 := Rect.unit (s := S1024x3200) ![0, 0] S1024x3200.size inb_S1024x3200_S1024x3200_0_0
abbrev rB2 : Rect S1x3200 := Rect.unit (s := S1x3200) ![0, 0] S1x3200.size inb_S1x3200_S1x3200_0_0
abbrev rO2 : Rect S128x3200 := Rect.unit (s := S128x3200) ![0, 0] S128x3200.size inb_S128x3200_S128x3200_0_0

/-- The output window's buffer after the body: its one store, of the body's arithmetic on the three loaded blocks. -/
def out2_3 (x0 : Vec F S128x1024 .f32) (x1 : Vec F S1024x3200 .f32) (x2 : Vec F S1x3200 .f32) : Vec F S128x3200 .f32 :=
  View.canon [⟨rO2, k2_pay1 (View.ld x0 rH2) (View.ld x1 rW2) (View.ld x2 rB2)⟩]

/-- The one store covers the buffer. -/
theorem cover2_3 (p0 : Vec F S128x3200 .f32) (y : S128x3200.Idx) :
    ∃ pc ∈ ([⟨rO2, p0⟩] : List (View.Piece (Elt F) S128x3200 .f32)), y ∈ pc.1.set :=
  View.cover_of_tiled [⟨rO2, p0⟩] S128x3200.size (by rfl) y

set_option maxHeartbeats 1000000 in
/-- The body on whole buffers: the inputs' at read contents, the output's at anything; it ends with the inputs as they
    were and the output at out2_3 of the inputs. -/
theorem sound_kernel2 (c : Dev nD) (E : Set ℕ) (i : grid2.Coords)
    (arg1 : Memref sig .tc .vmem S128x1024 .f32) (harg1 : arg1.IsWhole) (arg2 : Memref sig .tc .vmem S1024x3200 .f32) (harg2 : arg2.IsWhole)
    (arg3 : Memref sig .tc .vmem S1x3200 .f32) (harg3 : arg3.IsWhole) (arg4 : Memref sig .tc .vmem S128x3200 .f32) (harg4 : arg4.IsWhole)
    (x0 : Vec F S128x1024 .f32) (x1 : Vec F S1024x3200 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__head_kernel i arg1 harg1 arg2 harg2 arg3 harg3 arg4 harg4) K := by
  simp only [cc2__head_kernel_eq_skeleton]; unfold cc2__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the head's pipeline on core c: the arrays as the region finds them; after the body at point t
    each input's buffer at its block, the output's at out2_3 of the three blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so sound_kernel2 applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the head's pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrameGru0.lean ====
/-
  One gated recurrent layer as one region of the program: what each grid point is handed, what it leaves, and that
  the body, run on those blocks, leaves exactly that.

  Grid point t works on the strip of 256 hidden units starting at unit 256 * t. It is handed the layer's whole input
  and the whole previous state (both fetched once, at the first point, and still in place afterwards), the previous
  state's strip, the strip's blocks of the two weight tensors (rows x 3 gates x 256 units) and of the two biases
  (1 x 3 x 256), and leaves in the output window's buffer one whole-block store: the body's arithmetic applied to
  those seven blocks. The whole previous state and its strip are two windows on one and the same array.
-/
import proofs.«120770_j4544075399464_2_alg».proof.Proof.Gen.Kernel.Launch
import proofs.«120770_j4544075399464_2_alg».proof.Proof.Gen.Kernel.Skeleton
import proofs.«120770_j4544075399464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, whether the point fetches it or finds it in
    place: the block's position has not moved since the fetch. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The whole of each buffer, as the body's loads and its one store address it. -/
abbrev rX0 : Rect S128x256 := Rect.unit (s := S128x256) ![0, 0] S128x256.size inb_S128x256_S128x256_0_0
abbrev rHf0 : Rect S128x1024 := Rect.unit (s := S128x1024) ![0, 0] S128x1024.size inb_S128x1024_S128x1024_0_0
abbrev rHt0 : Rect S128x256 := Rect.unit (s := S128x256) ![0, 0] S128x256.size inb_S128x256_S128x256_0_0
abbrev rWi0 : Rect S256x3x256 := Rect.unit (s := S256x3x256) ![0, 0, 0] S256x3x256.size inb_S256x3x256_S256x3x256_0_0_0
abbrev rWr0 : Rect S1024x3x256 := Rect.unit (s := S1024x3x256) ![0, 0, 0] S1024x3x256.size inb_S1024x3x256_S1024x3x256_0_0_0
abbrev rBi0 : Rect S1x3x256 := Rect.unit (s := S1x3x256) ![0, 0, 0] S1x3x256.size inb_S1x3x256_S1x3x256_0_0_0
abbrev rBr0 : Rect S1x3x256 := Rect.unit (s := S1x3x256) ![0, 0, 0] S1x3x256.size inb_S1x3x256_S1x3x256_0_0_0
abbrev rO0 : Rect S128x256 := Rect.unit (s := S128x256) ![0, 0] S128x256.size inb_S128x256_S128x256_0_0

/-- The output window's buffer after the body: its one store, of the body's arithmetic on the seven loaded blocks. -/
def out0_7 (x0 : Vec F S128x256 .f32) (x1 : Vec F S128x1024 .f32) (x2 : Vec F S128x256 .f32) (x3 : Vec F S256x3x256 .f32) (x4 : Vec F S1024x3x256 .f32) (x5 : Vec F S1x3x256 .f32) (x6 : Vec F S1x3x256 .f32) : Vec F S128x256 .f32 :=
  View.canon [⟨rO0, k0_pay1 (k0_pay3 (View.ld x1 rHf0)) (k0_pay5 (View.ld x4 rWr0)) (k0_pay7 (View.ld x6 rBr0)) (k0_pay8 (View.ld x0 rX0) (View.ld x3 rWi0) (View.ld x5 rBi0)) (k0_pay9 (View.ld x0 rX0) (View.ld x3 rWi0) (View.ld x5 rBi0)) (k0_pay10 (View.ld x0 rX0) (View.ld x3 rWi0) (View.ld x5 rBi0)) (k0_pay11 (View.ld x1 rHf0) (View.ld x4 rWr0)) (View.ld x2 rHt0)⟩]

/-- The one store covers the buffer. -/
theorem cover0_7 (p0 : Vec F S128x256 .f32) (y : S128x256.Idx) :
    ∃ pc ∈ ([⟨rO0, p0⟩] : List (View.Piece (Elt F) S128x256 .f32)), y ∈ pc.1.set :=
  View.cover_of_tiled [⟨rO0, p0⟩] S128x256.size (by rfl) y

set_option maxHeartbeats 2000000 in
/-- The body on whole buffers: the inputs' at read contents, the output's at anything; it ends with the inputs as they
    were and the output at out0_7 of the inputs. -/
theorem sound_kernel0 (c : Dev nD) (E : Set ℕ) (i : grid0.Coords) (arg1 : Memref sig .tc .vmem S128x256 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S256x3x256 .f32) (harg4 : arg4.IsWhole) (arg5 : Memref sig .tc .vmem S1024x3x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S128x256 .f32) (harg8 : arg8.IsWhole)
    (x0 : Vec F S128x256 .f32) (x1 : Vec F S128x1024 .f32) (x2 : Vec F S128x256 .f32) (x3 : Vec F S256x3x256 .f32) (x4 : Vec F S1024x3x256 .f32) (x5 : Vec F S1x3x256 .f32) (x6 : Vec F S1x3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of this layer's pipeline on core c: the arrays as the region finds them; after the body at point t
    each input's buffer at its block, the output's at out0_7 of the seven blocks; nothing owed. The array of the previous
    state is held in two halves, the left by the window on the whole state, the right by the window on its strip;
    every other input array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so sound_kernel0 applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of this layer's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrameGru1.lean ====
/-
  One gated recurrent layer as one region of the program: what each grid point is handed, what it leaves, and that
  the body, run on those blocks, leaves exactly that.

  Grid point t works on the strip of 256 hidden units starting at unit 256 * t. It is handed the layer's whole input
  and the whole previous state (both fetched once, at the first point, and still in place afterwards), the previous
  state's strip, the strip's blocks of the two weight tensors (rows x 3 gates x 256 units) and of the two biases
  (1 x 3 x 256), and leaves in the output window's buffer one whole-block store: the body's arithmetic applied to
  those seven blocks. The whole previous state and its strip are two windows on one and the same array.
-/
import proofs.«120770_j4544075399464_2_alg».proof.Proof.Gen.Kernel.Launch
import proofs.«120770_j4544075399464_2_alg».proof.Proof.Gen.Kernel.Skeleton
import proofs.«120770_j4544075399464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, whether the point fetches it or finds it in
    place: the block's position has not moved since the fetch. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole of each buffer, as the body's loads and its one store address it. -/
abbrev rX1 : Rect S128x1024 := Rect.unit (s := S128x1024) ![0, 0] S128x1024.size inb_S128x1024_S128x1024_0_0
abbrev rHf1 : Rect S128x1024 := Rect.unit (s := S128x1024) ![0, 0] S128x1024.size inb_S128x1024_S128x1024_0_0
abbrev rHt1 : Rect S128x256 := Rect.unit (s := S128x256) ![0, 0] S128x256.size inb_S128x256_S128x256_0_0
abbrev rWi1 : Rect S1024x3x256 := Rect.unit (s := S1024x3x256) ![0, 0, 0] S1024x3x256.size inb_S1024x3x256_S1024x3x256_0_0_0
abbrev rWr1 : Rect S1024x3x256 := Rect.unit (s := S1024x3x256) ![0, 0, 0] S1024x3x256.size inb_S1024x3x256_S1024x3x256_0_0_0
abbrev rBi1 : Rect S1x3x256 := Rect.unit (s := S1x3x256) ![0, 0, 0] S1x3x256.size inb_S1x3x256_S1x3x256_0_0_0
abbrev rBr1 : Rect S1x3x256 := Rect.unit (s := S1x3x256) ![0, 0, 0] S1x3x256.size inb_S1x3x256_S1x3x256_0_0_0
abbrev rO1 : Rect S128x256 := Rect.unit (s := S128x256) ![0, 0] S128x256.size inb_S128x256_S128x256_0_0

/-- The output window's buffer after the body: its one store, of the body's arithmetic on the seven loaded blocks. -/
def out1_7 (x0 : Vec F S128x1024 .f32) (x1 : Vec F S128x1024 .f32) (x2 : Vec F S128x256 .f32) (x3 : Vec F S1024x3x256 .f32) (x4 : Vec F S1024x3x256 .f32) (x5 : Vec F S1x3x256 .f32) (x6 : Vec F S1x3x256 .f32) : Vec F S128x256 .f32 :=
  View.canon [⟨rO1, k1_pay1 (k1_pay3 (View.ld x1 rHf1)) (k1_pay5 (View.ld x4 rWr1)) (k1_pay7 (View.ld x6 rBr1)) (k1_pay8 (View.ld x0 rX1) (View.ld x3 rWi1) (View.ld x5 rBi1)) (k1_pay9 (View.ld x0 rX1) (View.ld x3 rWi1) (View.ld x5 rBi1)) (k1_pay10 (View.ld x0 rX1) (View.ld x3 rWi1) (View.ld x5 rBi1)) (k1_pay11 (View.ld x1 rHf1) (View.ld x4 rWr1)) (View.ld x2 rHt1)⟩]

/-- The one store covers the buffer. -/
theorem cover1_7 (p0 : Vec F S128x256 .f32) (y : S128x256.Idx) :
    ∃ pc ∈ ([⟨rO1, p0⟩] : List (View.Piece (Elt F) S128x256 .f32)), y ∈ pc.1.set :=
  View.cover_of_tiled [⟨rO1, p0⟩] S128x256.size (by rfl) y

set_option maxHeartbeats 2000000 in
/-- The body on whole buffers: the inputs' at read contents, the output's at anything; it ends with the inputs as they
    were and the output at out1_7 of the inputs. -/
theorem sound_kernel1 (c : Dev nD) (E : Set ℕ) (i : grid1.Coords) (arg1 : Memref sig .tc .vmem S128x1024 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S1024x3x256 .f32) (harg4 : arg4.IsWhole) (arg5 : Memref sig .tc .vmem S1024x3x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S128x256 .f32) (harg8 : arg8.IsWhole)
    (x0 : Vec F S128x1024 .f32) (x1 : Vec F S128x1024 .f32) (x2 : Vec F S128x256 .f32) (x3 : Vec F S1024x3x256 .f32) (x4 : Vec F S1024x3x256 .f32) (x5 : Vec F S1x3x256 .f32) (x6 : Vec F S1x3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__gru_kernel i arg1 harg1 arg2 harg2 arg3 harg3 arg4 harg4 arg5 harg5 arg6 harg6 arg7 harg7 arg8 harg8) K := by
  simp only [cc1__gru_kernel_eq_skeleton]; unfold cc1__gru_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of this layer's pipeline on core c: the arrays as the region finds them; after the body at point t
    each input's buffer at its block, the output's at out1_7 of the seven blocks; nothing owed. The array of the previous
    state is held in two halves, the left by the window on the whole state, the right by the window on its strip;
    every other input array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so sound_kernel1 applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of this layer's pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.LibSharedPair.lean ====
/-
  Dealing one shared array between two windows.

  A pipeline whose windows all sit on distinct arrays holds each array whole, at the full share. When exactly two
  windows w₁ and w₂ read one and the same array, the distinct buffers behind the windows are one fewer than the
  windows, and the full share of the shared buffer is cut in two: its left half for w₁, its right half for w₂. Every
  other window keeps the full share of its own array. The buffers behind the arrays, each whole at the full share,
  are then exactly the windows' arrays at these shares: the two halves of a points-to compose to the whole and
  split from it again, so the statement is an equivalence and serves both when a region is entered and when it is
  left.
-/
import Idealize.ShloMosaic.Lib.Pipeline.Regions

noncomputable section

namespace Idealize.ShloMosaic.Pipeline

open Idealize.SL
open Idealize.SL.BI (sProp bigSep bigSep_congr bigSep_erase bigSep_image_of_injOn)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

/-- A whole that is its two halves, beside a rest: the right half, then the left half beside the rest. -/
theorem sep_halves_frame (A Al Ar R : sProp 𝕄) (h : A ⊣⊢ iprop(Al ∗ Ar)) : iprop(A ∗ R) ⊣⊢ iprop(Ar ∗ (Al ∗ R)) := by
  constructor
  · refine (sep_mono h.1 .rfl).trans ?_
    iintro ⟨⟨Hl, Hrt⟩, Hr⟩
    isplitl [Hrt]; · iexact Hrt
    isplitl [Hl]; · iexact Hl
    iexact Hr
  · refine Entails.trans ?_ (sep_mono h.2 .rfl)
    iintro ⟨Hrt, Hl, Hr⟩
    isplitl [Hl Hrt]
    · isplitl [Hl]; · iexact Hl
      iexact Hrt
    iexact Hr

/-- The buffers behind the windows' arrays, whole at the full share, are the windows' arrays when two windows w₁, w₂
    share one array at complementary halves and all other windows hold distinct arrays at the full share. -/
theorem arrBufs_equiv_arrays_pair {cfg : Cfg sig Λ₀} {c : Dev nD} (dat : Dat τ Val Ix Name U Lvl cfg c)
    (w₁ w₂ : Fin cfg.W) (hne : w₁ ≠ w₂) (hsame : arrRef cfg.spec w₂ = arrRef cfg.spec w₁)
    (hinj : Set.InjOn (arrRef cfg.spec) ((Finset.univ.erase w₂ : Finset (Fin cfg.W)) : Set (Fin cfg.W)))
    (harr : ∀ w, (cfg.spec w).arr.IsWhole)
    (h₁ : dat.share w₁ = (fullShare : PosShare TreeShare).left) (h₂ : dat.share w₂ = (fullShare : PosShare TreeShare).right)
    (hrest : ∀ w, w ≠ w₁ → w ≠ w₂ → dat.share w = fullShare)
    (V : (b : Ref sig .tc) → Buf Val ((c.tc : Thread nD τ).loc b))
    (F : (w : Fin cfg.W) → Buf Val (((cfg.spec w).arr.view.loc (c.tc : Thread nD τ))))
    (hF : ∀ w, F w = V (arrRef cfg.spec w)) :
    (arrBufs cfg.spec c V : sProp 𝕄) ⊣⊢ dat.arrays F := by
  classical
  -- the windows' arrays, each a whole buffer at the window's share and the valuation's contents
  have hA : dat.arrays F = bigSep Finset.univ fun w : Fin cfg.W =>
      ((((c.tc : Thread nD τ).loc (arrRef cfg.spec w)) ↦{dat.share w} V (arrRef cfg.spec w)) : sProp 𝕄) := by
    unfold Dat.arrays
    exact bigSep_congr fun w _ => by rw [(harr w).set_eq_univ, hF]
  have hm1 : w₁ ∈ (Finset.univ.erase w₂ : Finset (Fin cfg.W)) := Finset.mem_erase.mpr ⟨hne, Finset.mem_univ _⟩
  -- the distinct buffers are the arrays of all windows but w₂
  have himg : Finset.univ.image (arrRef cfg.spec) = (Finset.univ.erase w₂).image (arrRef cfg.spec) := by
    ext b
    constructor
    · intro hb
      obtain ⟨w, -, rfl⟩ := Finset.mem_image.mp hb
      by_cases hw : w = w₂
      · exact Finset.mem_image.mpr ⟨w₁, hm1, by rw [hw, hsame]⟩
      · exact Finset.mem_image.mpr ⟨w, Finset.mem_erase.mpr ⟨hw, Finset.mem_univ _⟩, rfl⟩
    · intro hb
      obtain ⟨w, -, rfl⟩ := Finset.mem_image.mp hb
      exact Finset.mem_image.mpr ⟨w, Finset.mem_univ _, rfl⟩
  have hB : (arrBufs cfg.spec c V : sProp 𝕄) = bigSep (Finset.univ.erase w₂) fun w : Fin cfg.W =>
      ((((c.tc : Thread nD τ).loc (arrRef cfg.spec w)) ↦{fullShare} V (arrRef cfg.spec w)) : sProp 𝕄) := by
    unfold arrBufs
    rw [himg, bigSep_image_of_injOn hinj]
  rw [hA, hB, bigSep_erase (Finset.mem_univ w₂), bigSep_erase hm1 (Φ := fun w : Fin cfg.W =>
      ((((c.tc : Thread nD τ).loc (arrRef cfg.spec w)) ↦{dat.share w} V (arrRef cfg.spec w)) : sProp 𝕄)),
    bigSep_erase hm1 (Φ := fun w : Fin cfg.W =>
      ((((c.tc : Thread nD τ).loc (arrRef cfg.spec w)) ↦{fullShare} V (arrRef cfg.spec w)) : sProp 𝕄))]
  -- off the two windows the shares are full on both sides
  have hoff : (bigSep ((Finset.univ.erase w₂).erase w₁) fun w : Fin cfg.W =>
        ((((c.tc : Thread nD τ).loc (arrRef cfg.spec w)) ↦{dat.share w} V (arrRef cfg.spec w)) : sProp 𝕄))
      = bigSep ((Finset.univ.erase w₂).erase w₁) fun w : Fin cfg.W =>
        ((((c.tc : Thread nD τ).loc (arrRef cfg.spec w)) ↦{fullShare} V (arrRef cfg.spec w)) : sProp 𝕄) :=
    bigSep_congr fun w hw => by
      have hw1 : w ≠ w₁ := (Finset.mem_erase.mp hw).1
      have hw2 : w ≠ w₂ := (Finset.mem_erase.mp (Finset.mem_erase.mp hw).2).1
      rw [hrest w hw1 hw2]
  rw [hoff, h₁, h₂]
  -- the shared buffer: its whole is its two halves, the second read at w₂'s name for the same array
  have h2 : ((((c.tc : Thread nD τ).loc (arrRef cfg.spec w₂)) ↦{(fullShare : PosShare TreeShare).right} V (arrRef cfg.spec w₂)) : sProp 𝕄)
      = (((c.tc : Thread nD τ).loc (arrRef cfg.spec w₁)) ↦{(fullShare : PosShare TreeShare).right} V (arrRef cfg.spec w₁)) :=
    congrArg (fun b : Ref sig .tc => ((((c.tc : Thread nD τ).loc b) ↦{(fullShare : PosShare TreeShare).right} V b) : sProp 𝕄)) hsame
  rw [h2]
  have hsh : ((((c.tc : Thread nD τ).loc (arrRef cfg.spec w₁)) ↦{(fullShare : PosShare TreeShare)} V (arrRef cfg.spec w₁)) : sProp 𝕄)
      ⊣⊢ iprop(((((c.tc : Thread nD τ).loc (arrRef cfg.spec w₁)) ↦{(fullShare : PosShare TreeShare).left} V (arrRef cfg.spec w₁)))
          ∗ (((c.tc : Thread nD τ).loc (arrRef cfg.spec w₁)) ↦{(fullShare : PosShare TreeShare).right} V (arrRef cfg.spec w₁))) :=
    pointsTo_share (PosShare.mem_left_op_right _)
  exact sep_halves_frame _ _ _ _ hsh

end Idealize.ShloMosaic.Pipeline

end
-- ==== Proof.KFrameRun.lean ====
/-
  The kernel program's run: its three regions as segments between the stretches of host operations, and the run
  they make.

  Each region's proof data sit at the valuation the region is entered from. What a region leaves in its output array
  is what its proof data compute from the write-backs of all its grid points; the valuation after the region is the
  one before it with that array replaced. The two recurrent layers hand the previous state's array to two windows, so
  on entry its full share is cut in two halves and on exit the halves are put together again; the head's four windows
  sit on four distinct arrays. Every core then ends with each unscoped buffer at the last valuation.
-/
import proofs.«120770_j4544075399464_2_alg».proof.Proof.KRunCond
import proofs.«120770_j4544075399464_2_alg».proof.Proof.KFrameHead
import proofs.«120770_j4544075399464_2_alg».proof.Proof.KFrameGru0
import proofs.«120770_j4544075399464_2_alg».proof.Proof.KFrameGru1
import proofs.«120770_j4544075399464_2_alg».proof.Proof.LibSharedPair

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev tcV (W : Dev nD → Valuation τ sig (Elt F)) : (c : Dev nD) → (b : Ref sig .tc) → Buf (Elt F) ((c : Thread nD τ).loc b) :=
  fun c b => W c b

/-! ## What the regions leave, stage by stage -/

/-- What the first layer's region leaves in its output array: its proof data at the valuation after the first stretch. -/
def o0 (c : Dev nD) : Buf (Elt F) ((c : Thread nD τ).loc main_v12) := (dat0 (tcV (V1 m)) c).arrAt 7 cfg0.N
/-- The unknowns with the first region's output filled in. -/
def outsA : Outs (F := F) := fun _ r c => Function.update (V1 m c) main_v12 (o0 m c) r
/-- What the second layer's region leaves: its proof data at the valuation after the second stretch. -/
def o1 (c : Dev nD) : Buf (Elt F) ((c : Thread nD τ).loc main_v17) := (dat1 (tcV (V3 m (outsA m))) c).arrAt 7 cfg1.N
/-- The unknowns with the first two regions' outputs filled in. -/
def outsB : Outs (F := F) := fun J r c => if J = 2 then outsA m J r c else Function.update (V3 m (outsA m) c) main_v17 (o1 m c) r
/-- What the head's region leaves: its proof data at the valuation after the third stretch. -/
def o2 (c : Dev nD) : Buf (Elt F) ((c : Thread nD τ).loc main_v19) := (dat2 (tcV (V5 m (outsB m))) c).arrAt 3 cfg2.N
/-- All three. -/
def outs : Outs (F := F) := fun J r c => if J = 6 then Function.update (V5 m (outsB m) c) main_v19 (o2 m c) r else outsB m J r c

theorem outs_2 (c : Dev nD) : outs m 2 main_v12 c = o0 m c := by
  unfold outs outsB outsA; simp only [show ¬ (2 = 6) by decide, if_false, if_true, Function.update_self]
theorem outs_4 (c : Dev nD) : outs m 4 main_v17 c = o1 m c := by
  unfold outs outsB; simp only [show ¬ (4 = 6) by decide, show ¬ (4 = 2) by decide, if_false, Function.update_self]
theorem outs_6 (c : Dev nD) : outs m 6 main_v19 c = o2 m c := by
  unfold outs; simp only [if_true, Function.update_self]

/-- The valuations of the chain do not depend on the stage at which the unknowns were filled in. -/
theorem V2_stage (c : Dev nD) : V2 m (outs m) c = V2 m (outsA m) c := by
  unfold V2; rw [outs_2]; unfold outsA; rw [Function.update_self]
theorem V3_stage (c : Dev nD) : V3 m (outs m) c = V3 m (outsA m) c := by unfold V3; rw [V2_stage]
theorem V4_stage (c : Dev nD) : V4 m (outs m) c = V4 m (outsB m) c := by
  have hB : V3 m (outsB m) c = V3 m (outsA m) c := by
    unfold V3 V2; unfold outsB; simp only [if_true]
  unfold V4; rw [outs_4, V3_stage, hB]; unfold outsB; simp only [show ¬ (4 = 2) by decide, if_false, Function.update_self]
theorem V5_stage (c : Dev nD) : V5 m (outs m) c = V5 m (outsB m) c := by unfold V5; rw [V4_stage]

theorem V2_out (c : Dev nD) : tcV (V2 m (outs m)) c main_v12 = o0 m c := by
  show V2 m (outs m) c main_v12 = _; unfold V2; rw [Function.update_self, outs_2]
theorem V4_out (c : Dev nD) : tcV (V4 m (outs m)) c main_v17 = o1 m c := by
  show V4 m (outs m) c main_v17 = _; unfold V4; rw [Function.update_self, outs_4]
theorem V6_out (c : Dev nD) : tcV (V6 m (outs m)) c main_v19 = o2 m c := by
  show V6 m (outs m) c main_v19 = _; unfold V6; rw [Function.update_self, outs_6]

/-- A reference the second layer's region does not change holds, after it, what the staged valuation before it holds. -/
theorem V4_in (c : Dev nD) (r : Ref sig .tc) (h : r ∉ ([main_v17] : List (Ref sig .tc))) :
    tcV (V4 m (outs m)) c r = tcV (V3 m (outsA m)) c r :=
  (V4_of m (outs m) c r h).trans (congrFun (V3_stage m c) (Proc.devRef .tc r))
/-- The same for the head's region. -/
theorem V6_in (c : Dev nD) (r : Ref sig .tc) (h : r ∉ ([main_v19] : List (Ref sig .tc))) :
    tcV (V6 m (outs m)) c r = tcV (V5 m (outsB m)) c r :=
  (V6_of m (outs m) c r h).trans (congrFun (V5_stage m c) (Proc.devRef .tc r))

/-! ## The proof data, each at its region's entry valuation -/

/-- Every pipeline's proof data: a literal match, each region's at the valuation it is entered from. -/
def pdats : (p : Fin 3) → (c : Dev nD) → Dat τ (Elt F) Unit ℕ (UR sig nD τ) ℕ (cfgs p) c
  | ⟨0, _⟩ => fun c => dat0 (tcV (V1 m)) c
  | ⟨1, _⟩ => fun c => dat1 (tcV (V3 m (outsA m))) c
  | ⟨2, _⟩ => fun c => dat2 (tcV (V5 m (outsB m))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and what it
    owes, nothing. -/
abbrev R (c : Dev nD) : sProp 𝕄 := iprop((∃ r, prngReg c r) ∗ ∃ W, owes (c : Thread nD τ) (0 : CellTallies nD τ sig Unit) W)

/-! ## The layout facts the shared array asks for -/

/-- Off the window on the previous state's strip, the windows' arrays are pairwise distinct. -/
theorem hinj0 : Set.InjOn (Pipeline.arrRef spec0) ((Finset.univ.erase (2 : Fin cfg0.W) : Finset (Fin cfg0.W)) : Set (Fin cfg0.W)) := by
  intro a ha b hb h
  have ha' : a ≠ 2 := (Finset.mem_erase.mp (Finset.mem_coe.mp ha)).1
  have hb' : b ≠ 2 := (Finset.mem_erase.mp (Finset.mem_coe.mp hb)).1
  revert a b; decide
theorem hinj1 : Set.InjOn (Pipeline.arrRef spec1) ((Finset.univ.erase (2 : Fin cfg1.W) : Finset (Fin cfg1.W)) : Set (Fin cfg1.W)) := by
  intro a ha b hb h
  have ha' : a ≠ 2 := (Finset.mem_erase.mp (Finset.mem_coe.mp ha)).1
  have hb' : b ≠ 2 := (Finset.mem_erase.mp (Finset.mem_coe.mp hb)).1
  revert a b; decide

variable {m} in
theorem hshareRest0 {c : Dev nD} : ∀ w : Fin cfg0.W, w ≠ 1 → w ≠ 2 → (pdats m 0 c).share w = fullShare := fun w h1 h2 => by
  match w with
  | ⟨0, _⟩ => rfl
  | ⟨1, _⟩ => exact absurd rfl h1
  | ⟨2, _⟩ => exact absurd rfl h2
  | ⟨3, _⟩ => rfl
  | ⟨4, _⟩ => rfl
  | ⟨5, _⟩ => rfl
  | ⟨6, _⟩ => rfl
  | ⟨7, _⟩ => rfl
variable {m} in
theorem hshareRest1 {c : Dev nD} : ∀ w : Fin cfg1.W, w ≠ 1 → w ≠ 2 → (pdats m 1 c).share w = fullShare := fun w h1 h2 => by
  match w with
  | ⟨0, _⟩ => rfl
  | ⟨1, _⟩ => exact absurd rfl h1
  | ⟨2, _⟩ => exact absurd rfl h2
  | ⟨3, _⟩ => rfl
  | ⟨4, _⟩ => rfl
  | ⟨5, _⟩ => rfl
  | ⟨6, _⟩ => rfl
  | ⟨7, _⟩ => rfl

/-! ## Each region's arrays at its exit -/

/-- After the first layer's region: its output array at what the region leaves, every input array as it was. -/
theorem hF0 (c : Dev nD) (w : Fin cfg0.W) :
    (pdats m 0 c).arrAt w cfg0.N = tcV (V2 m (outs m)) c (Pipeline.arrRef spec0 w) := by
  match w with
  | ⟨0, _⟩ => exact ((pdats m 0 c).arrAt_in 0 rfl _).trans ((A_eq0 (tcV (V1 m)) c 0).trans (V2_of m (outs m) c _ (by decide)).symm)
  | ⟨1, _⟩ => exact ((pdats m 0 c).arrAt_in 1 rfl _).trans ((A_eq0 (tcV (V1 m)) c 1).trans (V2_of m (outs m) c _ (by decide)).symm)
  | ⟨2, _⟩ => exact ((pdats m 0 c).arrAt_in 2 rfl _).trans ((A_eq0 (tcV (V1 m)) c 2).trans (V2_of m (outs m) c _ (by decide)).symm)
  | ⟨3, _⟩ => exact ((pdats m 0 c).arrAt_in 3 rfl _).trans ((A_eq0 (tcV (V1 m)) c 3).trans (V2_of m (outs m) c _ (by decide)).symm)
  | ⟨4, _⟩ => exact ((pdats m 0 c).arrAt_in 4 rfl _).trans ((A_eq0 (tcV (V1 m)) c 4).trans (V2_of m (outs m) c _ (by decide)).symm)
  | ⟨5, _⟩ => exact ((pdats m 0 c).arrAt_in 5 rfl _).trans ((A_eq0 (tcV (V1 m)) c 5).trans (V2_of m (outs m) c _ (by decide)).symm)
  | ⟨6, _⟩ => exact ((pdats m 0 c).arrAt_in 6 rfl _).trans ((A_eq0 (tcV (V1 m)) c 6).trans (V2_of m (outs m) c _ (by decide)).symm)
  | ⟨7, _⟩ => exact (V2_out m c).symm
theorem hrest0 (c : Dev nD) : ∀ b, b ∉ Finset.univ.image (Pipeline.arrRef spec0) → tcV (V2 m (outs m)) c b = tcV (V1 m) c b :=
  fun b hb => V2_of m (outs m) c b (by
    intro hm; rw [List.mem_singleton] at hm; subst hm
    exact hb (Finset.mem_image.mpr ⟨7, Finset.mem_univ _, rfl⟩))

set_option maxHeartbeats 4000000 in
/-- After the second layer's region. -/
theorem hF1 (c : Dev nD) (w : Fin cfg1.W) :
    (pdats m 1 c).arrAt w cfg1.N = tcV (V4 m (outs m)) c (Pipeline.arrRef spec1 w) := by
  match w with
  | ⟨0, _⟩ => exact ((pdats m 1 c).arrAt_in 0 rfl _).trans ((A_eq1 (tcV (V3 m (outsA m))) c 0).trans (V4_in m c _ (by decide)).symm)
  | ⟨1, _⟩ => exact ((pdats m 1 c).arrAt_in 1 rfl _).trans ((A_eq1 (tcV (V3 m (outsA m))) c 1).trans (V4_in m c _ (by decide)).symm)
  | ⟨2, _⟩ => exact ((pdats m 1 c).arrAt_in 2 rfl _).trans ((A_eq1 (tcV (V3 m (outsA m))) c 2).trans (V4_in m c _ (by decide)).symm)
  | ⟨3, _⟩ => exact ((pdats m 1 c).arrAt_in 3 rfl _).trans ((A_eq1 (tcV (V3 m (outsA m))) c 3).trans (V4_in m c _ (by decide)).symm)
  | ⟨4, _⟩ => exact ((pdats m 1 c).arrAt_in 4 rfl _).trans ((A_eq1 (tcV (V3 m (outsA m))) c 4).trans (V4_in m c _ (by decide)).symm)
  | ⟨5, _⟩ => exact ((pdats m 1 c).arrAt_in 5 rfl _).trans ((A_eq1 (tcV (V3 m (outsA m))) c 5).trans (V4_in m c _ (by decide)).symm)
  | ⟨6, _⟩ => exact ((pdats m 1 c).arrAt_in 6 rfl _).trans ((A_eq1 (tcV (V3 m (outsA m))) c 6).trans (V4_in m c _ (by decide)).symm)
  | ⟨7, _⟩ => exact (V4_out m c).symm
theorem hrest1 (c : Dev nD) : ∀ b, b ∉ Finset.univ.image (Pipeline.arrRef spec1) → tcV (V4 m (outs m)) c b = tcV (V3 m (outsA m)) c b :=
  fun b hb => V4_in m c b (by
    intro hm; rw [List.mem_singleton] at hm; subst hm
    exact hb (Finset.mem_image.mpr ⟨7, Finset.mem_univ _, rfl⟩))

set_option maxHeartbeats 4000000 in
/-- After the head's region. -/
theorem hF2 (c : Dev nD) (w : Fin cfg2.W) :
    (pdats m 2 c).arrAt w cfg2.N = tcV (V6 m (outs m)) c (Pipeline.arrRef spec2 w) := by
  match w with
  | ⟨0, _⟩ => exact ((pdats m 2 c).arrAt_in 0 rfl _).trans ((A_eq2 (tcV (V5 m (outsB m))) c 0).trans (V6_in m c _ (by decide)).symm)
  | ⟨1, _⟩ => exact ((pdats m 2 c).arrAt_in 1 rfl _).trans ((A_eq2 (tcV (V5 m (outsB m))) c 1).trans (V6_in m c _ (by decide)).symm)
  | ⟨2, _⟩ => exact ((pdats m 2 c).arrAt_in 2 rfl _).trans ((A_eq2 (tcV (V5 m (outsB m))) c 2).trans (V6_in m c _ (by decide)).symm)
  | ⟨3, _⟩ => exact (V6_out m c).symm
theorem hrest2 (c : Dev nD) : ∀ b, b ∉ Finset.univ.image (Pipeline.arrRef spec2) → tcV (V6 m (outs m)) c b = tcV (V5 m (outsB m)) c b :=
  fun b hb => V6_in m c b (by
    intro hm; rw [List.mem_singleton] at hm; subst hm
    exact hb (Finset.mem_image.mpr ⟨3, Finset.mem_univ _, rfl⟩))

/-! ## The regions as segments -/

set_option backward.isDefEq.respectTransparency.types false in
/-- Region 0 as a segment: entered from every unscoped buffer at the valuation before it, left at the valuation after
    it. Its arrays are split out of the unscoped buffers and put back at the exit contents; the random-number register goes
    into the class invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (tcV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (tcV (V1 m) c)
  hentry c := by
    rw [Pipeline.ownSems0_none]
    have hsplit : (unscopedBufs c (tcV (V1 m) c) : sProp 𝕄)
        ⊢ iprop((pdats m 0 c).arrays ((pdats m 0 c).arrAt · 0) ∗ Pipeline.unscopedRest spec0 c (tcV (V1 m) c)) := by
      rw [Pipeline.unscopedBufs_split₀ cfgs 0 winFacts₀0.arr_unscoped c (tcV (V1 m) c)]
      exact sep_mono (Pipeline.arrBufs_equiv_arrays_pair (pdats m 0 c) 1 2 (by decide) rfl hinj0 arr_whole0 rfl rfl hshareRest0
        (tcV (V1 m) c) ((pdats m 0 c).arrAt · 0) (fun w => A_eq0 (tcV (V1 m)) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (tcV (V1 m) c))
        ⊢ (unscopedBufs c (tcV (V2 m (outs m)) c) : sProp 𝕄) := by
      rw [Pipeline.unscopedBufs_split₀ cfgs 0 winFacts₀0.arr_unscoped c (tcV (V2 m (outs m)) c)]
      refine BIClass.sep_mono (Pipeline.arrBufs_equiv_arrays_pair (pdats m 0 c) 1 2 (by decide) rfl hinj0 arr_whole0 rfl rfl hshareRest0
        (tcV (V2 m (outs m)) c) ((pdats m 0 c).arrAt · cfg0.N) (hF0 m c)).2 (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the valuation before it, left at the valuation after
    it. Its arrays are split out of the unscoped buffers and put back at the exit contents; the random-number register goes
    into the class invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (tcV (V3 m (outsA m))) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (tcV (V3 m (outsA m)) c)
  hentry c := by
    rw [Pipeline.ownSems0_none]
    have hsplit : (unscopedBufs c (tcV (V3 m (outsA m)) c) : sProp 𝕄)
        ⊢ iprop((pdats m 1 c).arrays ((pdats m 1 c).arrAt · 0) ∗ Pipeline.unscopedRest spec1 c (tcV (V3 m (outsA m)) c)) := by
      rw [Pipeline.unscopedBufs_split₀ cfgs 1 winFacts₀1.arr_unscoped c (tcV (V3 m (outsA m)) c)]
      exact sep_mono (Pipeline.arrBufs_equiv_arrays_pair (pdats m 1 c) 1 2 (by decide) rfl hinj1 arr_whole1 rfl rfl hshareRest1
        (tcV (V3 m (outsA m)) c) ((pdats m 1 c).arrAt · 0) (fun w => A_eq1 (tcV (V3 m (outsA m))) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (tcV (V3 m (outsA m)) c))
        ⊢ (unscopedBufs c (tcV (V4 m (outs m)) c) : sProp 𝕄) := by
      rw [Pipeline.unscopedBufs_split₀ cfgs 1 winFacts₀1.arr_unscoped c (tcV (V4 m (outs m)) c)]
      refine BIClass.sep_mono (Pipeline.arrBufs_equiv_arrays_pair (pdats m 1 c) 1 2 (by decide) rfl hinj1 arr_whole1 rfl rfl hshareRest1
        (tcV (V4 m (outs m)) c) ((pdats m 1 c).arrAt · cfg1.N) (hF1 m c)).2 (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the valuation before it, left at the valuation after
    it. Its arrays are split out of the unscoped buffers and put back at the exit contents; the random-number register goes
    into the class invariant and comes back; nothing is owed; the kernel has no semaphore of its own. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (tcV (V5 m (outsB m))) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (tcV (V5 m (outsB m)) c)
  hentry c := by
    rw [Pipeline.ownSems0_none]
    have hsplit : (unscopedBufs c (tcV (V5 m (outsB m)) c) : sProp 𝕄)
        ⊢ iprop((pdats m 2 c).arrays ((pdats m 2 c).arrAt · 0) ∗ Pipeline.unscopedRest spec2 c (tcV (V5 m (outsB m)) c)) := by
      rw [Pipeline.unscopedBufs_split₀ cfgs 2 winFacts2.arr_unscoped c (tcV (V5 m (outsB m)) c)]
      exact sep_mono (Pipeline.arrays_split cfgs (pdats m) 2 winFacts2.arr_inj c arr_whole2 ((pdats m 2 c).share_full fun _ => rfl)
        (tcV (V5 m (outsB m)) c) ((pdats m 2 c).arrAt · 0) (fun w => A_eq2 (tcV (V5 m (outsB m))) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (tcV (V5 m (outsB m)) c))
        ⊢ (unscopedBufs c (tcV (V6 m (outs m)) c) : sProp 𝕄) := by
      rw [Pipeline.unscopedBufs_split₀ cfgs 2 winFacts2.arr_unscoped c (tcV (V6 m (outs m)) c)]
      refine BIClass.sep_mono (Entails.of_eq (by
        rw [Pipeline.arrays_eq cfgs (pdats m) 2 c arr_whole2 ((pdats m 2 c).share_full fun _ => rfl)]
        unfold Pipeline.arrBufs
        rw [show Finset.univ.image (Pipeline.arrRef (cfgs 2).spec) = Finset.univ.map ⟨Pipeline.arrRef (cfgs 2).spec, winFacts2.arr_inj⟩ from (Finset.map_eq_image ⟨Pipeline.arrRef (cfgs 2).spec, winFacts2.arr_inj⟩ Finset.univ).symm, bigSep_map]
        exact bigSep_congr fun w _ => by rw [hF2 m c w]; rfl)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution of the program from any launch memory with zero counters ends, nothing faulting, with
    every unscoped buffer of every core at the last valuation of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h1 : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)) : sProp 𝕄) ⊢ R c := fun c => by
        iintro ⟨-, HO, -, Hp, -⟩
        isplitl [Hp]; · iexists _; iexact Hp
        iexists ∅; iexact HO
      have h2 : ((bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄))) : sProp 𝕄)
          ⊢ (bigSep Finset.univ fun c : Dev nD => R c) := bigSep_mono fun c _ => h1 c
      iintro ⟨H, -⟩
      imodintro
      iapply h2
      iexact H)
    (fun c => by iintro ⟨-, HO⟩; iexact HO)
    (reg0 m) (fun c => .rfl) (fun c => .rfl)
    (reg1 m) (fun c => by rw [V3_stage]; exact .rfl) (fun c => .rfl)
    (reg2 m) (fun c => by rw [V5_stage]; exact .rfl) (fun c => .rfl)

end Cert.Kernel.Fr

end
-- ==== Proof.KFrameArgs.lean ====
/-
  The program runs, and its fourteen argument arrays end as they were launched: every unscoped buffer of every core
  ends at the last valuation of the chain of regions and host operations, and that valuation still holds each
  argument at its launch contents, no region and no host operation having written one.
-/
import proofs.«120770_j4544075399464_2_alg».proof.Proof.KFrameRun

noncomputable section

namespace Cert.Kernel.Fr

open Idealize.ShloMosaic Idealize.ShloMosaic.TcCoe Idealize.SL.Sem
open Cert.Kernel Cert.Kernel.Gen

variable {F : FTy → Type} [FloatOps F]

/-- Each argument read back off the run's end: the buffer is at the last valuation, which has the argument unchanged. -/
theorem frame_args (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c (Proc.devRef .tc main_arg0) (Finset.mem_filter.mpr ⟨StableHlo.devRef_mem_tcRefs main_arg0, by decide⟩)).trans (V6_main_arg0 m (outs m) c),
      (h c (Proc.devRef .tc main_arg1) (Finset.mem_filter.mpr ⟨StableHlo.devRef_mem_tcRefs main_arg1, by decide⟩)).trans (V6_main_arg1 m (outs m) c),
      (h c (Proc.devRef .tc main_arg2) (Finset.mem_filter.mpr ⟨StableHlo.devRef_mem_tcRefs main_arg2, by decide⟩)).trans (V6_main_arg2 m (outs m) c),
      (h c (Proc.devRef .tc main_arg3) (Finset.mem_filter.mpr ⟨StableHlo.devRef_mem_tcRefs main_arg3, by decide⟩)).trans (V6_main_arg3 m (outs m) c),
      (h c (Proc.devRef .tc main_arg4) (Finset.mem_filter.mpr ⟨StableHlo.devRef_mem_tcRefs main_arg4, by decide⟩)).trans (V6_main_arg4 m (outs m) c),
      (h c (Proc.devRef .tc main_arg5) (Finset.mem_filter.mpr ⟨StableHlo.devRef_mem_tcRefs main_arg5, by decide⟩)).trans (V6_main_arg5 m (outs m) c),
      (h c (Proc.devRef .tc main_arg6) (Finset.mem_filter.mpr ⟨StableHlo.devRef_mem_tcRefs main_arg6, by decide⟩)).trans (V6_main_arg6 m (outs m) c),
      (h c (Proc.devRef .tc main_arg7) (Finset.mem_filter.mpr ⟨StableHlo.devRef_mem_tcRefs main_arg7, by decide⟩)).trans (V6_main_arg7 m (outs m) c),
      (h c (Proc.devRef .tc main_arg8) (Finset.mem_filter.mpr ⟨StableHlo.devRef_mem_tcRefs main_arg8, by decide⟩)).trans (V6_main_arg8 m (outs m) c),
      (h c (Proc.devRef .tc main_arg9) (Finset.mem_filter.mpr ⟨StableHlo.devRef_mem_tcRefs main_arg9, by decide⟩)).trans (V6_main_arg9 m (outs m) c),
      (h c (Proc.devRef .tc main_arg10) (Finset.mem_filter.mpr ⟨StableHlo.devRef_mem_tcRefs main_arg10, by decide⟩)).trans (V6_main_arg10 m (outs m) c),
      (h c (Proc.devRef .tc main_arg11) (Finset.mem_filter.mpr ⟨StableHlo.devRef_mem_tcRefs main_arg11, by decide⟩)).trans (V6_main_arg11 m (outs m) c),
      (h c (Proc.devRef .tc main_arg12) (Finset.mem_filter.mpr ⟨StableHlo.devRef_mem_tcRefs main_arg12, by decide⟩)).trans (V6_main_arg12 m (outs m) c),
      (h c (Proc.devRef .tc main_arg13) (Finset.mem_filter.mpr ⟨StableHlo.devRef_mem_tcRefs main_arg13, by decide⟩)).trans (V6_main_arg13 m (outs m) c)⟩)
    (run_all m ρ)

end Cert.Kernel.Fr

end
-- ==== Proof.RunCond.lean ====
/-
  The program's run from one record per region.

  The program is six items in a row: a stretch of host operations, the first recurrent layer's region, a second
  stretch, the second layer's region, a third stretch, the head's region. Between two items every core holds each of
  its unscoped buffers whole at a known valuation: the launch contents, then each stretch applied in turn, then, after
  a region, the region's output array replaced by what the region leaves. Given for each region a record that it may
  be entered from the valuation before it and is left at the one after it, every execution ends with every unscoped
  buffer at the last valuation. Both the claim that the arguments end unchanged and the values of the results are read
  off this one statement.
-/
import proofs.«120770_j4544075399464_2_alg».proof.Proof.Gen.KernelIdeal.Regions

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

set_option backward.isDefEq.respectTransparency.types false in
/-- The program's run, given each region's record: from any launch memory with zero counters every weakly fair execution
    ends, nothing faulting, with every unscoped buffer of every core at the last valuation of the chain: launch contents,
    then each stretch of host operations applied, then each region's output array replaced by what the region leaves. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V6 m outs c) s')
    isplitl [Hh] <;> iassumption

end Cert.KernelIdeal.Fr

end
-- ==== Proof.FrameHead.lean ====
/-
  The vocabulary head as one region of the program: what each grid point is handed, what it leaves, and that the
  body, run on those blocks, leaves exactly that.

  Grid point t works on the strip of 3200 output columns starting at column 3200 * t. It is handed the whole hidden
  state (fetched once, at the first point, and still in place afterwards), the strip's 1024 x 3200 block of the
  weight matrix and its 1 x 3200 block of the bias, and leaves in the output window's buffer one whole-block store:
  the body's arithmetic applied to those three blocks.
-/
import proofs.«120770_j4544075399464_2_alg».proof.Proof.Gen.KernelIdeal.Launch
import proofs.«120770_j4544075399464_2_alg».proof.Proof.Gen.KernelIdeal.Skeleton
import proofs.«120770_j4544075399464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether the point fetches it or finds it in
    place: the block's position has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each buffer, as the body's loads and its one store address it. -/
abbrev rH2 : Rect S128x1024 := Rect.unit (s := S128x1024) ![0, 0] S128x1024.size inb_S128x1024_S128x1024_0_0
abbrev rW2 : Rect S1024x3200 := Rect.unit (s := S1024x3200) ![0, 0] S1024x3200.size inb_S1024x3200_S1024x3200_0_0
abbrev rB2 : Rect S1x3200 := Rect.unit (s := S1x3200) ![0, 0] S1x3200.size inb_S1x3200_S1x3200_0_0
abbrev rO2 : Rect S128x3200 := Rect.unit (s := S128x3200) ![0, 0] S128x3200.size inb_S128x3200_S128x3200_0_0

/-- The output window's buffer after the body: its one store, of the body's arithmetic on the three loaded blocks. -/
def out2_3 (x0 : Vec F S128x1024 .f32) (x1 : Vec F S1024x3200 .f32) (x2 : Vec F S1x3200 .f32) : Vec F S128x3200 .f32 :=
  View.canon [⟨rO2, k2_pay1 (View.ld x0 rH2) (View.ld x1 rW2) (View.ld x2 rB2)⟩]

/-- The one store covers the buffer. -/
theorem cover2_3 (p0 : Vec F S128x3200 .f32) (y : S128x3200.Idx) :
    ∃ pc ∈ ([⟨rO2, p0⟩] : List (View.Piece (Elt F) S128x3200 .f32)), y ∈ pc.1.set :=
  View.cover_of_tiled [⟨rO2, p0⟩] S128x3200.size (by rfl) y

set_option maxHeartbeats 1000000 in
/-- The body on whole buffers: the inputs' at read contents, the output's at anything; it ends with the inputs as they
    were and the output at out2_3 of the inputs. -/
theorem sound_kernel2 (c : Dev nD) (E : Set ℕ) (i : grid2.Coords)
    (arg1 : Memref sig .tc .vmem S128x1024 .f32) (harg1 : arg1.IsWhole) (arg2 : Memref sig .tc .vmem S1024x3200 .f32) (harg2 : arg2.IsWhole)
    (arg3 : Memref sig .tc .vmem S1x3200 .f32) (harg3 : arg3.IsWhole) (arg4 : Memref sig .tc .vmem S128x3200 .f32) (harg4 : arg4.IsWhole)
    (x0 : Vec F S128x1024 .f32) (x1 : Vec F S1024x3200 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__head_kernel i arg1 harg1 arg2 harg2 arg3 harg3 arg4 harg4) K := by
  simp only [cc2__head_kernel_eq_skeleton]; unfold cc2__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the head's pipeline on core c: the arrays as the region finds them; after the body at point t
    each input's buffer at its block, the output's at out2_3 of the three blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so sound_kernel2 applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the head's pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameGru0.lean ====
/-
  One gated recurrent layer as one region of the program: what each grid point is handed, what it leaves, and that
  the body, run on those blocks, leaves exactly that.

  Grid point t works on the strip of 256 hidden units starting at unit 256 * t. It is handed the layer's whole input
  and the whole previous state (both fetched once, at the first point, and still in place afterwards), the previous
  state's strip, the strip's blocks of the two weight tensors (rows x 3 gates x 256 units) and of the two biases
  (1 x 3 x 256), and leaves in the output window's buffer one whole-block store: the body's arithmetic applied to
  those seven blocks. The whole previous state and its strip are two windows on one and the same array.
-/
import proofs.«120770_j4544075399464_2_alg».proof.Proof.Gen.KernelIdeal.Launch
import proofs.«120770_j4544075399464_2_alg».proof.Proof.Gen.KernelIdeal.Skeleton
import proofs.«120770_j4544075399464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, whether the point fetches it or finds it in
    place: the block's position has not moved since the fetch. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The whole of each buffer, as the body's loads and its one store address it. -/
abbrev rX0 : Rect S128x256 := Rect.unit (s := S128x256) ![0, 0] S128x256.size inb_S128x256_S128x256_0_0
abbrev rHf0 : Rect S128x1024 := Rect.unit (s := S128x1024) ![0, 0] S128x1024.size inb_S128x1024_S128x1024_0_0
abbrev rHt0 : Rect S128x256 := Rect.unit (s := S128x256) ![0, 0] S128x256.size inb_S128x256_S128x256_0_0
abbrev rWi0 : Rect S256x3x256 := Rect.unit (s := S256x3x256) ![0, 0, 0] S256x3x256.size inb_S256x3x256_S256x3x256_0_0_0
abbrev rWr0 : Rect S1024x3x256 := Rect.unit (s := S1024x3x256) ![0, 0, 0] S1024x3x256.size inb_S1024x3x256_S1024x3x256_0_0_0
abbrev rBi0 : Rect S1x3x256 := Rect.unit (s := S1x3x256) ![0, 0, 0] S1x3x256.size inb_S1x3x256_S1x3x256_0_0_0
abbrev rBr0 : Rect S1x3x256 := Rect.unit (s := S1x3x256) ![0, 0, 0] S1x3x256.size inb_S1x3x256_S1x3x256_0_0_0
abbrev rO0 : Rect S128x256 := Rect.unit (s := S128x256) ![0, 0] S128x256.size inb_S128x256_S128x256_0_0

/-- The output window's buffer after the body: its one store, of the body's arithmetic on the seven loaded blocks. -/
def out0_7 (x0 : Vec F S128x256 .f32) (x1 : Vec F S128x1024 .f32) (x2 : Vec F S128x256 .f32) (x3 : Vec F S256x3x256 .f32) (x4 : Vec F S1024x3x256 .f32) (x5 : Vec F S1x3x256 .f32) (x6 : Vec F S1x3x256 .f32) : Vec F S128x256 .f32 :=
  View.canon [⟨rO0, k0_pay1 (k0_pay3 (View.ld x1 rHf0)) (k0_pay5 (View.ld x4 rWr0)) (k0_pay7 (View.ld x6 rBr0)) (k0_pay8 (View.ld x0 rX0) (View.ld x3 rWi0) (View.ld x5 rBi0)) (k0_pay9 (View.ld x0 rX0) (View.ld x3 rWi0) (View.ld x5 rBi0)) (k0_pay10 (View.ld x0 rX0) (View.ld x3 rWi0) (View.ld x5 rBi0)) (k0_pay11 (View.ld x1 rHf0) (View.ld x4 rWr0)) (View.ld x2 rHt0)⟩]

/-- The one store covers the buffer. -/
theorem cover0_7 (p0 : Vec F S128x256 .f32) (y : S128x256.Idx) :
    ∃ pc ∈ ([⟨rO0, p0⟩] : List (View.Piece (Elt F) S128x256 .f32)), y ∈ pc.1.set :=
  View.cover_of_tiled [⟨rO0, p0⟩] S128x256.size (by rfl) y

set_option maxHeartbeats 2000000 in
/-- The body on whole buffers: the inputs' at read contents, the output's at anything; it ends with the inputs as they
    were and the output at out0_7 of the inputs. -/
theorem sound_kernel0 (c : Dev nD) (E : Set ℕ) (i : grid0.Coords) (arg1 : Memref sig .tc .vmem S128x256 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S256x3x256 .f32) (harg4 : arg4.IsWhole) (arg5 : Memref sig .tc .vmem S1024x3x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S128x256 .f32) (harg8 : arg8.IsWhole)
    (x0 : Vec F S128x256 .f32) (x1 : Vec F S128x1024 .f32) (x2 : Vec F S128x256 .f32) (x3 : Vec F S256x3x256 .f32) (x4 : Vec F S1024x3x256 .f32) (x5 : Vec F S1x3x256 .f32) (x6 : Vec F S1x3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of this layer's pipeline on core c: the arrays as the region finds them; after the body at point t
    each input's buffer at its block, the output's at out0_7 of the seven blocks; nothing owed. The array of the previous
    state is held in two halves, the left by the window on the whole state, the right by the window on its strip;
    every other input array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so sound_kernel0 applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of this layer's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameGru1.lean ====
/-
  One gated recurrent layer as one region of the program: what each grid point is handed, what it leaves, and that
  the body, run on those blocks, leaves exactly that.

  Grid point t works on the strip of 256 hidden units starting at unit 256 * t. It is handed the layer's whole input
  and the whole previous state (both fetched once, at the first point, and still in place afterwards), the previous
  state's strip, the strip's blocks of the two weight tensors (rows x 3 gates x 256 units) and of the two biases
  (1 x 3 x 256), and leaves in the output window's buffer one whole-block store: the body's arithmetic applied to
  those seven blocks. The whole previous state and its strip are two windows on one and the same array.
-/
import proofs.«120770_j4544075399464_2_alg».proof.Proof.Gen.KernelIdeal.Launch
import proofs.«120770_j4544075399464_2_alg».proof.Proof.Gen.KernelIdeal.Skeleton
import proofs.«120770_j4544075399464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, whether the point fetches it or finds it in
    place: the block's position has not moved since the fetch. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole of each buffer, as the body's loads and its one store address it. -/
abbrev rX1 : Rect S128x1024 := Rect.unit (s := S128x1024) ![0, 0] S128x1024.size inb_S128x1024_S128x1024_0_0
abbrev rHf1 : Rect S128x1024 := Rect.unit (s := S128x1024) ![0, 0] S128x1024.size inb_S128x1024_S128x1024_0_0
abbrev rHt1 : Rect S128x256 := Rect.unit (s := S128x256) ![0, 0] S128x256.size inb_S128x256_S128x256_0_0
abbrev rWi1 : Rect S1024x3x256 := Rect.unit (s := S1024x3x256) ![0, 0, 0] S1024x3x256.size inb_S1024x3x256_S1024x3x256_0_0_0
abbrev rWr1 : Rect S1024x3x256 := Rect.unit (s := S1024x3x256) ![0, 0, 0] S1024x3x256.size inb_S1024x3x256_S1024x3x256_0_0_0
abbrev rBi1 : Rect S1x3x256 := Rect.unit (s := S1x3x256) ![0, 0, 0] S1x3x256.size inb_S1x3x256_S1x3x256_0_0_0
abbrev rBr1 : Rect S1x3x256 := Rect.unit (s := S1x3x256) ![0, 0, 0] S1x3x256.size inb_S1x3x256_S1x3x256_0_0_0
abbrev rO1 : Rect S128x256 := Rect.unit (s := S128x256) ![0, 0] S128x256.size inb_S128x256_S128x256_0_0

/-- The output window's buffer after the body: its one store, of the body's arithmetic on the seven loaded blocks. -/
def out1_7 (x0 : Vec F S128x1024 .f32) (x1 : Vec F S128x1024 .f32) (x2 : Vec F S128x256 .f32) (x3 : Vec F S1024x3x256 .f32) (x4 : Vec F S1024x3x256 .f32) (x5 : Vec F S1x3x256 .f32) (x6 : Vec F S1x3x256 .f32) : Vec F S128x256 .f32 :=
  View.canon [⟨rO1, k1_pay1 (k1_pay3 (View.ld x1 rHf1)) (k1_pay5 (View.ld x4 rWr1)) (k1_pay7 (View.ld x6 rBr1)) (k1_pay8 (View.ld x0 rX1) (View.ld x3 rWi1) (View.ld x5 rBi1)) (k1_pay9 (View.ld x0 rX1) (View.ld x3 rWi1) (View.ld x5 rBi1)) (k1_pay10 (View.ld x0 rX1) (View.ld x3 rWi1) (View.ld x5 rBi1)) (k1_pay11 (View.ld x1 rHf1) (View.ld x4 rWr1)) (View.ld x2 rHt1)⟩]

/-- The one store covers the buffer. -/
theorem cover1_7 (p0 : Vec F S128x256 .f32) (y : S128x256.Idx) :
    ∃ pc ∈ ([⟨rO1, p0⟩] : List (View.Piece (Elt F) S128x256 .f32)), y ∈ pc.1.set :=
  View.cover_of_tiled [⟨rO1, p0⟩] S128x256.size (by rfl) y

set_option maxHeartbeats 2000000 in
/-- The body on whole buffers: the inputs' at read contents, the output's at anything; it ends with the inputs as they
    were and the output at out1_7 of the inputs. -/
theorem sound_kernel1 (c : Dev nD) (E : Set ℕ) (i : grid1.Coords) (arg1 : Memref sig .tc .vmem S128x1024 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S1024x3x256 .f32) (harg4 : arg4.IsWhole) (arg5 : Memref sig .tc .vmem S1024x3x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S128x256 .f32) (harg8 : arg8.IsWhole)
    (x0 : Vec F S128x1024 .f32) (x1 : Vec F S128x1024 .f32) (x2 : Vec F S128x256 .f32) (x3 : Vec F S1024x3x256 .f32) (x4 : Vec F S1024x3x256 .f32) (x5 : Vec F S1x3x256 .f32) (x6 : Vec F S1x3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__gru_kernel i arg1 harg1 arg2 harg2 arg3 harg3 arg4 harg4 arg5 harg5 arg6 harg6 arg7 harg7 arg8 harg8) K := by
  simp only [cc1__gru_kernel_eq_skeleton]; unfold cc1__gru_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of this layer's pipeline on core c: the arrays as the region finds them; after the body at point t
    each input's buffer at its block, the output's at out1_7 of the seven blocks; nothing owed. The array of the previous
    state is held in two halves, the left by the window on the whole state, the right by the window on its strip;
    every other input array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so sound_kernel1 applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of this layer's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameRun.lean ====
/-
  The kernel program's run: its three regions as segments between the stretches of host operations, and the run
  they make.

  Each region's proof data sit at the valuation the region is entered from. What a region leaves in its output array
  is what its proof data compute from the write-backs of all its grid points; the valuation after the region is the
  one before it with that array replaced. The two recurrent layers hand the previous state's array to two windows, so
  on entry its full share is cut in two halves and on exit the halves are put together again; the head's four windows
  sit on four distinct arrays. Every core then ends with each unscoped buffer at the last valuation.
-/
import proofs.«120770_j4544075399464_2_alg».proof.Proof.RunCond
import proofs.«120770_j4544075399464_2_alg».proof.Proof.FrameHead
import proofs.«120770_j4544075399464_2_alg».proof.Proof.FrameGru0
import proofs.«120770_j4544075399464_2_alg».proof.Proof.FrameGru1
import proofs.«120770_j4544075399464_2_alg».proof.Proof.LibSharedPair

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev tcV (W : Dev nD → Valuation τ sig (Elt F)) : (c : Dev nD) → (b : Ref sig .tc) → Buf (Elt F) ((c : Thread nD τ).loc b) :=
  fun c b => W c b

/-! ## What the regions leave, stage by stage -/

/-- What the first layer's region leaves in its output array: its proof data at the valuation after the first stretch. -/
def o0 (c : Dev nD) : Buf (Elt F) ((c : Thread nD τ).loc main_v12) := (dat0 (tcV (V1 m)) c).arrAt 7 cfg0.N
/-- The unknowns with the first region's output filled in. -/
def outsA : Outs (F := F) := fun _ r c => Function.update (V1 m c) main_v12 (o0 m c) r
/-- What the second layer's region leaves: its proof data at the valuation after the second stretch. -/
def o1 (c : Dev nD) : Buf (Elt F) ((c : Thread nD τ).loc main_v17) := (dat1 (tcV (V3 m (outsA m))) c).arrAt 7 cfg1.N
/-- The unknowns with the first two regions' outputs filled in. -/
def outsB : Outs (F := F) := fun J r c => if J = 2 then outsA m J r c else Function.update (V3 m (outsA m) c) main_v17 (o1 m c) r
/-- What the head's region leaves: its proof data at the valuation after the third stretch. -/
def o2 (c : Dev nD) : Buf (Elt F) ((c : Thread nD τ).loc main_v19) := (dat2 (tcV (V5 m (outsB m))) c).arrAt 3 cfg2.N
/-- All three. -/
def outs : Outs (F := F) := fun J r c => if J = 6 then Function.update (V5 m (outsB m) c) main_v19 (o2 m c) r else outsB m J r c

theorem outs_2 (c : Dev nD) : outs m 2 main_v12 c = o0 m c := by
  unfold outs outsB outsA; simp only [show ¬ (2 = 6) by decide, if_false, if_true, Function.update_self]
theorem outs_4 (c : Dev nD) : outs m 4 main_v17 c = o1 m c := by
  unfold outs outsB; simp only [show ¬ (4 = 6) by decide, show ¬ (4 = 2) by decide, if_false, Function.update_self]
theorem outs_6 (c : Dev nD) : outs m 6 main_v19 c = o2 m c := by
  unfold outs; simp only [if_true, Function.update_self]

/-- The valuations of the chain do not depend on the stage at which the unknowns were filled in. -/
theorem V2_stage (c : Dev nD) : V2 m (outs m) c = V2 m (outsA m) c := by
  unfold V2; rw [outs_2]; unfold outsA; rw [Function.update_self]
theorem V3_stage (c : Dev nD) : V3 m (outs m) c = V3 m (outsA m) c := by unfold V3; rw [V2_stage]
theorem V4_stage (c : Dev nD) : V4 m (outs m) c = V4 m (outsB m) c := by
  have hB : V3 m (outsB m) c = V3 m (outsA m) c := by
    unfold V3 V2; unfold outsB; simp only [if_true]
  unfold V4; rw [outs_4, V3_stage, hB]; unfold outsB; simp only [show ¬ (4 = 2) by decide, if_false, Function.update_self]
theorem V5_stage (c : Dev nD) : V5 m (outs m) c = V5 m (outsB m) c := by unfold V5; rw [V4_stage]

theorem V2_out (c : Dev nD) : tcV (V2 m (outs m)) c main_v12 = o0 m c := by
  show V2 m (outs m) c main_v12 = _; unfold V2; rw [Function.update_self, outs_2]
theorem V4_out (c : Dev nD) : tcV (V4 m (outs m)) c main_v17 = o1 m c := by
  show V4 m (outs m) c main_v17 = _; unfold V4; rw [Function.update_self, outs_4]
theorem V6_out (c : Dev nD) : tcV (V6 m (outs m)) c main_v19 = o2 m c := by
  show V6 m (outs m) c main_v19 = _; unfold V6; rw [Function.update_self, outs_6]

/-- A reference the second layer's region does not change holds, after it, what the staged valuation before it holds. -/
theorem V4_in (c : Dev nD) (r : Ref sig .tc) (h : r ∉ ([main_v17] : List (Ref sig .tc))) :
    tcV (V4 m (outs m)) c r = tcV (V3 m (outsA m)) c r :=
  (V4_of m (outs m) c r h).trans (congrFun (V3_stage m c) (Proc.devRef .tc r))
/-- The same for the head's region. -/
theorem V6_in (c : Dev nD) (r : Ref sig .tc) (h : r ∉ ([main_v19] : List (Ref sig .tc))) :
    tcV (V6 m (outs m)) c r = tcV (V5 m (outsB m)) c r :=
  (V6_of m (outs m) c r h).trans (congrFun (V5_stage m c) (Proc.devRef .tc r))

/-! ## The proof data, each at its region's entry valuation -/

/-- Every pipeline's proof data: a literal match, each region's at the valuation it is entered from. -/
def pdats : (p : Fin 3) → (c : Dev nD) → Dat τ (Elt F) Unit ℕ (UR sig nD τ) ℕ (cfgs p) c
  | ⟨0, _⟩ => fun c => dat0 (tcV (V1 m)) c
  | ⟨1, _⟩ => fun c => dat1 (tcV (V3 m (outsA m))) c
  | ⟨2, _⟩ => fun c => dat2 (tcV (V5 m (outsB m))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and what it
    owes, nothing. -/
abbrev R (c : Dev nD) : sProp 𝕄 := iprop((∃ r, prngReg c r) ∗ ∃ W, owes (c : Thread nD τ) (0 : CellTallies nD τ sig Unit) W)

/-! ## The layout facts the shared array asks for -/

/-- Off the window on the previous state's strip, the windows' arrays are pairwise distinct. -/
theorem hinj0 : Set.InjOn (Pipeline.arrRef spec0) ((Finset.univ.erase (2 : Fin cfg0.W) : Finset (Fin cfg0.W)) : Set (Fin cfg0.W)) := by
  intro a ha b hb h
  have ha' : a ≠ 2 := (Finset.mem_erase.mp (Finset.mem_coe.mp ha)).1
  have hb' : b ≠ 2 := (Finset.mem_erase.mp (Finset.mem_coe.mp hb)).1
  revert a b; decide
theorem hinj1 : Set.InjOn (Pipeline.arrRef spec1) ((Finset.univ.erase (2 : Fin cfg1.W) : Finset (Fin cfg1.W)) : Set (Fin cfg1.W)) := by
  intro a ha b hb h
  have ha' : a ≠ 2 := (Finset.mem_erase.mp (Finset.mem_coe.mp ha)).1
  have hb' : b ≠ 2 := (Finset.mem_erase.mp (Finset.mem_coe.mp hb)).1
  revert a b; decide

variable {m} in
theorem hshareRest0 {c : Dev nD} : ∀ w : Fin cfg0.W, w ≠ 1 → w ≠ 2 → (pdats m 0 c).share w = fullShare := fun w h1 h2 => by
  match w with
  | ⟨0, _⟩ => rfl
  | ⟨1, _⟩ => exact absurd rfl h1
  | ⟨2, _⟩ => exact absurd rfl h2
  | ⟨3, _⟩ => rfl
  | ⟨4, _⟩ => rfl
  | ⟨5, _⟩ => rfl
  | ⟨6, _⟩ => rfl
  | ⟨7, _⟩ => rfl
variable {m} in
theorem hshareRest1 {c : Dev nD} : ∀ w : Fin cfg1.W, w ≠ 1 → w ≠ 2 → (pdats m 1 c).share w = fullShare := fun w h1 h2 => by
  match w with
  | ⟨0, _⟩ => rfl
  | ⟨1, _⟩ => exact absurd rfl h1
  | ⟨2, _⟩ => exact absurd rfl h2
  | ⟨3, _⟩ => rfl
  | ⟨4, _⟩ => rfl
  | ⟨5, _⟩ => rfl
  | ⟨6, _⟩ => rfl
  | ⟨7, _⟩ => rfl

/-! ## Each region's arrays at its exit -/

/-- After the first layer's region: its output array at what the region leaves, every input array as it was. -/
theorem hF0 (c : Dev nD) (w : Fin cfg0.W) :
    (pdats m 0 c).arrAt w cfg0.N = tcV (V2 m (outs m)) c (Pipeline.arrRef spec0 w) := by
  match w with
  | ⟨0, _⟩ => exact ((pdats m 0 c).arrAt_in 0 rfl _).trans ((A_eq0 (tcV (V1 m)) c 0).trans (V2_of m (outs m) c _ (by decide)).symm)
  | ⟨1, _⟩ => exact ((pdats m 0 c).arrAt_in 1 rfl _).trans ((A_eq0 (tcV (V1 m)) c 1).trans (V2_of m (outs m) c _ (by decide)).symm)
  | ⟨2, _⟩ => exact ((pdats m 0 c).arrAt_in 2 rfl _).trans ((A_eq0 (tcV (V1 m)) c 2).trans (V2_of m (outs m) c _ (by decide)).symm)
  | ⟨3, _⟩ => exact ((pdats m 0 c).arrAt_in 3 rfl _).trans ((A_eq0 (tcV (V1 m)) c 3).trans (V2_of m (outs m) c _ (by decide)).symm)
  | ⟨4, _⟩ => exact ((pdats m 0 c).arrAt_in 4 rfl _).trans ((A_eq0 (tcV (V1 m)) c 4).trans (V2_of m (outs m) c _ (by decide)).symm)
  | ⟨5, _⟩ => exact ((pdats m 0 c).arrAt_in 5 rfl _).trans ((A_eq0 (tcV (V1 m)) c 5).trans (V2_of m (outs m) c _ (by decide)).symm)
  | ⟨6, _⟩ => exact ((pdats m 0 c).arrAt_in 6 rfl _).trans ((A_eq0 (tcV (V1 m)) c 6).trans (V2_of m (outs m) c _ (by decide)).symm)
  | ⟨7, _⟩ => exact (V2_out m c).symm
theorem hrest0 (c : Dev nD) : ∀ b, b ∉ Finset.univ.image (Pipeline.arrRef spec0) → tcV (V2 m (outs m)) c b = tcV (V1 m) c b :=
  fun b hb => V2_of m (outs m) c b (by
    intro hm; rw [List.mem_singleton] at hm; subst hm
    exact hb (Finset.mem_image.mpr ⟨7, Finset.mem_univ _, rfl⟩))

set_option maxHeartbeats 4000000 in
/-- After the second layer's region. -/
theorem hF1 (c : Dev nD) (w : Fin cfg1.W) :
    (pdats m 1 c).arrAt w cfg1.N = tcV (V4 m (outs m)) c (Pipeline.arrRef spec1 w) := by
  match w with
  | ⟨0, _⟩ => exact ((pdats m 1 c).arrAt_in 0 rfl _).trans ((A_eq1 (tcV (V3 m (outsA m))) c 0).trans (V4_in m c _ (by decide)).symm)
  | ⟨1, _⟩ => exact ((pdats m 1 c).arrAt_in 1 rfl _).trans ((A_eq1 (tcV (V3 m (outsA m))) c 1).trans (V4_in m c _ (by decide)).symm)
  | ⟨2, _⟩ => exact ((pdats m 1 c).arrAt_in 2 rfl _).trans ((A_eq1 (tcV (V3 m (outsA m))) c 2).trans (V4_in m c _ (by decide)).symm)
  | ⟨3, _⟩ => exact ((pdats m 1 c).arrAt_in 3 rfl _).trans ((A_eq1 (tcV (V3 m (outsA m))) c 3).trans (V4_in m c _ (by decide)).symm)
  | ⟨4, _⟩ => exact ((pdats m 1 c).arrAt_in 4 rfl _).trans ((A_eq1 (tcV (V3 m (outsA m))) c 4).trans (V4_in m c _ (by decide)).symm)
  | ⟨5, _⟩ => exact ((pdats m 1 c).arrAt_in 5 rfl _).trans ((A_eq1 (tcV (V3 m (outsA m))) c 5).trans (V4_in m c _ (by decide)).symm)
  | ⟨6, _⟩ => exact ((pdats m 1 c).arrAt_in 6 rfl _).trans ((A_eq1 (tcV (V3 m (outsA m))) c 6).trans (V4_in m c _ (by decide)).symm)
  | ⟨7, _⟩ => exact (V4_out m c).symm
theorem hrest1 (c : Dev nD) : ∀ b, b ∉ Finset.univ.image (Pipeline.arrRef spec1) → tcV (V4 m (outs m)) c b = tcV (V3 m (outsA m)) c b :=
  fun b hb => V4_in m c b (by
    intro hm; rw [List.mem_singleton] at hm; subst hm
    exact hb (Finset.mem_image.mpr ⟨7, Finset.mem_univ _, rfl⟩))

set_option maxHeartbeats 4000000 in
/-- After the head's region. -/
theorem hF2 (c : Dev nD) (w : Fin cfg2.W) :
    (pdats m 2 c).arrAt w cfg2.N = tcV (V6 m (outs m)) c (Pipeline.arrRef spec2 w) := by
  match w with
  | ⟨0, _⟩ => exact ((pdats m 2 c).arrAt_in 0 rfl _).trans ((A_eq2 (tcV (V5 m (outsB m))) c 0).trans (V6_in m c _ (by decide)).symm)
  | ⟨1, _⟩ => exact ((pdats m 2 c).arrAt_in 1 rfl _).trans ((A_eq2 (tcV (V5 m (outsB m))) c 1).trans (V6_in m c _ (by decide)).symm)
  | ⟨2, _⟩ => exact ((pdats m 2 c).arrAt_in 2 rfl _).trans ((A_eq2 (tcV (V5 m (outsB m))) c 2).trans (V6_in m c _ (by decide)).symm)
  | ⟨3, _⟩ => exact (V6_out m c).symm
theorem hrest2 (c : Dev nD) : ∀ b, b ∉ Finset.univ.image (Pipeline.arrRef spec2) → tcV (V6 m (outs m)) c b = tcV (V5 m (outsB m)) c b :=
  fun b hb => V6_in m c b (by
    intro hm; rw [List.mem_singleton] at hm; subst hm
    exact hb (Finset.mem_image.mpr ⟨3, Finset.mem_univ _, rfl⟩))

/-! ## The regions as segments -/

set_option backward.isDefEq.respectTransparency.types false in
/-- Region 0 as a segment: entered from every unscoped buffer at the valuation before it, left at the valuation after
    it. Its arrays are split out of the unscoped buffers and put back at the exit contents; the random-number register goes
    into the class invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (tcV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (tcV (V1 m) c)
  hentry c := by
    rw [Pipeline.ownSems0_none]
    have hsplit : (unscopedBufs c (tcV (V1 m) c) : sProp 𝕄)
        ⊢ iprop((pdats m 0 c).arrays ((pdats m 0 c).arrAt · 0) ∗ Pipeline.unscopedRest spec0 c (tcV (V1 m) c)) := by
      rw [Pipeline.unscopedBufs_split₀ cfgs 0 winFacts₀0.arr_unscoped c (tcV (V1 m) c)]
      exact sep_mono (Pipeline.arrBufs_equiv_arrays_pair (pdats m 0 c) 1 2 (by decide) rfl hinj0 arr_whole0 rfl rfl hshareRest0
        (tcV (V1 m) c) ((pdats m 0 c).arrAt · 0) (fun w => A_eq0 (tcV (V1 m)) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (tcV (V1 m) c))
        ⊢ (unscopedBufs c (tcV (V2 m (outs m)) c) : sProp 𝕄) := by
      rw [Pipeline.unscopedBufs_split₀ cfgs 0 winFacts₀0.arr_unscoped c (tcV (V2 m (outs m)) c)]
      refine BIClass.sep_mono (Pipeline.arrBufs_equiv_arrays_pair (pdats m 0 c) 1 2 (by decide) rfl hinj0 arr_whole0 rfl rfl hshareRest0
        (tcV (V2 m (outs m)) c) ((pdats m 0 c).arrAt · cfg0.N) (hF0 m c)).2 (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the valuation before it, left at the valuation after
    it. Its arrays are split out of the unscoped buffers and put back at the exit contents; the random-number register goes
    into the class invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (tcV (V3 m (outsA m))) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (tcV (V3 m (outsA m)) c)
  hentry c := by
    rw [Pipeline.ownSems0_none]
    have hsplit : (unscopedBufs c (tcV (V3 m (outsA m)) c) : sProp 𝕄)
        ⊢ iprop((pdats m 1 c).arrays ((pdats m 1 c).arrAt · 0) ∗ Pipeline.unscopedRest spec1 c (tcV (V3 m (outsA m)) c)) := by
      rw [Pipeline.unscopedBufs_split₀ cfgs 1 winFacts₀1.arr_unscoped c (tcV (V3 m (outsA m)) c)]
      exact sep_mono (Pipeline.arrBufs_equiv_arrays_pair (pdats m 1 c) 1 2 (by decide) rfl hinj1 arr_whole1 rfl rfl hshareRest1
        (tcV (V3 m (outsA m)) c) ((pdats m 1 c).arrAt · 0) (fun w => A_eq1 (tcV (V3 m (outsA m))) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (tcV (V3 m (outsA m)) c))
        ⊢ (unscopedBufs c (tcV (V4 m (outs m)) c) : sProp 𝕄) := by
      rw [Pipeline.unscopedBufs_split₀ cfgs 1 winFacts₀1.arr_unscoped c (tcV (V4 m (outs m)) c)]
      refine BIClass.sep_mono (Pipeline.arrBufs_equiv_arrays_pair (pdats m 1 c) 1 2 (by decide) rfl hinj1 arr_whole1 rfl rfl hshareRest1
        (tcV (V4 m (outs m)) c) ((pdats m 1 c).arrAt · cfg1.N) (hF1 m c)).2 (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the valuation before it, left at the valuation after
    it. Its arrays are split out of the unscoped buffers and put back at the exit contents; the random-number register goes
    into the class invariant and comes back; nothing is owed; the kernel has no semaphore of its own. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (tcV (V5 m (outsB m))) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (tcV (V5 m (outsB m)) c)
  hentry c := by
    rw [Pipeline.ownSems0_none]
    have hsplit : (unscopedBufs c (tcV (V5 m (outsB m)) c) : sProp 𝕄)
        ⊢ iprop((pdats m 2 c).arrays ((pdats m 2 c).arrAt · 0) ∗ Pipeline.unscopedRest spec2 c (tcV (V5 m (outsB m)) c)) := by
      rw [Pipeline.unscopedBufs_split₀ cfgs 2 winFacts2.arr_unscoped c (tcV (V5 m (outsB m)) c)]
      exact sep_mono (Pipeline.arrays_split cfgs (pdats m) 2 winFacts2.arr_inj c arr_whole2 ((pdats m 2 c).share_full fun _ => rfl)
        (tcV (V5 m (outsB m)) c) ((pdats m 2 c).arrAt · 0) (fun w => A_eq2 (tcV (V5 m (outsB m))) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (tcV (V5 m (outsB m)) c))
        ⊢ (unscopedBufs c (tcV (V6 m (outs m)) c) : sProp 𝕄) := by
      rw [Pipeline.unscopedBufs_split₀ cfgs 2 winFacts2.arr_unscoped c (tcV (V6 m (outs m)) c)]
      refine BIClass.sep_mono (Entails.of_eq (by
        rw [Pipeline.arrays_eq cfgs (pdats m) 2 c arr_whole2 ((pdats m 2 c).share_full fun _ => rfl)]
        unfold Pipeline.arrBufs
        rw [show Finset.univ.image (Pipeline.arrRef (cfgs 2).spec) = Finset.univ.map ⟨Pipeline.arrRef (cfgs 2).spec, winFacts2.arr_inj⟩ from (Finset.map_eq_image ⟨Pipeline.arrRef (cfgs 2).spec, winFacts2.arr_inj⟩ Finset.univ).symm, bigSep_map]
        exact bigSep_congr fun w _ => by rw [hF2 m c w]; rfl)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution of the program from any launch memory with zero counters ends, nothing faulting, with
    every unscoped buffer of every core at the last valuation of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h1 : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)) : sProp 𝕄) ⊢ R c := fun c => by
        iintro ⟨-, HO, -, Hp, -⟩
        isplitl [Hp]; · iexists _; iexact Hp
        iexists ∅; iexact HO
      have h2 : ((bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄))) : sProp 𝕄)
          ⊢ (bigSep Finset.univ fun c : Dev nD => R c) := bigSep_mono fun c _ => h1 c
      iintro ⟨H, -⟩
      imodintro
      iapply h2
      iexact H)
    (fun c => by iintro ⟨-, HO⟩; iexact HO)
    (reg0 m) (fun c => .rfl) (fun c => .rfl)
    (reg1 m) (fun c => by rw [V3_stage]; exact .rfl) (fun c => .rfl)
    (reg2 m) (fun c => by rw [V5_stage]; exact .rfl) (fun c => .rfl)

end Cert.KernelIdeal.Fr

end
-- ==== Proof.FrameArgs.lean ====
/-
  The program runs, and its fourteen argument arrays end as they were launched: every unscoped buffer of every core
  ends at the last valuation of the chain of regions and host operations, and that valuation still holds each
  argument at its launch contents, no region and no host operation having written one.
-/
import proofs.«120770_j4544075399464_2_alg».proof.Proof.FrameRun

noncomputable section

namespace Cert.KernelIdeal.Fr

open Idealize.ShloMosaic Idealize.ShloMosaic.TcCoe Idealize.SL.Sem
open Cert.KernelIdeal Cert.KernelIdeal.Gen

variable {F : FTy → Type} [FloatOps F]

/-- Each argument read back off the run's end: the buffer is at the last valuation, which has the argument unchanged. -/
theorem frame_args (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c (Proc.devRef .tc main_arg0) (Finset.mem_filter.mpr ⟨StableHlo.devRef_mem_tcRefs main_arg0, by decide⟩)).trans (V6_main_arg0 m (outs m) c),
      (h c (Proc.devRef .tc main_arg1) (Finset.mem_filter.mpr ⟨StableHlo.devRef_mem_tcRefs main_arg1, by decide⟩)).trans (V6_main_arg1 m (outs m) c),
      (h c (Proc.devRef .tc main_arg2) (Finset.mem_filter.mpr ⟨StableHlo.devRef_mem_tcRefs main_arg2, by decide⟩)).trans (V6_main_arg2 m (outs m) c),
      (h c (Proc.devRef .tc main_arg3) (Finset.mem_filter.mpr ⟨StableHlo.devRef_mem_tcRefs main_arg3, by decide⟩)).trans (V6_main_arg3 m (outs m) c),
      (h c (Proc.devRef .tc main_arg4) (Finset.mem_filter.mpr ⟨StableHlo.devRef_mem_tcRefs main_arg4, by decide⟩)).trans (V6_main_arg4 m (outs m) c),
      (h c (Proc.devRef .tc main_arg5) (Finset.mem_filter.mpr ⟨StableHlo.devRef_mem_tcRefs main_arg5, by decide⟩)).trans (V6_main_arg5 m (outs m) c),
      (h c (Proc.devRef .tc main_arg6) (Finset.mem_filter.mpr ⟨StableHlo.devRef_mem_tcRefs main_arg6, by decide⟩)).trans (V6_main_arg6 m (outs m) c),
      (h c (Proc.devRef .tc main_arg7) (Finset.mem_filter.mpr ⟨StableHlo.devRef_mem_tcRefs main_arg7, by decide⟩)).trans (V6_main_arg7 m (outs m) c),
      (h c (Proc.devRef .tc main_arg8) (Finset.mem_filter.mpr ⟨StableHlo.devRef_mem_tcRefs main_arg8, by decide⟩)).trans (V6_main_arg8 m (outs m) c),
      (h c (Proc.devRef .tc main_arg9) (Finset.mem_filter.mpr ⟨StableHlo.devRef_mem_tcRefs main_arg9, by decide⟩)).trans (V6_main_arg9 m (outs m) c),
      (h c (Proc.devRef .tc main_arg10) (Finset.mem_filter.mpr ⟨StableHlo.devRef_mem_tcRefs main_arg10, by decide⟩)).trans (V6_main_arg10 m (outs m) c),
      (h c (Proc.devRef .tc main_arg11) (Finset.mem_filter.mpr ⟨StableHlo.devRef_mem_tcRefs main_arg11, by decide⟩)).trans (V6_main_arg11 m (outs m) c),
      (h c (Proc.devRef .tc main_arg12) (Finset.mem_filter.mpr ⟨StableHlo.devRef_mem_tcRefs main_arg12, by decide⟩)).trans (V6_main_arg12 m (outs m) c),
      (h c (Proc.devRef .tc main_arg13) (Finset.mem_filter.mpr ⟨StableHlo.devRef_mem_tcRefs main_arg13, by decide⟩)).trans (V6_main_arg13 m (outs m) c)⟩)
    (run_all m ρ)

end Cert.KernelIdeal.Fr

end
-- ==== Proof.GruSpec.lean ====
/-
  The mathematics of the decoder step, index by index, on the extended reals.

  A gated recurrent step with packed gates. The weight matrices carry their three gates side by side along the
  column axis, 1024 columns each: gate g of hidden unit q sits in column g * 1024 + q. For a row p of the batch,
  the pre-activation of gate g at unit q is the inner product of row p of the input with column g * 1024 + q of
  the weights, plus entry g * 1024 + q of the bias. With iz, ir, ih the three pre-activations of the input side
  and rz, rr, rh those of the recurrent side,
      z = logistic (iz + rz),   r = logistic (ir + rr),   hh = tanh (ih + r * rh),
      h' = z * h + (1 - z) * hh.
  The vocabulary head is one more inner product per output column, plus the bias.
  Every sum is a plain finite sum over the contracted axis; no law beyond the definitions is used, so nothing
  here asks the inputs to be finite.
-/
import Idealize.ShloMosaic.PureOps.Ideal
import Idealize.ShloMosaic.Lib.ValueIdx

noncomputable section

namespace Cert.Gru

open Idealize.ShloMosaic Idealize.ShloMosaic.ValueIdx
open scoped BigOperators

/-- Column g * 1024 + q of a packed gate axis of 3 * 1024 columns. -/
def gcol (g : Fin 3) (q : Fin 1024) : Fin 3072 := ⟨g.val * 1024 + q.val, by omega⟩

theorem gcol_val (g : Fin 3) (q : Fin 1024) : (gcol g q).val = g.val * 1024 + q.val := rfl

/-- The number one as both programs spell it: the single-precision word of 1.0. -/
def one : EReal := Ideal.ofBits .f32 0x3F800000#32

theorem one_eq : one = 1 := by
  unfold one; simp [Ideal.ofBits, Ideal.ieee, -EReal.coe_mul]; norm_num

/-- Pre-activation of gate g at row p, unit q: the inner product of row p of x with column g * 1024 + q of W, plus
    the bias there. -/
def gate {K : Nat} (x : (⟨2, ![128, K]⟩ : Shape).Idx → EReal) (W : (⟨2, ![K, 3072]⟩ : Shape).Idx → EReal)
    (b : (⟨1, ![3072]⟩ : Shape).Idx → EReal) (g : Fin 3) (p : Fin 128) (q : Fin 1024) : EReal :=
  (∑ k : Fin K, x (ix2 p k) * W (ix2 k (gcol g q))) + b (ix1 (gcol g q))

/-- One gated recurrent step at row p, unit q. -/
def gruAt {K : Nat} (x : (⟨2, ![128, K]⟩ : Shape).Idx → EReal) (h : (⟨2, ![128, 1024]⟩ : Shape).Idx → EReal)
    (Wi : (⟨2, ![K, 3072]⟩ : Shape).Idx → EReal) (Wr : (⟨2, ![1024, 3072]⟩ : Shape).Idx → EReal)
    (bi br : (⟨1, ![3072]⟩ : Shape).Idx → EReal) (p : Fin 128) (q : Fin 1024) : EReal :=
  Ideal.logistic (gate x Wi bi 0 p q + gate h Wr br 0 p q) * h (ix2 p q)
    + (one - Ideal.logistic (gate x Wi bi 0 p q + gate h Wr br 0 p q))
      * Ideal.tanh (gate x Wi bi 2 p q + Ideal.logistic (gate x Wi bi 1 p q + gate h Wr br 1 p q) * gate h Wr br 2 p q)

/-- The step as an array. -/
def gru {K : Nat} (x : (⟨2, ![128, K]⟩ : Shape).Idx → EReal) (h : (⟨2, ![128, 1024]⟩ : Shape).Idx → EReal)
    (Wi : (⟨2, ![K, 3072]⟩ : Shape).Idx → EReal) (Wr : (⟨2, ![1024, 3072]⟩ : Shape).Idx → EReal)
    (bi br : (⟨1, ![3072]⟩ : Shape).Idx → EReal) : (⟨2, ![128, 1024]⟩ : Shape).Idx → EReal :=
  fun i => gruAt x h Wi Wr bi br (i 0) (i 1)

theorem gru_ix2 {K : Nat} (x : (⟨2, ![128, K]⟩ : Shape).Idx → EReal) (h : (⟨2, ![128, 1024]⟩ : Shape).Idx → EReal)
    (Wi : (⟨2, ![K, 3072]⟩ : Shape).Idx → EReal) (Wr : (⟨2, ![1024, 3072]⟩ : Shape).Idx → EReal)
    (bi br : (⟨1, ![3072]⟩ : Shape).Idx → EReal) (p : Fin 128) (q : Fin 1024) :
    gru x h Wi Wr bi br (ix2 p q) = gruAt x h Wi Wr bi br p q := rfl

/-- The vocabulary head at row p, column v: the inner product of row p of h with column v of W, plus the bias. -/
def headAt (h : (⟨2, ![128, 1024]⟩ : Shape).Idx → EReal) (W : (⟨2, ![1024, 32000]⟩ : Shape).Idx → EReal)
    (b : (⟨1, ![32000]⟩ : Shape).Idx → EReal) (p : Fin 128) (v : Fin 32000) : EReal :=
  (∑ k : Fin 1024, h (ix2 p k) * W (ix2 k v)) + b (ix1 v)

/-- The head as an array. -/
def head (h : (⟨2, ![128, 1024]⟩ : Shape).Idx → EReal) (W : (⟨2, ![1024, 32000]⟩ : Shape).Idx → EReal)
    (b : (⟨1, ![32000]⟩ : Shape).Idx → EReal) : (⟨2, ![128, 32000]⟩ : Shape).Idx → EReal :=
  fun i => headAt h W b (i 0) (i 1)

theorem head_ix2 (h : (⟨2, ![128, 1024]⟩ : Shape).Idx → EReal) (W : (⟨2, ![1024, 32000]⟩ : Shape).Idx → EReal)
    (b : (⟨1, ![32000]⟩ : Shape).Idx → EReal) (p : Fin 128) (v : Fin 32000) :
    head h W b (ix2 p v) = headAt h W b p v := rfl

/-! ## One grid point's share

A grid point works on a strip of 256 hidden units. Its weight blocks keep the gate axis apart: entry (k, g, j) of a
weight block is row k, gate g, unit j of the strip; a bias block has one row. -/

/-- Pre-activation of gate g at row p, unit j of the strip, from the strip's weight and bias blocks. -/
def gateB {K : Nat} (x : (⟨2, ![128, K]⟩ : Shape).Idx → EReal) (W : (⟨3, ![K, 3, 256]⟩ : Shape).Idx → EReal)
    (b : (⟨3, ![1, 3, 256]⟩ : Shape).Idx → EReal) (g : Fin 3) (p : Fin 128) (j : Fin 256) : EReal :=
  (∑ k : Fin K, x (ix2 p k) * W (ix3 k g j)) + b (ix3 0 g j)

/-- The step on one strip: the whole previous state enters the recurrent products, its strip the convex mix. -/
def gruBlockAt {K : Nat} (x : (⟨2, ![128, K]⟩ : Shape).Idx → EReal) (hfull : (⟨2, ![128, 1024]⟩ : Shape).Idx → EReal)
    (htile : (⟨2, ![128, 256]⟩ : Shape).Idx → EReal)
    (Wi : (⟨3, ![K, 3, 256]⟩ : Shape).Idx → EReal) (Wr : (⟨3, ![1024, 3, 256]⟩ : Shape).Idx → EReal)
    (bi br : (⟨3, ![1, 3, 256]⟩ : Shape).Idx → EReal) (p : Fin 128) (j : Fin 256) : EReal :=
  Ideal.logistic (gateB x Wi bi 0 p j + gateB hfull Wr br 0 p j) * htile (ix2 p j)
    + (one - Ideal.logistic (gateB x Wi bi 0 p j + gateB hfull Wr br 0 p j))
      * Ideal.tanh (gateB x Wi bi 2 p j + Ideal.logistic (gateB x Wi bi 1 p j + gateB hfull Wr br 1 p j) * gateB hfull Wr br 2 p j)

/-- The head on one strip of 3200 output columns. -/
def headBlockAt (h : (⟨2, ![128, 1024]⟩ : Shape).Idx → EReal) (W : (⟨2, ![1024, 3200]⟩ : Shape).Idx → EReal)
    (b : (⟨2, ![1, 3200]⟩ : Shape).Idx → EReal) (p : Fin 128) (j : Fin 3200) : EReal :=
  (∑ k : Fin 1024, h (ix2 p k) * W (ix2 k j)) + b (ix2 0 j)

end Cert.Gru

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.PayHead.lean ====
/-
  The vocabulary head's block, read at an index: one inner product per output column, plus the bias row.
-/
import proofs.«120770_j4544075399464_2_alg».proof.Proof.Gen.KernelIdeal.Skeleton
import proofs.«120770_j4544075399464_2_alg».proof.Proof.GruSpec
import proofs.«120770_j4544075399464_2_alg».proof.Proof.LibPlainMatmul
import Idealize.ShloMosaic.Lib.ValueLayout

noncomputable section

namespace Cert.KernelIdeal.Pay

open Cert.KernelIdeal Cert.KernelIdeal.Gen Idealize.ShloMosaic Idealize.ShloMosaic.ValueIdx
open scoped BigOperators

/-- The head's dimension numbers contract the left operand's columns against the right operand's rows. -/
theorem head_matmul_at (a : FVec Ideal S128x1024 .bf16) (b : FVec Ideal S1024x3200 .bf16) (p : Fin 128) (j : Fin 3200) :
    matmul dot_S128x1024_S1024x3200_S128x3200_1_0_0_1_n_n none a b (constant S128x3200 .f32 0x00000000#32) (ix2 p j)
      = ∑ k : Fin 1024, a (ix2 p k) * b (ix2 k j) :=
  Cert.LibPlainMatmul.matmul_zero_at dot_S128x1024_S1024x3200_S128x3200_1_0_0_1_n_n none rfl rfl
    (fun i q => by
      unfold DotDims.lhsIdx
      rw [dif_neg (show ¬(0 : Fin S128x1024.rank) ∈ dot_S128x1024_S1024x3200_S128x3200_1_0_0_1_n_n.lhsBatch by decide),
        dif_pos (show (0 : Fin S128x1024.rank) ∈ dot_S128x1024_S1024x3200_S128x3200_1_0_0_1_n_n.lhsNonContracting by decide)]
      rfl)
    (fun i q => dot_S128x1024_S1024x3200_S128x3200_1_0_0_1_n_n.lhsIdx_val_of_single rfl i q)
    (fun i q => dot_S128x1024_S1024x3200_S128x3200_1_0_0_1_n_n.rhsIdx_val_of_single rfl i q)
    (fun i q => by
      unfold DotDims.rhsIdx
      rw [dif_neg (show ¬(1 : Fin S1024x3200.rank) ∈ dot_S128x1024_S1024x3200_S128x3200_1_0_0_1_n_n.rhsBatch by decide),
        dif_pos (show (1 : Fin S1024x3200.rank) ∈ dot_S128x1024_S1024x3200_S128x3200_1_0_0_1_n_n.rhsNonContracting by decide)]
      rfl)
    a b p j

theorem head_at (v0 : Vec Ideal S128x1024 .f32) (v3 : Vec Ideal S1024x3200 .f32) (v6 : Vec Ideal S1x3200 .f32) (p : Fin 128) (j : Fin 3200) :
    k2_pay1 (F := Ideal) v0 v3 v6 (ix2 p j) = Cert.Gru.headBlockAt v0 v3 v6 p j := by
  unfold k2_pay1 Cert.Gru.headBlockAt
  rw [shapeCast_self, shapeCast_self, addf_apply, head_matmul_at, broadcastTo_1b_ab_apply]
  rfl

end Cert.KernelIdeal.Pay

end
-- ==== Proof.ValueHead.lean ====
/-
  The vocabulary head's region, from blocks to the whole array.

  The region has ten grid points; point t computes the strip of 3200 output columns starting at column 3200 t. It is
  handed the whole hidden state, columns 3200 t … 3200 t + 3199 of the weight matrix and of the bias row, and its body
  leaves, at row p and column j of the strip, the inner product of row p of the hidden state with column j of the
  weights' block plus entry j of the bias block: the head's value at row p, column 3200 t + j of the whole result. So
  what each point writes back is its block of ONE function of the whole arrays, and since the ten strips fill the
  32000 columns (column v lies in the strip of point v / 3200), the result array ends holding that function.
-/
import proofs.«120770_j4544075399464_2_alg».proof.Proof.FrameHead
import proofs.«120770_j4544075399464_2_alg».proof.Proof.PayHead
import proofs.«120770_j4544075399464_2_alg».proof.Proof.GruSpec
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

/-- The zero offset of a whole-buffer load or store. -/
theorem hz : (![0, 0] : Fin 2 → Nat) = fun _ => 0 := funext fun a => by fin_cases a <;> rfl

/-- The printed index maps, decided once over the ten grid points: the hidden state's window stays at block (0, 0);
    the weights', the bias row's and the result's windows are at block (0, t). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- A grid point is below ten. -/
theorem point_lt (t : Fin cfg2.N) : t.val < 10 := lt_of_lt_of_eq t.isLt N_2

/-- The body at row p, column j of the strip, when its three blocks are the strip's parts of whole arrays: the head's
    value at row p, column v of the whole result, v the strip's column j. -/
theorem point_value (hid : S128x1024.Idx → EReal) (W : S1024x32000.Idx → EReal) (bias : (⟨1, ![32000]⟩ : Shape).Idx → EReal)
    (x0 : Vec Ideal S128x1024 .f32) (x1 : Vec Ideal S1024x3200 .f32) (x2 : Vec Ideal S1x3200 .f32)
    (p : Fin 128) (j : Fin 3200) (v : Fin 32000)
    (h0 : ∀ k : Fin 1024, x0 (ix2 p k) = hid (ix2 p k))
    (h1 : ∀ k : Fin 1024, x1 (ix2 k j) = W (ix2 k v))
    (h2 : x2 (ix2 0 j) = bias (ix1 v)) :
    k2_pay1 (F := Ideal) x0 x1 x2 (ix2 p j) = Cert.Gru.head hid W bias (ix2 p v) := by
  rw [Cert.KernelIdeal.Pay.head_at, Cert.Gru.head_ix2]
  unfold Cert.Gru.headBlockAt Cert.Gru.headAt
  rw [h2]
  simp only [h0, h1]

variable (V : (c : Dev nD) → (b : Ref sig .tc) → Buf (Elt Ideal) ((c : Thread nD τ).loc b))

/-- The hidden state's window hands every point the whole array. -/
theorem blk_hid (c : Dev nD) (t : Fin cfg2.N) (p : Fin 128) (k : Fin 1024) :
    (iblk2 V c 0 t : Vec Ideal S128x1024 .f32) (ix2 p k) = (V c main_v17 : S128x1024.Idx → EReal) (ix2 p k) := by
  obtain ⟨e0, e1, -⟩ := idx_facts t
  unfold iblk2
  rw [View.read_apply]
  show V c main_v17 _ = V c main_v17 _
  congr 1
  funext a
  apply Fin.ext
  match a with
  | ⟨0, _⟩ => show win2_0.index t (0 : Fin 2) * 128 + 1 * p.val = p.val; rw [e0]; omega
  | ⟨1, _⟩ => show win2_0.index t (1 : Fin 2) * 1024 + 1 * k.val = k.val; rw [e1]; omega

/-- The weights' window hands point t columns 3200 t … 3200 t + 3199. -/
theorem blk_W (c : Dev nD) (t : Fin cfg2.N) (k : Fin 1024) (j : Fin 3200) (v : Fin 32000) (hv : v.val = t.val * 3200 + j.val) :
    (iblk2 V c 1 t : Vec Ideal S1024x3200 .f32) (ix2 k j) = (V c main_arg12 : S1024x32000.Idx → EReal) (ix2 k v) := by
  obtain ⟨-, -, e0, e1, -⟩ := idx_facts t
  unfold iblk2
  rw [View.read_apply]
  show V c main_arg12 _ = V c main_arg12 _
  congr 1
  funext a
  apply Fin.ext
  match a with
  | ⟨0, _⟩ => show win2_1.index t (0 : Fin 2) * 1024 + 1 * k.val = k.val; rw [e0]; omega
  | ⟨1, _⟩ => show win2_1.index t (1 : Fin 2) * 3200 + 1 * j.val = v.val; rw [e1, hv]; omega

/-- The bias row's window hands point t the same columns of the one row. -/
theorem blk_b (c : Dev nD) (t : Fin cfg2.N) (j : Fin 3200) (v : Fin 32000) (hv : v.val = t.val * 3200 + j.val) :
    (iblk2 V c 2 t : Vec Ideal S1x3200 .f32) (ix2 0 j) = (V c main_v18 : S1x32000.Idx → EReal) (ix2 0 v) := by
  obtain ⟨-, -, -, -, e0, e1, -⟩ := idx_facts t
  unfold iblk2
  rw [View.read_apply]
  show V c main_v18 _ = V c main_v18 _
  congr 1
  funext a
  apply Fin.ext
  match a with
  | ⟨0, _⟩ => show win2_2.index t (0 : Fin 2) * 1 + 1 * 0 = 0; rw [e0]
  | ⟨1, _⟩ => show win2_2.index t (1 : Fin 2) * 3200 + 1 * j.val = v.val; rw [e1, hv]; omega

/-- What point t writes back is its block of the head of the whole arrays. -/
theorem flushed_eq (c : Dev nD) (bias : (⟨1, ![32000]⟩ : Shape).Idx → EReal)
    (hb : ∀ v : Fin 32000, (V c main_v18 : S1x32000.Idx → EReal) (ix2 0 v) = bias (ix1 v)) (t : Fin cfg2.N) :
    (dat2 (F := Ideal) V c).flushed 3 t
      = ((cfg2.win 3).blk t).view.read (Elt Ideal) (Cert.Gru.head (V c main_v17) (V c main_arg12) bias) := by
  show (cfg2.win 3).cut (cfg2.grid.coords t) ((dat2 V c).after 3 t) = _
  rw [after2_3]
  unfold out2_3
  rw [View.canon_unit_zero hz]
  simp only [View.ld_unit_zero (S := S128x1024) hz, View.ld_unit_zero (S := S1024x3200) hz, View.ld_unit_zero (S := S1x3200) hz]
  obtain ⟨-, -, -, -, -, -, e0, e1⟩ := idx_facts t
  have ht := point_lt t
  funext y
  have hy0 : (y 0).val < 128 := (y 0).isLt
  have hy1 : (y 1).val < 3200 := (y 1).isLt
  have hv : t.val * 3200 + (y 1).val < 32000 := by omega
  have ex : (win2 3).xinj (grid2.coords t) y = ix2 (⟨(y 0).val, hy0⟩ : Fin 128) (⟨(y 1).val, hy1⟩ : Fin 3200) :=
    funext fun a => by match a with | ⟨0, _⟩ => rfl | ⟨1, _⟩ => rfl
  have ee : ((cfg2.win 3).blk t).view.emb y = ix2 (⟨(y 0).val, hy0⟩ : Fin 128) (⟨t.val * 3200 + (y 1).val, hv⟩ : Fin 32000) := by
    funext a
    apply Fin.ext
    match a with
    | ⟨0, _⟩ => show win2_3.index t (0 : Fin 2) * 128 + 1 * (y 0).val = (y 0).val; rw [e0]; omega
    | ⟨1, _⟩ => show win2_3.index t (1 : Fin 2) * 3200 + 1 * (y 1).val = t.val * 3200 + (y 1).val; rw [e1]; omega
  rw [View.read_apply]
  show k2_pay1 (F := Ideal) (iblk2 V c 0 t) (iblk2 V c 1 t) (iblk2 V c 2 t) ((win2 3).xinj (grid2.coords t) y)
    = Cert.Gru.head (V c main_v17) (V c main_arg12) bias (((cfg2.win 3).blk t).view.emb y)
  rw [ex, ee]
  exact point_value (V c main_v17) (V c main_arg12) bias _ _ _ _ _ _
    (fun k => blk_hid V c t _ k) (fun k => blk_W V c t k _ _ rfl) ((blk_b V c t _ _ rfl).trans (hb _))

/-- An index of the result array is in point t's block iff each coordinate is in the block's range on its axis. -/
theorem mem_blk (t : Fin cfg2.N) (i : S128x32000.Idx) :
    i ∈ ((cfg2.win 3).blk t).view.set ↔ ∀ a : Fin 2, win2_3.index t a * S128x3200.size a ≤ (i a).val ∧ (i a).val < win2_3.index t a * S128x3200.size a + S128x3200.size a := by
  show i ∈ ((View.whole main_v19).slice (win2_3.rect t)).set ↔ _
  rw [View.set_slice_whole, Rect.mem_set_unit]
  exact Iff.rfl

/-- The ten strips fill the result array: column v is in the strip of point v / 3200, and every point writes back. -/
theorem cover (i : S128x32000.Idx) :
    ∃ t : Fin cfg2.N, (cfg2.win 3).flush t = true ∧ i ∈ ((cfg2.win 3).blk t).view.set := by
  have hi0 : (i 0).val < 128 := (i 0).isLt
  have hi1 : (i 1).val < 32000 := (i 1).isLt
  have hq : (i 1).val / 3200 < cfg2.N := by rw [show cfg2.N = 10 from N_2]; omega
  obtain ⟨-, -, -, -, -, -, e0, e1⟩ := idx_facts ⟨(i 1).val / 3200, hq⟩
  refine ⟨⟨(i 1).val / 3200, hq⟩, flush2_3 _, ?_⟩
  rw [mem_blk]
  intro a
  match a with
  | ⟨0, _⟩ =>
    show win2_3.index ⟨(i 1).val / 3200, hq⟩ (0 : Fin 2) * 128 ≤ (i 0).val
      ∧ (i 0).val < win2_3.index ⟨(i 1).val / 3200, hq⟩ (0 : Fin 2) * 128 + 128
    rw [e0]; omega
  | ⟨1, _⟩ =>
    show win2_3.index ⟨(i 1).val / 3200, hq⟩ (1 : Fin 2) * 3200 ≤ (i 1).val
      ∧ (i 1).val < win2_3.index ⟨(i 1).val / 3200, hq⟩ (1 : Fin 2) * 3200 + 3200
    rw [e1]
    show (i 1).val / 3200 * 3200 ≤ (i 1).val ∧ (i 1).val < (i 1).val / 3200 * 3200 + 3200
    omega

/-- After the ten points the result array is the head of the hidden state, the weights and the bias. -/
theorem head_final (c : Dev nD) (bias : (⟨1, ![32000]⟩ : Shape).Idx → EReal)
    (hb : ∀ v : Fin 32000, V c main_v18 (ix2 0 v) = bias (ix1 v)) :
    (dat2 (F := Ideal) V c).arrAt 3 cfg2.N = Cert.Gru.head (V c main_v17) (V c main_arg12) bias :=
  (dat2 (F := Ideal) V c).arrAt_eq_of_cover 3 (Cert.Gru.head (V c main_v17) (V c main_arg12) bias)
    (fun t _ => flushed_eq V c bias hb t) cover

end Cert.KernelIdeal.Val

end
-- ==== Proof.PayGru0.lean ====
/-
  One strip of the gated recurrent step of layer 0, read at an index.

  The body cuts gate g out of a weight block [rows, 3, 256] along the gate axis, drops the unit axis left behind,
  and multiplies: at (p, j) that is the inner product of row p of the operand with the entries (k, g, j) of the
  block. A bias block [1, 3, 256] is cut the same way and its one row laid over the 128 rows. Everything after
  that is lane by lane: z = logistic (iz + rz), r = logistic (ir + rr), hh = tanh (ih + r * rh), and the result
  z * h + (1 - z) * hh. The change of format before each product is the identity on the extended reals.
-/
import proofs.«120770_j4544075399464_2_alg».proof.Proof.Gen.KernelIdeal.Skeleton
import proofs.«120770_j4544075399464_2_alg».proof.Proof.GruSpec
import proofs.«120770_j4544075399464_2_alg».proof.Proof.LibPlainMatmul
import Idealize.ShloMosaic.Lib.ValueLayout

noncomputable section

namespace Cert.KernelIdeal.Pay.L0

open Cert.KernelIdeal Cert.KernelIdeal.Gen Idealize.ShloMosaic Idealize.ShloMosaic.ValueIdx
open scoped BigOperators

/-! ## Layout: a gate cut out of a block -/

section Layout
variable {α : Type}

/-- An `[a, 1, b]` array viewed `[a, b]` reads, at `(i, j)`, the operand at `(i, 0, j)`: the two row-major positions
    are `(i * 1 + 0) * b + j` and `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The gate at offset `o` of the middle axis of a block `[a, n, b]`, cut out and viewed `[a, b]`, reads, at `(k, j)`,
    the block at `(k, g, j)`, `g` the coordinate `o`. -/
theorem gateSlice_apply {a n b : ℕ} (o : ℕ) (w : (⟨3, ![a, n, b]⟩ : Shape).Idx → α)
    (hs : (⟨3, ![a, n, b]⟩ : Shape).Slices ![0, o, 0] ⟨3, ![a, 1, b]⟩)
    (hc : (⟨3, ![a, 1, b]⟩ : Shape).ShapeCasts ⟨2, ![a, b]⟩) (g : Fin n) (hg : g.val = o) (k : Fin a) (j : Fin b) :
    shapeCast ⟨2, ![a, b]⟩ (extractStridedSlice ⟨3, ![a, 1, b]⟩ ![0, o, 0] w hs) hc (ix2 k j) = w (ix3 k g j) :=
  (shapeCast_a1b_ab_apply _ hc k j).trans
    (slice3_axis1_apply o w hs k (0 : Fin 1) j g (hg.trans (Nat.add_zero o).symm))

/-- The same gate of a one-row block `[1, n, b]`, cut out, viewed `[1, b]` and laid over `m` rows, reads, at `(p, j)`,
    the block at `(0, g, j)`. -/
theorem biasRow_apply {m n b : ℕ} (o : ℕ) (v : (⟨3, ![1, n, b]⟩ : Shape).Idx → α)
    (hs : (⟨3, ![1, n, b]⟩ : Shape).Slices ![0, o, 0] ⟨3, ![1, 1, b]⟩)
    (hc : (⟨3, ![1, 1, b]⟩ : Shape).ShapeCasts ⟨2, ![1, b]⟩) (hb : (⟨2, ![1, b]⟩ : Shape).Broadcasts ⟨2, ![m, b]⟩)
    (g : Fin n) (hg : g.val = o) (p : Fin m) (j : Fin b) :
    broadcastTo ⟨2, ![m, b]⟩ (shapeCast ⟨2, ![1, b]⟩ (extractStridedSlice ⟨3, ![1, 1, b]⟩ ![0, o, 0] v hs) hc) hb (ix2 p j)
      = v (ix3 (0 : Fin 1) g j) :=
  (broadcastTo_1b_ab_apply _ hb p j).trans (gateSlice_apply o v hs hc g hg (0 : Fin 1) j)

end Layout

/-! ## Lane by lane -/

/-- The logistic function of a vector, at an index. -/
theorem logistic_apply {s : Shape} {φ : FTy} (a : FVec Ideal s φ) (i : s.Idx) :
    Idealize.ShloMosaic.logistic a i = Ideal.logistic (a i) := rfl

/-- The hyperbolic tangent of a vector, at an index. -/
theorem tanh_apply {s : Shape} {φ : FTy} (a : FVec Ideal s φ) (i : s.Idx) :
    Idealize.ShloMosaic.tanh a i = Ideal.tanh (a i) := rfl

/-! ## The products -/

/-- The input side's dimension numbers contract the left operand's 256 columns against the right operand's rows. -/
theorem matmulI_at (a : FVec Ideal S128x256 .bf16) (b : FVec Ideal S256x256 .bf16) (p : Fin 128) (j : Fin 256) :
    matmul dot_S128x256_S256x256_S128x256_1_0_0_1_n_n none a b (constant S128x256 .f32 0x00000000#32) (ix2 p j)
      = ∑ k : Fin 256, a (ix2 p k) * b (ix2 k j) :=
  Cert.LibPlainMatmul.matmul_zero_at dot_S128x256_S256x256_S128x256_1_0_0_1_n_n none rfl rfl
    (fun i q => by
      unfold DotDims.lhsIdx
      rw [dif_neg (show ¬(0 : Fin S128x256.rank) ∈ dot_S128x256_S256x256_S128x256_1_0_0_1_n_n.lhsBatch by decide),
        dif_pos (show (0 : Fin S128x256.rank) ∈ dot_S128x256_S256x256_S128x256_1_0_0_1_n_n.lhsNonContracting by decide)]
      rfl)
    (fun i q => dot_S128x256_S256x256_S128x256_1_0_0_1_n_n.lhsIdx_val_of_single rfl i q)
    (fun i q => dot_S128x256_S256x256_S128x256_1_0_0_1_n_n.rhsIdx_val_of_single rfl i q)
    (fun i q => by
      unfold DotDims.rhsIdx
      rw [dif_neg (show ¬(1 : Fin S256x256.rank) ∈ dot_S128x256_S256x256_S128x256_1_0_0_1_n_n.rhsBatch by decide),
        dif_pos (show (1 : Fin S256x256.rank) ∈ dot_S128x256_S256x256_S128x256_1_0_0_1_n_n.rhsNonContracting by decide)]
      rfl)
    a b p j

/-- The recurrent side's contract the left operand's 1024 columns against the right operand's rows. -/
theorem matmulR_at (a : FVec Ideal S128x1024 .bf16) (b : FVec Ideal S1024x256 .bf16) (p : Fin 128) (j : Fin 256) :
    matmul dot_S128x1024_S1024x256_S128x256_1_0_0_1_n_n none a b (constant S128x256 .f32 0x00000000#32) (ix2 p j)
      = ∑ k : Fin 1024, a (ix2 p k) * b (ix2 k j) :=
  Cert.LibPlainMatmul.matmul_zero_at dot_S128x1024_S1024x256_S128x256_1_0_0_1_n_n none rfl rfl
    (fun i q => by
      unfold DotDims.lhsIdx
      rw [dif_neg (show ¬(0 : Fin S128x1024.rank) ∈ dot_S128x1024_S1024x256_S128x256_1_0_0_1_n_n.lhsBatch by decide),
        dif_pos (show (0 : Fin S128x1024.rank) ∈ dot_S128x1024_S1024x256_S128x256_1_0_0_1_n_n.lhsNonContracting by decide)]
      rfl)
    (fun i q => dot_S128x1024_S1024x256_S128x256_1_0_0_1_n_n.lhsIdx_val_of_single rfl i q)
    (fun i q => dot_S128x1024_S1024x256_S128x256_1_0_0_1_n_n.rhsIdx_val_of_single rfl i q)
    (fun i q => by
      unfold DotDims.rhsIdx
      rw [dif_neg (show ¬(1 : Fin S1024x256.rank) ∈ dot_S128x1024_S1024x256_S128x256_1_0_0_1_n_n.rhsBatch by decide),
        dif_pos (show (1 : Fin S1024x256.rank) ∈ dot_S128x1024_S1024x256_S128x256_1_0_0_1_n_n.rhsNonContracting by decide)]
      rfl)
    a b p j

/-! ## A gate's pre-activation -/

/-- A product of `x` with the gate at offset `o` of a weight block is the sum over the block's rows (`hD`) of `x`'s
    row against the entries `(k, g, j)`. -/
theorem gateProd_at {K : ℕ} (D : DotDims ⟨2, ![128, K]⟩ ⟨2, ![K, 256]⟩ ⟨2, ![128, 256]⟩)
    (hD : ∀ (a : FVec Ideal ⟨2, ![128, K]⟩ .bf16) (b : FVec Ideal ⟨2, ![K, 256]⟩ .bf16) (p : Fin 128) (j : Fin 256),
      matmul D none a b (constant ⟨2, ![128, 256]⟩ .f32 0x00000000#32) (ix2 p j) = ∑ k : Fin K, a (ix2 p k) * b (ix2 k j))
    (o : ℕ) (x : FVec Ideal ⟨2, ![128, K]⟩ .bf16) (w : FVec Ideal ⟨3, ![K, 3, 256]⟩ .bf16)
    (hsw : (⟨3, ![K, 3, 256]⟩ : Shape).Slices ![0, o, 0] ⟨3, ![K, 1, 256]⟩)
    (hcw : (⟨3, ![K, 1, 256]⟩ : Shape).ShapeCasts ⟨2, ![K, 256]⟩)
    (g : Fin 3) (hg : g.val = o) (p : Fin 128) (j : Fin 256) :
    matmul D none x (shapeCast ⟨2, ![K, 256]⟩ (extractStridedSlice ⟨3, ![K, 1, 256]⟩ ![0, o, 0] w hsw) hcw)
        (constant ⟨2, ![128, 256]⟩ .f32 0x00000000#32) (ix2 p j)
      = ∑ k : Fin K, x (ix2 p k) * w (ix3 k g j) := by
  rw [hD]
  exact Finset.sum_congr rfl fun k _ => by rw [gateSlice_apply o w hsw hcw g hg k j]

/-- That product plus the same gate of a bias block is the gate's pre-activation. -/
theorem gate_at {K : ℕ} (D : DotDims ⟨2, ![128, K]⟩ ⟨2, ![K, 256]⟩ ⟨2, ![128, 256]⟩)
    (hD : ∀ (a : FVec Ideal ⟨2, ![128, K]⟩ .bf16) (b : FVec Ideal ⟨2, ![K, 256]⟩ .bf16) (p : Fin 128) (j : Fin 256),
      matmul D none a b (constant ⟨2, ![128, 256]⟩ .f32 0x00000000#32) (ix2 p j) = ∑ k : Fin K, a (ix2 p k) * b (ix2 k j))
    (o : ℕ) (x : FVec Ideal ⟨2, ![128, K]⟩ .bf16) (w : FVec Ideal ⟨3, ![K, 3, 256]⟩ .bf16) (b : FVec Ideal ⟨3, ![1, 3, 256]⟩ .f32)
    (hsw : (⟨3, ![K, 3, 256]⟩ : Shape).Slices ![0, o, 0] ⟨3, ![K, 1, 256]⟩)
    (hcw : (⟨3, ![K, 1, 256]⟩ : Shape).ShapeCasts ⟨2, ![K, 256]⟩)
    (hsb : (⟨3, ![1, 3, 256]⟩ : Shape).Slices ![0, o, 0] ⟨3, ![1, 1, 256]⟩)
    (hcb : (⟨3, ![1, 1, 256]⟩ : Shape).ShapeCasts ⟨2, ![1, 256]⟩)
    (hbb : (⟨2, ![1, 256]⟩ : Shape).Broadcasts ⟨2, ![128, 256]⟩)
    (g : Fin 3) (hg : g.val = o) (p : Fin 128) (j : Fin 256) :
    addf (matmul D none x (shapeCast ⟨2, ![K, 256]⟩ (extractStridedSlice ⟨3, ![K, 1, 256]⟩ ![0, o, 0] w hsw) hcw)
          (constant ⟨2, ![128, 256]⟩ .f32 0x00000000#32))
        (broadcastTo ⟨2, ![128, 256]⟩ (shapeCast ⟨2, ![1, 256]⟩ (extractStridedSlice ⟨3, ![1, 1, 256]⟩ ![0, o, 0] b hsb) hcb) hbb)
        (ix2 p j)
      = Cert.Gru.gateB x w b g p j := by
  rw [addf_apply, gateProd_at D hD o x w hsw hcw g hg p j, biasRow_apply o b hsb hcb hbb g hg p j]
  rfl

/-! ## The input side's three gates and the recurrent side's first product -/

theorem pay8_at (v0 : Vec Ideal S128x256 .f32) (v5 : Vec Ideal S256x3x256 .f32) (v11 : Vec Ideal S1x3x256 .f32) (p : Fin 128) (j : Fin 256) :
    k0_pay8 (F := Ideal) v0 v5 v11 (ix2 p j) = Cert.Gru.gateB v0 v5 v11 0 p j := by
  unfold k0_pay8 k0_pay2 k0_pay4 k0_pay6
  rw [shapeCast_self, shapeCast_self, shapeCast_self]
  exact gate_at dot_S128x256_S256x256_S128x256_1_0_0_1_n_n matmulI_at 0 _ _ _ _ _ _ _ _ 0 rfl p j

theorem pay9_at (v0 : Vec Ideal S128x256 .f32) (v5 : Vec Ideal S256x3x256 .f32) (v11 : Vec Ideal S1x3x256 .f32) (p : Fin 128) (j : Fin 256) :
    k0_pay9 (F := Ideal) v0 v5 v11 (ix2 p j) = Cert.Gru.gateB v0 v5 v11 1 p j := by
  unfold k0_pay9 k0_pay2 k0_pay4 k0_pay6
  rw [shapeCast_self, shapeCast_self, shapeCast_self]
  exact gate_at dot_S128x256_S256x256_S128x256_1_0_0_1_n_n matmulI_at 1 _ _ _ _ _ _ _ _ 1 rfl p j

theorem pay10_at (v0 : Vec Ideal S128x256 .f32) (v5 : Vec Ideal S256x3x256 .f32) (v11 : Vec Ideal S1x3x256 .f32) (p : Fin 128) (j : Fin 256) :
    k0_pay10 (F := Ideal) v0 v5 v11 (ix2 p j) = Cert.Gru.gateB v0 v5 v11 2 p j := by
  unfold k0_pay10 k0_pay2 k0_pay4 k0_pay6
  rw [shapeCast_self, shapeCast_self, shapeCast_self]
  exact gate_at dot_S128x256_S256x256_S128x256_1_0_0_1_n_n matmulI_at 2 _ _ _ _ _ _ _ _ 2 rfl p j

/-- The recurrent side's first product: the previous state's row against gate 0 of the recurrent weight block. -/
theorem pay11_at (v3 : Vec Ideal S128x1024 .f32) (v8 : Vec Ideal S1024x3x256 .f32) (p : Fin 128) (j : Fin 256) :
    k0_pay11 (F := Ideal) v3 v8 (ix2 p j) = ∑ k : Fin 1024, v3 (ix2 p k) * v8 (ix3 k (0 : Fin 3) j) := by
  unfold k0_pay11 k0_pay3 k0_pay5
  rw [shapeCast_self]
  exact gateProd_at dot_S128x1024_S1024x256_S128x256_1_0_0_1_n_n matmulR_at 0 _ _ _ _ 0 rfl p j

/-! ## The rest of the body, over the values the first part hands it -/

/-- The stored value at `(p, j)`: the recurrent side's bias joins its first product, its other two gates are whole
    pre-activations, and the three activations and the convex mix are lane by lane. -/
theorem pay1_at (v4 : FVec Ideal S128x1024 .bf16) (v10 : FVec Ideal S1024x3x256 .bf16) (v14 : FVec Ideal S1x3x256 .f32)
    (v21 v28 v35 v38 : FVec Ideal S128x256 .f32) (v64 : Vec Ideal S128x256 .f32) (p : Fin 128) (j : Fin 256) :
    k0_pay1 (F := Ideal) v4 v10 v14 v21 v28 v35 v38 v64 (ix2 p j)
      = Ideal.logistic (v21 (ix2 p j) + (v38 (ix2 p j) + v14 (ix3 (0 : Fin 1) (0 : Fin 3) j))) * v64 (ix2 p j)
        + (Cert.Gru.one - Ideal.logistic (v21 (ix2 p j) + (v38 (ix2 p j) + v14 (ix3 (0 : Fin 1) (0 : Fin 3) j))))
          * Ideal.tanh (v35 (ix2 p j)
              + Ideal.logistic (v28 (ix2 p j) + Cert.Gru.gateB v4 v10 v14 1 p j) * Cert.Gru.gateB v4 v10 v14 2 p j) := by
  unfold k0_pay1 Cert.Gru.gateB
  simp only [addf_apply, mulf_apply, subf_apply, logistic_apply, tanh_apply, broadcast_apply]
  rw [biasRow_apply 0 v14 _ _ _ (0 : Fin 3) rfl p j, biasRow_apply 1 v14 _ _ _ (1 : Fin 3) rfl p j,
    biasRow_apply 2 v14 _ _ _ (2 : Fin 3) rfl p j,
    gateProd_at dot_S128x1024_S1024x256_S128x256_1_0_0_1_n_n matmulR_at 1 v4 v10 _ _ (1 : Fin 3) rfl p j,
    gateProd_at dot_S128x1024_S1024x256_S128x256_1_0_0_1_n_n matmulR_at 2 v4 v10 _ _ (2 : Fin 3) rfl p j]
  rfl

end Cert.KernelIdeal.Pay.L0

namespace Cert.KernelIdeal.Pay

open Cert.KernelIdeal Cert.KernelIdeal.Gen Idealize.ShloMosaic Idealize.ShloMosaic.ValueIdx in
/-- The body of layer 0 at `(p, j)` of its strip is the step's formula there. -/
theorem body0_at (v0 : Vec Ideal S128x256 .f32) (v3 : Vec Ideal S128x1024 .f32) (v64 : Vec Ideal S128x256 .f32)
    (v5 : Vec Ideal S256x3x256 .f32) (v8 : Vec Ideal S1024x3x256 .f32) (v11 v13 : Vec Ideal S1x3x256 .f32) (p : Fin 128) (j : Fin 256) :
    k0_pay1 (F := Ideal) (k0_pay3 v3) (k0_pay5 v8) (k0_pay7 v13) (k0_pay8 v0 v5 v11) (k0_pay9 v0 v5 v11) (k0_pay10 v0 v5 v11) (k0_pay11 v3 v8) v64 (ix2 p j)
      = Cert.Gru.gruBlockAt v0 v3 v64 v5 v8 v11 v13 p j := by
  rw [L0.pay1_at, L0.pay8_at, L0.pay9_at, L0.pay10_at, L0.pay11_at]
  unfold Cert.Gru.gruBlockAt k0_pay3 k0_pay5 k0_pay7
  rw [shapeCast_self, shapeCast_self]
  rfl

end Cert.KernelIdeal.Pay

end
-- ==== Proof.ValueGru0.lean ====
/-
  Layer 0 from blocks to the whole array.

  Grid point t leaves in the result's block (0, t) the step's formula on the seven blocks it is handed. Those blocks
  are the layer's whole input and whole previous state, and the strip of 256 hidden units starting at unit 256 * t
  of the previous state, of the two weight tensors and of the two biases; a weight tensor [rows, 3, 1024] holds
  gate g of unit q where the packed matrix [rows, 3072] holds column g * 1024 + q. So what point t writes back at
  (p, j) is the whole-array formula at (p, 256 * t + j), and the four blocks tile the result.
-/
import proofs.«120770_j4544075399464_2_alg».proof.Proof.FrameGru0
import proofs.«120770_j4544075399464_2_alg».proof.Proof.PayGru0
import proofs.«120770_j4544075399464_2_alg».proof.Proof.GruSpec
import Idealize.ShloMosaic.Lib.Pipeline.Value
import Idealize.ShloMosaic.Lib.ValueIdx

noncomputable section

namespace Cert.KernelIdeal.Val.L0

open Cert.KernelIdeal Cert.KernelIdeal.Gen Cert.KernelIdeal.Fr Idealize.ShloMosaic Idealize.ShloMosaic.ValueIdx Idealize.ShloMosaic.TcCoe Idealize.SL.Sem
open Idealize.ShloMosaic.Pipeline (Dat)
open scoped BigOperators

/-! ## The strip's formula is the array's formula at the strip's place -/

/-- If row p of the input and state blocks is row p of the arrays, and unit j of each strip block is unit q of its
    array (gate g of unit q being column g * 1024 + q of the packed matrix), the strip's step at (p, j) is the
    array's step at (p, q). -/
theorem gruBlockAt_eq_gruAt {K : ℕ} (x : (⟨2, ![128, K]⟩ : Shape).Idx → EReal) (h : (⟨2, ![128, 1024]⟩ : Shape).Idx → EReal)
    (Wi : (⟨2, ![K, 3072]⟩ : Shape).Idx → EReal) (Wr : (⟨2, ![1024, 3072]⟩ : Shape).Idx → EReal)
    (bi br : (⟨1, ![3072]⟩ : Shape).Idx → EReal)
    (xB : (⟨2, ![128, K]⟩ : Shape).Idx → EReal) (hfB : (⟨2, ![128, 1024]⟩ : Shape).Idx → EReal)
    (htB : (⟨2, ![128, 256]⟩ : Shape).Idx → EReal)
    (WiB : (⟨3, ![K, 3, 256]⟩ : Shape).Idx → EReal) (WrB : (⟨3, ![1024, 3, 256]⟩ : Shape).Idx → EReal)
    (biB brB : (⟨3, ![1, 3, 256]⟩ : Shape).Idx → EReal)
    (p : Fin 128) (j : Fin 256) (q : Fin 1024)
    (hx : ∀ k : Fin K, xB (ix2 p k) = x (ix2 p k))
    (hhf : ∀ k : Fin 1024, hfB (ix2 p k) = h (ix2 p k))
    (hht : htB (ix2 p j) = h (ix2 p q))
    (hWi : ∀ (k : Fin K) (g : Fin 3), WiB (ix3 k g j) = Wi (ix2 k (Cert.Gru.gcol g q)))
    (hWr : ∀ (k : Fin 1024) (g : Fin 3), WrB (ix3 k g j) = Wr (ix2 k (Cert.Gru.gcol g q)))
    (hbi : ∀ g : Fin 3, biB (ix3 (0 : Fin 1) g j) = bi (ix1 (Cert.Gru.gcol g q)))
    (hbr : ∀ g : Fin 3, brB (ix3 (0 : Fin 1) g j) = br (ix1 (Cert.Gru.gcol g q))) :
    Cert.Gru.gruBlockAt xB hfB htB WiB WrB biB brB p j = Cert.Gru.gruAt x h Wi Wr bi br p q := by
  unfold Cert.Gru.gruBlockAt Cert.Gru.gruAt Cert.Gru.gateB Cert.Gru.gate
  simp only [hx, hhf, hht, hWi, hWr, hbi, hbr]

/-! ## Where each window's block lies, at every grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the four grid points: the input and the whole state stay at block (0, 0);
    every strip window and the result are at block t along the hidden axis. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 3) = 0 ∧ win0_3.index t (1 : Fin 3) = 0 ∧ win0_3.index t (2 : Fin 3) = t.val :=
  (by decide +kernel : ∀ t : Fin grid0.N, _)
theorem idx4 : ∀ t : Fin cfg0.N, win0_4.index t (0 : Fin 3) = 0 ∧ win0_4.index t (1 : Fin 3) = 0 ∧ win0_4.index t (2 : Fin 3) = t.val :=
  (by decide +kernel : ∀ t : Fin grid0.N, _)
theorem idx5 : ∀ t : Fin cfg0.N, win0_5.index t (0 : Fin 3) = 0 ∧ win0_5.index t (1 : Fin 3) = 0 ∧ win0_5.index t (2 : Fin 3) = t.val :=
  (by decide +kernel : ∀ t : Fin grid0.N, _)
theorem idx6 : ∀ t : Fin cfg0.N, win0_6.index t (0 : Fin 3) = 0 ∧ win0_6.index t (1 : Fin 3) = 0 ∧ win0_6.index t (2 : Fin 3) = t.val :=
  (by decide +kernel : ∀ t : Fin grid0.N, _)
theorem idx7 : ∀ t : Fin cfg0.N, t.val < 4 ∧ win0_7.index t (0 : Fin 2) = 0 ∧ win0_7.index t (1 : Fin 2) = t.val :=
  (by decide +kernel : ∀ t : Fin grid0.N, _)

/-- Every block of the result is some point's. -/
theorem idx_onto : ∀ q1 : Fin 4, ∃ t : Fin cfg0.N, win0_7.index t = ![0, q1.val] :=
  (by decide +kernel : ∀ q1 : Fin 4, ∃ t : Fin grid0.N, win0_7.index t = ![0, q1.val])

/-! ## Each input block read off its array: a block's coordinate is index * size + the coordinate inside -/

/-- The input's block is the input. -/
theorem blk0_at (V : (c : Dev nD) → (b : Ref sig .tc) → Buf (Elt Ideal) ((c : Thread nD τ).loc b)) (c : Dev nD) (t : Fin cfg0.N) (p : Fin 128) (k : Fin 256) :
    (iblk0 (F := Ideal) V c 0 t : Vec Ideal S128x256 .f32) (ix2 p k) = (V c main_v7 : S128x256.Idx → EReal) (ix2 p k) := by
  obtain ⟨e0, e1⟩ := idx0 t
  show (V c main_v7 : S128x256.Idx → EReal) (((cfg0.win 0).blk t).view.emb (ix2 p k)) = _
  refine congrArg (V c main_v7 : S128x256.Idx → EReal) (funext fun a => Fin.ext ?_)
  match a with
  | ⟨0, _⟩ => show win0_0.index t (0 : Fin 2) * 128 + 1 * p.val = p.val; omega
  | ⟨1, _⟩ => show win0_0.index t (1 : Fin 2) * 256 + 1 * k.val = k.val; omega

/-- The whole state's block is the state. -/
theorem blk1_at (V : (c : Dev nD) → (b : Ref sig .tc) → Buf (Elt Ideal) ((c : Thread nD τ).loc b)) (c : Dev nD) (t : Fin cfg0.N) (p : Fin 128) (k : Fin 1024) :
    (iblk0 (F := Ideal) V c 1 t : Vec Ideal S128x1024 .f32) (ix2 p k) = (V c main_arg1 : S128x1024.Idx → EReal) (ix2 p k) := by
  obtain ⟨e0, e1⟩ := idx1 t
  show (V c main_arg1 : S128x1024.Idx → EReal) (((cfg0.win 1).blk t).view.emb (ix2 p k)) = _
  refine congrArg (V c main_arg1 : S128x1024.Idx → EReal) (funext fun a => Fin.ext ?_)
  match a with
  | ⟨0, _⟩ => show win0_1.index t (0 : Fin 2) * 128 + 1 * p.val = p.val; omega
  | ⟨1, _⟩ => show win0_1.index t (1 : Fin 2) * 1024 + 1 * k.val = k.val; omega

/-- The state's strip at point t: unit j of the block is unit 256 * t + j of the state. -/
theorem blk2_at (V : (c : Dev nD) → (b : Ref sig .tc) → Buf (Elt Ideal) ((c : Thread nD τ).loc b)) (c : Dev nD) (t : Fin cfg0.N) (p : Fin 128) (j : Fin 256) (q : Fin 1024)
    (hq : q.val = t.val * 256 + j.val) :
    (iblk0 (F := Ideal) V c 2 t : Vec Ideal S128x256 .f32) (ix2 p j) = (V c main_arg1 : S128x1024.Idx → EReal) (ix2 p q) := by
  obtain ⟨e0, e1⟩ := idx2 t
  show (V c main_arg1 : S128x1024.Idx → EReal) (((cfg0.win 2).blk t).view.emb (ix2 p j)) = _
  refine congrArg (V c main_arg1 : S128x1024.Idx → EReal) (funext fun a => Fin.ext ?_)
  match a with
  | ⟨0, _⟩ => show win0_2.index t (0 : Fin 2) * 128 + 1 * p.val = p.val; omega
  | ⟨1, _⟩ => show win0_2.index t (1 : Fin 2) * 256 + 1 * j.val = q.val; omega

/-- The input weights' strip. -/
theorem blk3_at (V : (c : Dev nD) → (b : Ref sig .tc) → Buf (Elt Ideal) ((c : Thread nD τ).loc b)) (c : Dev nD) (t : Fin cfg0.N) (k : Fin 256) (g : Fin 3) (j : Fin 256) (q : Fin 1024)
    (hq : q.val = t.val * 256 + j.val) :
    (iblk0 (F := Ideal) V c 3 t : Vec Ideal S256x3x256 .f32) (ix3 k g j) = (V c main_v8 : S256x3x1024.Idx → EReal) (ix3 k g q) := by
  obtain ⟨e0, e1, e2⟩ := idx3 t
  show (V c main_v8 : S256x3x1024.Idx → EReal) (((cfg0.win 3).blk t).view.emb (ix3 k g j)) = _
  refine congrArg (V c main_v8 : S256x3x1024.Idx → EReal) (funext fun a => Fin.ext ?_)
  match a with
  | ⟨0, _⟩ => show win0_3.index t (0 : Fin 3) * 256 + 1 * k.val = k.val; omega
  | ⟨1, _⟩ => show win0_3.index t (1 : Fin 3) * 3 + 1 * g.val = g.val; omega
  | ⟨2, _⟩ => show win0_3.index t (2 : Fin 3) * 256 + 1 * j.val = q.val; omega

/-- The recurrent weights' strip. -/
theorem blk4_at (V : (c : Dev nD) → (b : Ref sig .tc) → Buf (Elt Ideal) ((c : Thread nD τ).loc b)) (c : Dev nD) (t : Fin cfg0.N) (k : Fin 1024) (g : Fin 3) (j : Fin 256) (q : Fin 1024)
    (hq : q.val = t.val * 256 + j.val) :
    (iblk0 (F := Ideal) V c 4 t : Vec Ideal S1024x3x256 .f32) (ix3 k g j) = (V c main_v9 : S1024x3x1024.Idx → EReal) (ix3 k g q) := by
  obtain ⟨e0, e1, e2⟩ := idx4 t
  show (V c main_v9 : S1024x3x1024.Idx → EReal) (((cfg0.win 4).blk t).view.emb (ix3 k g j)) = _
  refine congrArg (V c main_v9 : S1024x3x1024.Idx → EReal) (funext fun a => Fin.ext ?_)
  match a with
  | ⟨0, _⟩ => show win0_4.index t (0 : Fin 3) * 1024 + 1 * k.val = k.val; omega
  | ⟨1, _⟩ => show win0_4.index t (1 : Fin 3) * 3 + 1 * g.val = g.val; omega
  | ⟨2, _⟩ => show win0_4.index t (2 : Fin 3) * 256 + 1 * j.val = q.val; omega

/-- The input bias's strip. -/
theorem blk5_at (V : (c : Dev nD) → (b : Ref sig .tc) → Buf (Elt Ideal) ((c : Thread nD τ).loc b)) (c : Dev nD) (t : Fin cfg0.N) (k : Fin 1) (g : Fin 3) (j : Fin 256) (q : Fin 1024)
    (hq : q.val = t.val * 256 + j.val) :
    (iblk0 (F := Ideal) V c 5 t : Vec Ideal S1x3x256 .f32) (ix3 k g j) = (V c main_v10 : S1x3x1024.Idx → EReal) (ix3 k g q) := by
  obtain ⟨e0, e1, e2⟩ := idx5 t
  show (V c main_v10 : S1x3x1024.Idx → EReal) (((cfg0.win 5).blk t).view.emb (ix3 k g j)) = _
  refine congrArg (V c main_v10 : S1x3x1024.Idx → EReal) (funext fun a => Fin.ext ?_)
  match a with
  | ⟨0, _⟩ => show win0_5.index t (0 : Fin 3) * 1 + 1 * k.val = k.val; omega
  | ⟨1, _⟩ => show win0_5.index t (1 : Fin 3) * 3 + 1 * g.val = g.val; omega
  | ⟨2, _⟩ => show win0_5.index t (2 : Fin 3) * 256 + 1 * j.val = q.val; omega

/-- The recurrent bias's strip. -/
theorem blk6_at (V : (c : Dev nD) → (b : Ref sig .tc) → Buf (Elt Ideal) ((c : Thread nD τ).loc b)) (c : Dev nD) (t : Fin cfg0.N) (k : Fin 1) (g : Fin 3) (j : Fin 256) (q : Fin 1024)
    (hq : q.val = t.val * 256 + j.val) :
    (iblk0 (F := Ideal) V c 6 t : Vec Ideal S1x3x256 .f32) (ix3 k g j) = (V c main_v11 : S1x3x1024.Idx → EReal) (ix3 k g q) := by
  obtain ⟨e0, e1, e2⟩ := idx6 t
  show (V c main_v11 : S1x3x1024.Idx → EReal) (((cfg0.win 6).blk t).view.emb (ix3 k g j)) = _
  refine congrArg (V c main_v11 : S1x3x1024.Idx → EReal) (funext fun a => Fin.ext ?_)
  match a with
  | ⟨0, _⟩ => show win0_6.index t (0 : Fin 3) * 1 + 1 * k.val = k.val; omega
  | ⟨1, _⟩ => show win0_6.index t (1 : Fin 3) * 3 + 1 * g.val = g.val; omega
  | ⟨2, _⟩ => show win0_6.index t (2 : Fin 3) * 256 + 1 * j.val = q.val; omega

/-! ## What a point writes back -/

/-- Point t writes back block t of the step's array: the body's store at (p, j) is the strip's formula on the
    seven blocks, which is the array's formula at (p, 256 * t + j), the place of (p, j) under the result's block. -/
theorem flushed_eq (V : (c : Dev nD) → (b : Ref sig .tc) → Buf (Elt Ideal) ((c : Thread nD τ).loc b)) (c : Dev nD)
    (Wi : (⟨2, ![256, 3072]⟩ : Shape).Idx → EReal) (Wr : (⟨2, ![1024, 3072]⟩ : Shape).Idx → EReal) (bi br : (⟨1, ![3072]⟩ : Shape).Idx → EReal)
    (hWi : ∀ (k : Fin 256) (g : Fin 3) (q : Fin 1024), V c main_v8 (ix3 k g q) = Wi (ix2 k (Cert.Gru.gcol g q)))
    (hWr : ∀ (k : Fin 1024) (g : Fin 3) (q : Fin 1024), V c main_v9 (ix3 k g q) = Wr (ix2 k (Cert.Gru.gcol g q)))
    (hbi : ∀ (g : Fin 3) (q : Fin 1024), V c main_v10 (ix3 0 g q) = bi (ix1 (Cert.Gru.gcol g q)))
    (hbr : ∀ (g : Fin 3) (q : Fin 1024), V c main_v11 (ix3 0 g q) = br (ix1 (Cert.Gru.gcol g q)))
    (t : Fin cfg0.N) :
    (dat0 (F := Ideal) V c).flushed 7 t
      = ((cfg0.win 7).blk t).view.read (Elt Ideal) (Cert.Gru.gru (V c main_v7) (V c main_arg1) Wi Wr bi br) := by
  show (cfg0.win 7).cut (cfg0.grid.coords t) ((dat0 (F := Ideal) V c).after 7 t) = _
  rw [after0_7]
  unfold out0_7
  rw [View.canon_unit_zero hz2]
  simp only [View.ld_unit_zero (S := S128x256) hz2, View.ld_unit_zero (S := S128x1024) hz2, View.ld_unit_zero (S := S256x3x256) hz3,
    View.ld_unit_zero (S := S1024x3x256) hz3, View.ld_unit_zero (S := S1x3x256) hz3]
  funext y
  obtain ⟨p, j, rfl⟩ : ∃ (p : Fin 128) (j : Fin 256), y = ix2 p j := ⟨y 0, y 1, eq_ix2 y⟩
  obtain ⟨ht4, e0, e1⟩ := idx7 t
  have hq : t.val * 256 + j.val < 1024 := by have := j.isLt; omega
  have hemb : ((cfg0.win 7).blk t).view.emb (ix2 p j) = (ix2 p ⟨t.val * 256 + j.val, hq⟩ : S128x1024.Idx) := by
    funext a; apply Fin.ext
    match a with
    | ⟨0, _⟩ => show win0_7.index t (0 : Fin 2) * 128 + 1 * p.val = p.val; omega
    | ⟨1, _⟩ => show win0_7.index t (1 : Fin 2) * 256 + 1 * j.val = t.val * 256 + j.val; omega
  show k0_pay1 (F := Ideal) (k0_pay3 (iblk0 V c 1 t)) (k0_pay5 (iblk0 V c 4 t)) (k0_pay7 (iblk0 V c 6 t))
        (k0_pay8 (iblk0 V c 0 t) (iblk0 V c 3 t) (iblk0 V c 5 t)) (k0_pay9 (iblk0 V c 0 t) (iblk0 V c 3 t) (iblk0 V c 5 t))
        (k0_pay10 (iblk0 V c 0 t) (iblk0 V c 3 t) (iblk0 V c 5 t)) (k0_pay11 (iblk0 V c 1 t) (iblk0 V c 4 t)) (iblk0 V c 2 t) (ix2 p j)
      = Cert.Gru.gru (V c main_v7) (V c main_arg1) Wi Wr bi br (((cfg0.win 7).blk t).view.emb (ix2 p j))
  refine (Cert.KernelIdeal.Pay.body0_at (iblk0 V c 0 t) (iblk0 V c 1 t) (iblk0 V c 2 t) (iblk0 V c 3 t) (iblk0 V c 4 t)
    (iblk0 V c 5 t) (iblk0 V c 6 t) p j).trans ?_
  refine Eq.trans ?_ (congrArg (Cert.Gru.gru (V c main_v7) (V c main_arg1) Wi Wr bi br) hemb.symm)
  exact gruBlockAt_eq_gruAt (K := 256) (V c main_v7) (V c main_arg1) Wi Wr bi br
    (iblk0 V c 0 t) (iblk0 V c 1 t) (iblk0 V c 2 t) (iblk0 V c 3 t) (iblk0 V c 4 t) (iblk0 V c 5 t) (iblk0 V c 6 t)
    p j ⟨t.val * 256 + j.val, hq⟩
    (fun k => blk0_at V c t p k)
    (fun k => blk1_at V c t p k)
    (blk2_at V c t p j _ rfl)
    (fun k g => (blk3_at V c t k g j _ rfl).trans (hWi k g _))
    (fun k g => (blk4_at V c t k g j _ rfl).trans (hWr k g _))
    (fun g => (blk5_at V c t 0 g j _ rfl).trans (hbi g _))
    (fun g => (blk6_at V c t 0 g j _ rfl).trans (hbr g _))

/-! ## The four blocks tile the result -/

/-- An index of the result is in point t's block iff each coordinate is in the block's range on its axis. -/
theorem mem_blk (t : Fin cfg0.N) (i : S128x1024.Idx) :
    i ∈ ((cfg0.win 7).blk t).view.set ↔ ∀ a : Fin 2, win0_7.index t a * S128x256.size a ≤ (i a).val ∧ (i a).val < win0_7.index t a * S128x256.size a + S128x256.size a := by
  show i ∈ ((View.whole main_v12).slice (win0_7.rect t)).set ↔ _
  rw [View.set_slice_whole, Rect.mem_set_unit]
  exact Iff.rfl

/-- Hidden unit q is written back by point q / 256. -/
theorem cover (i : S128x1024.Idx) : ∃ t : Fin cfg0.N, (cfg0.win 7).flush t = true ∧ i ∈ ((cfg0.win 7).blk t).view.set := by
  have hi0 : (i 0).val < 128 := (i 0).isLt
  have hi1 : (i 1).val < 1024 := (i 1).isLt
  obtain ⟨t, ht⟩ := idx_onto ⟨(i 1).val / 256, by omega⟩
  have q0 : win0_7.index t (0 : Fin 2) = 0 := congrFun ht 0
  have q1 : win0_7.index t (1 : Fin 2) = (i 1).val / 256 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 256 ≤ (i 1).val ∧ (i 1).val < win0_7.index t (1 : Fin 2) * 256 + 256; omega

end Cert.KernelIdeal.Val.L0

namespace Cert.KernelIdeal.Val

open Cert.KernelIdeal Cert.KernelIdeal.Gen Cert.KernelIdeal.Fr Idealize.ShloMosaic Idealize.ShloMosaic.ValueIdx Idealize.ShloMosaic.TcCoe in
/-- The result array after layer 0's region is the step's array of the input, the previous state and the packed
    weights and biases. -/
theorem gru0_final (V : (c : Dev nD) → (b : Ref sig .tc) → Buf (Elt Ideal) ((c : Thread nD τ).loc b)) (c : Dev nD)
    (Wi : (⟨2, ![256, 3072]⟩ : Shape).Idx → EReal) (Wr : (⟨2, ![1024, 3072]⟩ : Shape).Idx → EReal) (bi br : (⟨1, ![3072]⟩ : Shape).Idx → EReal)
    (hWi : ∀ (k : Fin 256) (g : Fin 3) (q : Fin 1024), V c main_v8 (ix3 k g q) = Wi (ix2 k (Cert.Gru.gcol g q)))
    (hWr : ∀ (k : Fin 1024) (g : Fin 3) (q : Fin 1024), V c main_v9 (ix3 k g q) = Wr (ix2 k (Cert.Gru.gcol g q)))
    (hbi : ∀ (g : Fin 3) (q : Fin 1024), V c main_v10 (ix3 0 g q) = bi (ix1 (Cert.Gru.gcol g q)))
    (hbr : ∀ (g : Fin 3) (q : Fin 1024), V c main_v11 (ix3 0 g q) = br (ix1 (Cert.Gru.gcol g q))) :
    (dat0 (F := Ideal) V c).arrAt 7 cfg0.N = Cert.Gru.gru (V c main_v7) (V c main_arg1) Wi Wr bi br :=
  (dat0 (F := Ideal) V c).arrAt_eq_of_cover 7 (Cert.Gru.gru (V c main_v7) (V c main_arg1) Wi Wr bi br)
    (fun t _ => L0.flushed_eq V c Wi Wr bi br hWi hWr hbi hbr t) L0.cover

end Cert.KernelIdeal.Val

end
-- ==== Proof.PayGru1.lean ====
/-
  One strip of the gated recurrent step of layer 1, read at an index.

  The body cuts gate g out of a weight block [rows, 3, 256] along the gate axis, drops the unit axis left behind,
  and multiplies: at (p, j) that is the inner product of row p of the operand with the entries (k, g, j) of the
  block. A bias block [1, 3, 256] is cut the same way and its one row laid over the 128 rows. Everything after
  that is lane by lane: z = logistic (iz + rz), r = logistic (ir + rr), hh = tanh (ih + r * rh), and the result
  z * h + (1 - z) * hh. The change of format before each product is the identity on the extended reals.
-/
import proofs.«120770_j4544075399464_2_alg».proof.Proof.Gen.KernelIdeal.Skeleton
import proofs.«120770_j4544075399464_2_alg».proof.Proof.GruSpec
import proofs.«120770_j4544075399464_2_alg».proof.Proof.LibPlainMatmul
import Idealize.ShloMosaic.Lib.ValueLayout

noncomputable section

namespace Cert.KernelIdeal.Pay.L1

open Cert.KernelIdeal Cert.KernelIdeal.Gen Idealize.ShloMosaic Idealize.ShloMosaic.ValueIdx
open scoped BigOperators

/-! ## Layout: a gate cut out of a block -/

section Layout
variable {α : Type}

/-- An `[a, 1, b]` array viewed `[a, b]` reads, at `(i, j)`, the operand at `(i, 0, j)`: the two row-major positions
    are `(i * 1 + 0) * b + j` and `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The gate at offset `o` of the middle axis of a block `[a, n, b]`, cut out and viewed `[a, b]`, reads, at `(k, j)`,
    the block at `(k, g, j)`, `g` the coordinate `o`. -/
theorem gateSlice_apply {a n b : ℕ} (o : ℕ) (w : (⟨3, ![a, n, b]⟩ : Shape).Idx → α)
    (hs : (⟨3, ![a, n, b]⟩ : Shape).Slices ![0, o, 0] ⟨3, ![a, 1, b]⟩)
    (hc : (⟨3, ![a, 1, b]⟩ : Shape).ShapeCasts ⟨2, ![a, b]⟩) (g : Fin n) (hg : g.val = o) (k : Fin a) (j : Fin b) :
    shapeCast ⟨2, ![a, b]⟩ (extractStridedSlice ⟨3, ![a, 1, b]⟩ ![0, o, 0] w hs) hc (ix2 k j) = w (ix3 k g j) :=
  (shapeCast_a1b_ab_apply _ hc k j).trans
    (slice3_axis1_apply o w hs k (0 : Fin 1) j g (hg.trans (Nat.add_zero o).symm))

/-- The same gate of a one-row block `[1, n, b]`, cut out, viewed `[1, b]` and laid over `m` rows, reads, at `(p, j)`,
    the block at `(0, g, j)`. -/
theorem biasRow_apply {m n b : ℕ} (o : ℕ) (v : (⟨3, ![1, n, b]⟩ : Shape).Idx → α)
    (hs : (⟨3, ![1, n, b]⟩ : Shape).Slices ![0, o, 0] ⟨3, ![1, 1, b]⟩)
    (hc : (⟨3, ![1, 1, b]⟩ : Shape).ShapeCasts ⟨2, ![1, b]⟩) (hb : (⟨2, ![1, b]⟩ : Shape).Broadcasts ⟨2, ![m, b]⟩)
    (g : Fin n) (hg : g.val = o) (p : Fin m) (j : Fin b) :
    broadcastTo ⟨2, ![m, b]⟩ (shapeCast ⟨2, ![1, b]⟩ (extractStridedSlice ⟨3, ![1, 1, b]⟩ ![0, o, 0] v hs) hc) hb (ix2 p j)
      = v (ix3 (0 : Fin 1) g j) :=
  (broadcastTo_1b_ab_apply _ hb p j).trans (gateSlice_apply o v hs hc g hg (0 : Fin 1) j)

end Layout

/-! ## Lane by lane -/

/-- The logistic function of a vector, at an index. -/
theorem logistic_apply {s : Shape} {φ : FTy} (a : FVec Ideal s φ) (i : s.Idx) :
    Idealize.ShloMosaic.logistic a i = Ideal.logistic (a i) := rfl

/-- The hyperbolic tangent of a vector, at an index. -/
theorem tanh_apply {s : Shape} {φ : FTy} (a : FVec Ideal s φ) (i : s.Idx) :
    Idealize.ShloMosaic.tanh a i = Ideal.tanh (a i) := rfl

/-! ## The products -/

/-- Both sides' dimension numbers contract the left operand's 1024 columns against the right operand's rows. -/
theorem matmulR_at (a : FVec Ideal S128x1024 .bf16) (b : FVec Ideal S1024x256 .bf16) (p : Fin 128) (j : Fin 256) :
    matmul dot_S128x1024_S1024x256_S128x256_1_0_0_1_n_n none a b (constant S128x256 .f32 0x00000000#32) (ix2 p j)
      = ∑ k : Fin 1024, a (ix2 p k) * b (ix2 k j) :=
  Cert.LibPlainMatmul.matmul_zero_at dot_S128x1024_S1024x256_S128x256_1_0_0_1_n_n none rfl rfl
    (fun i q => by
      unfold DotDims.lhsIdx
      rw [dif_neg (show ¬(0 : Fin S128x1024.rank) ∈ dot_S128x1024_S1024x256_S128x256_1_0_0_1_n_n.lhsBatch by decide),
        dif_pos (show (0 : Fin S128x1024.rank) ∈ dot_S128x1024_S1024x256_S128x256_1_0_0_1_n_n.lhsNonContracting by decide)]
      rfl)
    (fun i q => dot_S128x1024_S1024x256_S128x256_1_0_0_1_n_n.lhsIdx_val_of_single rfl i q)
    (fun i q => dot_S128x1024_S1024x256_S128x256_1_0_0_1_n_n.rhsIdx_val_of_single rfl i q)
    (fun i q => by
      unfold DotDims.rhsIdx
      rw [dif_neg (show ¬(1 : Fin S1024x256.rank) ∈ dot_S128x1024_S1024x256_S128x256_1_0_0_1_n_n.rhsBatch by decide),
        dif_pos (show (1 : Fin S1024x256.rank) ∈ dot_S128x1024_S1024x256_S128x256_1_0_0_1_n_n.rhsNonContracting by decide)]
      rfl)
    a b p j

/-! ## A gate's pre-activation -/

/-- A product of `x` with the gate at offset `o` of a weight block is the sum over the block's rows (`hD`) of `x`'s
    row against the entries `(k, g, j)`. -/
theorem gateProd_at {K : ℕ} (D : DotDims ⟨2, ![128, K]⟩ ⟨2, ![K, 256]⟩ ⟨2, ![128, 256]⟩)
    (hD : ∀ (a : FVec Ideal ⟨2, ![128, K]⟩ .bf16) (b : FVec Ideal ⟨2, ![K, 256]⟩ .bf16) (p : Fin 128) (j : Fin 256),
      matmul D none a b (constant ⟨2, ![128, 256]⟩ .f32 0x00000000#32) (ix2 p j) = ∑ k : Fin K, a (ix2 p k) * b (ix2 k j))
    (o : ℕ) (x : FVec Ideal ⟨2, ![128, K]⟩ .bf16) (w : FVec Ideal ⟨3, ![K, 3, 256]⟩ .bf16)
    (hsw : (⟨3, ![K, 3, 256]⟩ : Shape).Slices ![0, o, 0] ⟨3, ![K, 1, 256]⟩)
    (hcw : (⟨3, ![K, 1, 256]⟩ : Shape).ShapeCasts ⟨2, ![K, 256]⟩)
    (g : Fin 3) (hg : g.val = o) (p : Fin 128) (j : Fin 256) :
    matmul D none x (shapeCast ⟨2, ![K, 256]⟩ (extractStridedSlice ⟨3, ![K, 1, 256]⟩ ![0, o, 0] w hsw) hcw)
        (constant ⟨2, ![128, 256]⟩ .f32 0x00000000#32) (ix2 p j)
      = ∑ k : Fin K, x (ix2 p k) * w (ix3 k g j) := by
  rw [hD]
  exact Finset.sum_congr rfl fun k _ => by rw [gateSlice_apply o w hsw hcw g hg k j]

/-- That product plus the same gate of a bias block is the gate's pre-activation. -/
theorem gate_at {K : ℕ} (D : DotDims ⟨2, ![128, K]⟩ ⟨2, ![K, 256]⟩ ⟨2, ![128, 256]⟩)
    (hD : ∀ (a : FVec Ideal ⟨2, ![128, K]⟩ .bf16) (b : FVec Ideal ⟨2, ![K, 256]⟩ .bf16) (p : Fin 128) (j : Fin 256),
      matmul D none a b (constant ⟨2, ![128, 256]⟩ .f32 0x00000000#32) (ix2 p j) = ∑ k : Fin K, a (ix2 p k) * b (ix2 k j))
    (o : ℕ) (x : FVec Ideal ⟨2, ![128, K]⟩ .bf16) (w : FVec Ideal ⟨3, ![K, 3, 256]⟩ .bf16) (b : FVec Ideal ⟨3, ![1, 3, 256]⟩ .f32)
    (hsw : (⟨3, ![K, 3, 256]⟩ : Shape).Slices ![0, o, 0] ⟨3, ![K, 1, 256]⟩)
    (hcw : (⟨3, ![K, 1, 256]⟩ : Shape).ShapeCasts ⟨2, ![K, 256]⟩)
    (hsb : (⟨3, ![1, 3, 256]⟩ : Shape).Slices ![0, o, 0] ⟨3, ![1, 1, 256]⟩)
    (hcb : (⟨3, ![1, 1, 256]⟩ : Shape).ShapeCasts ⟨2, ![1, 256]⟩)
    (hbb : (⟨2, ![1, 256]⟩ : Shape).Broadcasts ⟨2, ![128, 256]⟩)
    (g : Fin 3) (hg : g.val = o) (p : Fin 128) (j : Fin 256) :
    addf (matmul D none x (shapeCast ⟨2, ![K, 256]⟩ (extractStridedSlice ⟨3, ![K, 1, 256]⟩ ![0, o, 0] w hsw) hcw)
          (constant ⟨2, ![128, 256]⟩ .f32 0x00000000#32))
        (broadcastTo ⟨2, ![128, 256]⟩ (shapeCast ⟨2, ![1, 256]⟩ (extractStridedSlice ⟨3, ![1, 1, 256]⟩ ![0, o, 0] b hsb) hcb) hbb)
        (ix2 p j)
      = Cert.Gru.gateB x w b g p j := by
  rw [addf_apply, gateProd_at D hD o x w hsw hcw g hg p j, biasRow_apply o b hsb hcb hbb g hg p j]
  rfl

/-! ## The input side's three gates and the recurrent side's first product -/

theorem pay8_at (v0 : Vec Ideal S128x1024 .f32) (v5 : Vec Ideal S1024x3x256 .f32) (v11 : Vec Ideal S1x3x256 .f32) (p : Fin 128) (j : Fin 256) :
    k1_pay8 (F := Ideal) v0 v5 v11 (ix2 p j) = Cert.Gru.gateB v0 v5 v11 0 p j := by
  unfold k1_pay8 k1_pay2 k1_pay4 k1_pay6
  rw [shapeCast_self, shapeCast_self, shapeCast_self]
  exact gate_at dot_S128x1024_S1024x256_S128x256_1_0_0_1_n_n matmulR_at 0 _ _ _ _ _ _ _ _ 0 rfl p j

theorem pay9_at (v0 : Vec Ideal S128x1024 .f32) (v5 : Vec Ideal S1024x3x256 .f32) (v11 : Vec Ideal S1x3x256 .f32) (p : Fin 128) (j : Fin 256) :
    k1_pay9 (F := Ideal) v0 v5 v11 (ix2 p j) = Cert.Gru.gateB v0 v5 v11 1 p j := by
  unfold k1_pay9 k1_pay2 k1_pay4 k1_pay6
  rw [shapeCast_self, shapeCast_self, shapeCast_self]
  exact gate_at dot_S128x1024_S1024x256_S128x256_1_0_0_1_n_n matmulR_at 1 _ _ _ _ _ _ _ _ 1 rfl p j

theorem pay10_at (v0 : Vec Ideal S128x1024 .f32) (v5 : Vec Ideal S1024x3x256 .f32) (v11 : Vec Ideal S1x3x256 .f32) (p : Fin 128) (j : Fin 256) :
    k1_pay10 (F := Ideal) v0 v5 v11 (ix2 p j) = Cert.Gru.gateB v0 v5 v11 2 p j := by
  unfold k1_pay10 k1_pay2 k1_pay4 k1_pay6
  rw [shapeCast_self, shapeCast_self, shapeCast_self]
  exact gate_at dot_S128x1024_S1024x256_S128x256_1_0_0_1_n_n matmulR_at 2 _ _ _ _ _ _ _ _ 2 rfl p j

/-- The recurrent side's first product: the previous state's row against gate 0 of the recurrent weight block. -/
theorem pay11_at (v3 : Vec Ideal S128x1024 .f32) (v8 : Vec Ideal S1024x3x256 .f32) (p : Fin 128) (j : Fin 256) :
    k1_pay11 (F := Ideal) v3 v8 (ix2 p j) = ∑ k : Fin 1024, v3 (ix2 p k) * v8 (ix3 k (0 : Fin 3) j) := by
  unfold k1_pay11 k1_pay3 k1_pay5
  rw [shapeCast_self]
  exact gateProd_at dot_S128x1024_S1024x256_S128x256_1_0_0_1_n_n matmulR_at 0 _ _ _ _ 0 rfl p j

/-! ## The rest of the body, over the values the first part hands it -/

/-- The stored value at `(p, j)`: the recurrent side's bias joins its first product, its other two gates are whole
    pre-activations, and the three activations and the convex mix are lane by lane. -/
theorem pay1_at (v4 : FVec Ideal S128x1024 .bf16) (v10 : FVec Ideal S1024x3x256 .bf16) (v14 : FVec Ideal S1x3x256 .f32)
    (v21 v28 v35 v38 : FVec Ideal S128x256 .f32) (v64 : Vec Ideal S128x256 .f32) (p : Fin 128) (j : Fin 256) :
    k1_pay1 (F := Ideal) v4 v10 v14 v21 v28 v35 v38 v64 (ix2 p j)
      = Ideal.logistic (v21 (ix2 p j) + (v38 (ix2 p j) + v14 (ix3 (0 : Fin 1) (0 : Fin 3) j))) * v64 (ix2 p j)
        + (Cert.Gru.one - Ideal.logistic (v21 (ix2 p j) + (v38 (ix2 p j) + v14 (ix3 (0 : Fin 1) (0 : Fin 3) j))))
          * Ideal.tanh (v35 (ix2 p j)
              + Ideal.logistic (v28 (ix2 p j) + Cert.Gru.gateB v4 v10 v14 1 p j) * Cert.Gru.gateB v4 v10 v14 2 p j) := by
  unfold k1_pay1 Cert.Gru.gateB
  simp only [addf_apply, mulf_apply, subf_apply, logistic_apply, tanh_apply, broadcast_apply]
  rw [biasRow_apply 0 v14 _ _ _ (0 : Fin 3) rfl p j, biasRow_apply 1 v14 _ _ _ (1 : Fin 3) rfl p j,
    biasRow_apply 2 v14 _ _ _ (2 : Fin 3) rfl p j,
    gateProd_at dot_S128x1024_S1024x256_S128x256_1_0_0_1_n_n matmulR_at 1 v4 v10 _ _ (1 : Fin 3) rfl p j,
    gateProd_at dot_S128x1024_S1024x256_S128x256_1_0_0_1_n_n matmulR_at 2 v4 v10 _ _ (2 : Fin 3) rfl p j]
  rfl

end Cert.KernelIdeal.Pay.L1

namespace Cert.KernelIdeal.Pay

open Cert.KernelIdeal Cert.KernelIdeal.Gen Idealize.ShloMosaic Idealize.ShloMosaic.ValueIdx in
/-- The body of layer 1 at `(p, j)` of its strip is the step's formula there. -/
theorem body1_at (v0 : Vec Ideal S128x1024 .f32) (v3 : Vec Ideal S128x1024 .f32) (v64 : Vec Ideal S128x256 .f32)
    (v5 : Vec Ideal S1024x3x256 .f32) (v8 : Vec Ideal S1024x3x256 .f32) (v11 v13 : Vec Ideal S1x3x256 .f32) (p : Fin 128) (j : Fin 256) :
    k1_pay1 (F := Ideal) (k1_pay3 v3) (k1_pay5 v8) (k1_pay7 v13) (k1_pay8 v0 v5 v11) (k1_pay9 v0 v5 v11) (k1_pay10 v0 v5 v11) (k1_pay11 v3 v8) v64 (ix2 p j)
      = Cert.Gru.gruBlockAt v0 v3 v64 v5 v8 v11 v13 p j := by
  rw [L1.pay1_at, L1.pay8_at, L1.pay9_at, L1.pay10_at, L1.pay11_at]
  unfold Cert.Gru.gruBlockAt k1_pay3 k1_pay5 k1_pay7
  rw [shapeCast_self, shapeCast_self]
  rfl

end Cert.KernelIdeal.Pay

end
-- ==== Proof.ValueGru1.lean ====
/-
  Layer 1 from blocks to the whole array.

  Grid point t leaves in the result's block (0, t) the step's formula on the seven blocks it is handed. Those blocks
  are the layer's whole input and whole previous state, and the strip of 256 hidden units starting at unit 256 * t
  of the previous state, of the two weight tensors and of the two biases; a weight tensor [rows, 3, 1024] holds
  gate g of unit q where the packed matrix [rows, 3072] holds column g * 1024 + q. So what point t writes back at
  (p, j) is the whole-array formula at (p, 256 * t + j), and the four blocks tile the result.
-/
import proofs.«120770_j4544075399464_2_alg».proof.Proof.FrameGru1
import proofs.«120770_j4544075399464_2_alg».proof.Proof.PayGru1
import proofs.«120770_j4544075399464_2_alg».proof.Proof.GruSpec
import Idealize.ShloMosaic.Lib.Pipeline.Value
import Idealize.ShloMosaic.Lib.ValueIdx

noncomputable section

namespace Cert.KernelIdeal.Val.L1

open Cert.KernelIdeal Cert.KernelIdeal.Gen Cert.KernelIdeal.Fr Idealize.ShloMosaic Idealize.ShloMosaic.ValueIdx Idealize.ShloMosaic.TcCoe Idealize.SL.Sem
open Idealize.ShloMosaic.Pipeline (Dat)
open scoped BigOperators

/-! ## The strip's formula is the array's formula at the strip's place -/

/-- If row p of the input and state blocks is row p of the arrays, and unit j of each strip block is unit q of its
    array (gate g of unit q being column g * 1024 + q of the packed matrix), the strip's step at (p, j) is the
    array's step at (p, q). -/
theorem gruBlockAt_eq_gruAt {K : ℕ} (x : (⟨2, ![128, K]⟩ : Shape).Idx → EReal) (h : (⟨2, ![128, 1024]⟩ : Shape).Idx → EReal)
    (Wi : (⟨2, ![K, 3072]⟩ : Shape).Idx → EReal) (Wr : (⟨2, ![1024, 3072]⟩ : Shape).Idx → EReal)
    (bi br : (⟨1, ![3072]⟩ : Shape).Idx → EReal)
    (xB : (⟨2, ![128, K]⟩ : Shape).Idx → EReal) (hfB : (⟨2, ![128, 1024]⟩ : Shape).Idx → EReal)
    (htB : (⟨2, ![128, 256]⟩ : Shape).Idx → EReal)
    (WiB : (⟨3, ![K, 3, 256]⟩ : Shape).Idx → EReal) (WrB : (⟨3, ![1024, 3, 256]⟩ : Shape).Idx → EReal)
    (biB brB : (⟨3, ![1, 3, 256]⟩ : Shape).Idx → EReal)
    (p : Fin 128) (j : Fin 256) (q : Fin 1024)
    (hx : ∀ k : Fin K, xB (ix2 p k) = x (ix2 p k))
    (hhf : ∀ k : Fin 1024, hfB (ix2 p k) = h (ix2 p k))
    (hht : htB (ix2 p j) = h (ix2 p q))
    (hWi : ∀ (k : Fin K) (g : Fin 3), WiB (ix3 k g j) = Wi (ix2 k (Cert.Gru.gcol g q)))
    (hWr : ∀ (k : Fin 1024) (g : Fin 3), WrB (ix3 k g j) = Wr (ix2 k (Cert.Gru.gcol g q)))
    (hbi : ∀ g : Fin 3, biB (ix3 (0 : Fin 1) g j) = bi (ix1 (Cert.Gru.gcol g q)))
    (hbr : ∀ g : Fin 3, brB (ix3 (0 : Fin 1) g j) = br (ix1 (Cert.Gru.gcol g q))) :
    Cert.Gru.gruBlockAt xB hfB htB WiB WrB biB brB p j = Cert.Gru.gruAt x h Wi Wr bi br p q := by
  unfold Cert.Gru.gruBlockAt Cert.Gru.gruAt Cert.Gru.gateB Cert.Gru.gate
  simp only [hx, hhf, hht, hWi, hWr, hbi, hbr]

/-! ## Where each window's block lies, at every grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the four grid points: the input and the whole state stay at block (0, 0);
    every strip window and the result are at block t along the hidden axis. -/
theorem idx0 : ∀ t : Fin cfg1.N, win1_0.index t (0 : Fin 2) = 0 ∧ win1_0.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = t.val :=
  (by decide +kernel : ∀ t : Fin grid1.N, _)
theorem idx3 : ∀ t : Fin cfg1.N, win1_3.index t (0 : Fin 3) = 0 ∧ win1_3.index t (1 : Fin 3) = 0 ∧ win1_3.index t (2 : Fin 3) = t.val :=
  (by decide +kernel : ∀ t : Fin grid1.N, _)
theorem idx4 : ∀ t : Fin cfg1.N, win1_4.index t (0 : Fin 3) = 0 ∧ win1_4.index t (1 : Fin 3) = 0 ∧ win1_4.index t (2 : Fin 3) = t.val :=
  (by decide +kernel : ∀ t : Fin grid1.N, _)
theorem idx5 : ∀ t : Fin cfg1.N, win1_5.index t (0 : Fin 3) = 0 ∧ win1_5.index t (1 : Fin 3) = 0 ∧ win1_5.index t (2 : Fin 3) = t.val :=
  (by decide +kernel : ∀ t : Fin grid1.N, _)
theorem idx6 : ∀ t : Fin cfg1.N, win1_6.index t (0 : Fin 3) = 0 ∧ win1_6.index t (1 : Fin 3) = 0 ∧ win1_6.index t (2 : Fin 3) = t.val :=
  (by decide +kernel : ∀ t : Fin grid1.N, _)
theorem idx7 : ∀ t : Fin cfg1.N, t.val < 4 ∧ win1_7.index t (0 : Fin 2) = 0 ∧ win1_7.index t (1 : Fin 2) = t.val :=
  (by decide +kernel : ∀ t : Fin grid1.N, _)

/-- Every block of the result is some point's. -/
theorem idx_onto : ∀ q1 : Fin 4, ∃ t : Fin cfg1.N, win1_7.index t = ![0, q1.val] :=
  (by decide +kernel : ∀ q1 : Fin 4, ∃ t : Fin grid1.N, win1_7.index t = ![0, q1.val])

/-! ## Each input block read off its array: a block's coordinate is index * size + the coordinate inside -/

/-- The input's block is the input. -/
theorem blk0_at (V : (c : Dev nD) → (b : Ref sig .tc) → Buf (Elt Ideal) ((c : Thread nD τ).loc b)) (c : Dev nD) (t : Fin cfg1.N) (p : Fin 128) (k : Fin 1024) :
    (iblk1 (F := Ideal) V c 0 t : Vec Ideal S128x1024 .f32) (ix2 p k) = (V c main_v12 : S128x1024.Idx → EReal) (ix2 p k) := by
  obtain ⟨e0, e1⟩ := idx0 t
  show (V c main_v12 : S128x1024.Idx → EReal) (((cfg1.win 0).blk t).view.emb (ix2 p k)) = _
  refine congrArg (V c main_v12 : S128x1024.Idx → EReal) (funext fun a => Fin.ext ?_)
  match a with
  | ⟨0, _⟩ => show win1_0.index t (0 : Fin 2) * 128 + 1 * p.val = p.val; omega
  | ⟨1, _⟩ => show win1_0.index t (1 : Fin 2) * 1024 + 1 * k.val = k.val; omega

/-- The whole state's block is the state. -/
theorem blk1_at (V : (c : Dev nD) → (b : Ref sig .tc) → Buf (Elt Ideal) ((c : Thread nD τ).loc b)) (c : Dev nD) (t : Fin cfg1.N) (p : Fin 128) (k : Fin 1024) :
    (iblk1 (F := Ideal) V c 1 t : Vec Ideal S128x1024 .f32) (ix2 p k) = (V c main_arg2 : S128x1024.Idx → EReal) (ix2 p k) := by
  obtain ⟨e0, e1⟩ := idx1 t
  show (V c main_arg2 : S128x1024.Idx → EReal) (((cfg1.win 1).blk t).view.emb (ix2 p k)) = _
  refine congrArg (V c main_arg2 : S128x1024.Idx → EReal) (funext fun a => Fin.ext ?_)
  match a with
  | ⟨0, _⟩ => show win1_1.index t (0 : Fin 2) * 128 + 1 * p.val = p.val; omega
  | ⟨1, _⟩ => show win1_1.index t (1 : Fin 2) * 1024 + 1 * k.val = k.val; omega

/-- The state's strip at point t: unit j of the block is unit 256 * t + j of the state. -/
theorem blk2_at (V : (c : Dev nD) → (b : Ref sig .tc) → Buf (Elt Ideal) ((c : Thread nD τ).loc b)) (c : Dev nD) (t : Fin cfg1.N) (p : Fin 128) (j : Fin 256) (q : Fin 1024)
    (hq : q.val = t.val * 256 + j.val) :
    (iblk1 (F := Ideal) V c 2 t : Vec Ideal S128x256 .f32) (ix2 p j) = (V c main_arg2 : S128x1024.Idx → EReal) (ix2 p q) := by
  obtain ⟨e0, e1⟩ := idx2 t
  show (V c main_arg2 : S128x1024.Idx → EReal) (((cfg1.win 2).blk t).view.emb (ix2 p j)) = _
  refine congrArg (V c main_arg2 : S128x1024.Idx → EReal) (funext fun a => Fin.ext ?_)
  match a with
  | ⟨0, _⟩ => show win1_2.index t (0 : Fin 2) * 128 + 1 * p.val = p.val; omega
  | ⟨1, _⟩ => show win1_2.index t (1 : Fin 2) * 256 + 1 * j.val = q.val; omega

/-- The input weights' strip. -/
theorem blk3_at (V : (c : Dev nD) → (b : Ref sig .tc) → Buf (Elt Ideal) ((c : Thread nD τ).loc b)) (c : Dev nD) (t : Fin cfg1.N) (k : Fin 1024) (g : Fin 3) (j : Fin 256) (q : Fin 1024)
    (hq : q.val = t.val * 256 + j.val) :
    (iblk1 (F := Ideal) V c 3 t : Vec Ideal S1024x3x256 .f32) (ix3 k g j) = (V c main_v13 : S1024x3x1024.Idx → EReal) (ix3 k g q) := by
  obtain ⟨e0, e1, e2⟩ := idx3 t
  show (V c main_v13 : S1024x3x1024.Idx → EReal) (((cfg1.win 3).blk t).view.emb (ix3 k g j)) = _
  refine congrArg (V c main_v13 : S1024x3x1024.Idx → EReal) (funext fun a => Fin.ext ?_)
  match a with
  | ⟨0, _⟩ => show win1_3.index t (0 : Fin 3) * 1024 + 1 * k.val = k.val; omega
  | ⟨1, _⟩ => show win1_3.index t (1 : Fin 3) * 3 + 1 * g.val = g.val; omega
  | ⟨2, _⟩ => show win1_3.index t (2 : Fin 3) * 256 + 1 * j.val = q.val; omega

/-- The recurrent weights' strip. -/
theorem blk4_at (V : (c : Dev nD) → (b : Ref sig .tc) → Buf (Elt Ideal) ((c : Thread nD τ).loc b)) (c : Dev nD) (t : Fin cfg1.N) (k : Fin 1024) (g : Fin 3) (j : Fin 256) (q : Fin 1024)
    (hq : q.val = t.val * 256 + j.val) :
    (iblk1 (F := Ideal) V c 4 t : Vec Ideal S1024x3x256 .f32) (ix3 k g j) = (V c main_v14 : S1024x3x1024.Idx → EReal) (ix3 k g q) := by
  obtain ⟨e0, e1, e2⟩ := idx4 t
  show (V c main_v14 : S1024x3x1024.Idx → EReal) (((cfg1.win 4).blk t).view.emb (ix3 k g j)) = _
  refine congrArg (V c main_v14 : S1024x3x1024.Idx → EReal) (funext fun a => Fin.ext ?_)
  match a with
  | ⟨0, _⟩ => show win1_4.index t (0 : Fin 3) * 1024 + 1 * k.val = k.val; omega
  | ⟨1, _⟩ => show win1_4.index t (1 : Fin 3) * 3 + 1 * g.val = g.val; omega
  | ⟨2, _⟩ => show win1_4.index t (2 : Fin 3) * 256 + 1 * j.val = q.val; omega

/-- The input bias's strip. -/
theorem blk5_at (V : (c : Dev nD) → (b : Ref sig .tc) → Buf (Elt Ideal) ((c : Thread nD τ).loc b)) (c : Dev nD) (t : Fin cfg1.N) (k : Fin 1) (g : Fin 3) (j : Fin 256) (q : Fin 1024)
    (hq : q.val = t.val * 256 + j.val) :
    (iblk1 (F := Ideal) V c 5 t : Vec Ideal S1x3x256 .f32) (ix3 k g j) = (V c main_v15 : S1x3x1024.Idx → EReal) (ix3 k g q) := by
  obtain ⟨e0, e1, e2⟩ := idx5 t
  show (V c main_v15 : S1x3x1024.Idx → EReal) (((cfg1.win 5).blk t).view.emb (ix3 k g j)) = _
  refine congrArg (V c main_v15 : S1x3x1024.Idx → EReal) (funext fun a => Fin.ext ?_)
  match a with
  | ⟨0, _⟩ => show win1_5.index t (0 : Fin 3) * 1 + 1 * k.val = k.val; omega
  | ⟨1, _⟩ => show win1_5.index t (1 : Fin 3) * 3 + 1 * g.val = g.val; omega
  | ⟨2, _⟩ => show win1_5.index t (2 : Fin 3) * 256 + 1 * j.val = q.val; omega

/-- The recurrent bias's strip. -/
theorem blk6_at (V : (c : Dev nD) → (b : Ref sig .tc) → Buf (Elt Ideal) ((c : Thread nD τ).loc b)) (c : Dev nD) (t : Fin cfg1.N) (k : Fin 1) (g : Fin 3) (j : Fin 256) (q : Fin 1024)
    (hq : q.val = t.val * 256 + j.val) :
    (iblk1 (F := Ideal) V c 6 t : Vec Ideal S1x3x256 .f32) (ix3 k g j) = (V c main_v16 : S1x3x1024.Idx → EReal) (ix3 k g q) := by
  obtain ⟨e0, e1, e2⟩ := idx6 t
  show (V c main_v16 : S1x3x1024.Idx → EReal) (((cfg1.win 6).blk t).view.emb (ix3 k g j)) = _
  refine congrArg (V c main_v16 : S1x3x1024.Idx → EReal) (funext fun a => Fin.ext ?_)
  match a with
  | ⟨0, _⟩ => show win1_6.index t (0 : Fin 3) * 1 + 1 * k.val = k.val; omega
  | ⟨1, _⟩ => show win1_6.index t (1 : Fin 3) * 3 + 1 * g.val = g.val; omega
  | ⟨2, _⟩ => show win1_6.index t (2 : Fin 3) * 256 + 1 * j.val = q.val; omega

/-! ## What a point writes back -/

/-- Point t writes back block t of the step's array: the body's store at (p, j) is the strip's formula on the
    seven blocks, which is the array's formula at (p, 256 * t + j), the place of (p, j) under the result's block. -/
theorem flushed_eq (V : (c : Dev nD) → (b : Ref sig .tc) → Buf (Elt Ideal) ((c : Thread nD τ).loc b)) (c : Dev nD)
    (Wi : (⟨2, ![1024, 3072]⟩ : Shape).Idx → EReal) (Wr : (⟨2, ![1024, 3072]⟩ : Shape).Idx → EReal) (bi br : (⟨1, ![3072]⟩ : Shape).Idx → EReal)
    (hWi : ∀ (k : Fin 1024) (g : Fin 3) (q : Fin 1024), V c main_v13 (ix3 k g q) = Wi (ix2 k (Cert.Gru.gcol g q)))
    (hWr : ∀ (k : Fin 1024) (g : Fin 3) (q : Fin 1024), V c main_v14 (ix3 k g q) = Wr (ix2 k (Cert.Gru.gcol g q)))
    (hbi : ∀ (g : Fin 3) (q : Fin 1024), V c main_v15 (ix3 0 g q) = bi (ix1 (Cert.Gru.gcol g q)))
    (hbr : ∀ (g : Fin 3) (q : Fin 1024), V c main_v16 (ix3 0 g q) = br (ix1 (Cert.Gru.gcol g q)))
    (t : Fin cfg1.N) :
    (dat1 (F := Ideal) V c).flushed 7 t
      = ((cfg1.win 7).blk t).view.read (Elt Ideal) (Cert.Gru.gru (V c main_v12) (V c main_arg2) Wi Wr bi br) := by
  show (cfg1.win 7).cut (cfg1.grid.coords t) ((dat1 (F := Ideal) V c).after 7 t) = _
  rw [after1_7]
  unfold out1_7
  rw [View.canon_unit_zero hz2]
  simp only [View.ld_unit_zero (S := S128x256) hz2, View.ld_unit_zero (S := S128x1024) hz2,
    View.ld_unit_zero (S := S1024x3x256) hz3, View.ld_unit_zero (S := S1x3x256) hz3]
  funext y
  obtain ⟨p, j, rfl⟩ : ∃ (p : Fin 128) (j : Fin 256), y = ix2 p j := ⟨y 0, y 1, eq_ix2 y⟩
  obtain ⟨ht4, e0, e1⟩ := idx7 t
  have hq : t.val * 256 + j.val < 1024 := by have := j.isLt; omega
  have hemb : ((cfg1.win 7).blk t).view.emb (ix2 p j) = (ix2 p ⟨t.val * 256 + j.val, hq⟩ : S128x1024.Idx) := by
    funext a; apply Fin.ext
    match a with
    | ⟨0, _⟩ => show win1_7.index t (0 : Fin 2) * 128 + 1 * p.val = p.val; omega
    | ⟨1, _⟩ => show win1_7.index t (1 : Fin 2) * 256 + 1 * j.val = t.val * 256 + j.val; omega
  show k1_pay1 (F := Ideal) (k1_pay3 (iblk1 V c 1 t)) (k1_pay5 (iblk1 V c 4 t)) (k1_pay7 (iblk1 V c 6 t))
        (k1_pay8 (iblk1 V c 0 t) (iblk1 V c 3 t) (iblk1 V c 5 t)) (k1_pay9 (iblk1 V c 0 t) (iblk1 V c 3 t) (iblk1 V c 5 t))
        (k1_pay10 (iblk1 V c 0 t) (iblk1 V c 3 t) (iblk1 V c 5 t)) (k1_pay11 (iblk1 V c 1 t) (iblk1 V c 4 t)) (iblk1 V c 2 t) (ix2 p j)
      = Cert.Gru.gru (V c main_v12) (V c main_arg2) Wi Wr bi br (((cfg1.win 7).blk t).view.emb (ix2 p j))
  refine (Cert.KernelIdeal.Pay.body1_at (iblk1 V c 0 t) (iblk1 V c 1 t) (iblk1 V c 2 t) (iblk1 V c 3 t) (iblk1 V c 4 t)
    (iblk1 V c 5 t) (iblk1 V c 6 t) p j).trans ?_
  refine Eq.trans ?_ (congrArg (Cert.Gru.gru (V c main_v12) (V c main_arg2) Wi Wr bi br) hemb.symm)
  exact gruBlockAt_eq_gruAt (K := 1024) (V c main_v12) (V c main_arg2) Wi Wr bi br
    (iblk1 V c 0 t) (iblk1 V c 1 t) (iblk1 V c 2 t) (iblk1 V c 3 t) (iblk1 V c 4 t) (iblk1 V c 5 t) (iblk1 V c 6 t)
    p j ⟨t.val * 256 + j.val, hq⟩
    (fun k => blk0_at V c t p k)
    (fun k => blk1_at V c t p k)
    (blk2_at V c t p j _ rfl)
    (fun k g => (blk3_at V c t k g j _ rfl).trans (hWi k g _))
    (fun k g => (blk4_at V c t k g j _ rfl).trans (hWr k g _))
    (fun g => (blk5_at V c t 0 g j _ rfl).trans (hbi g _))
    (fun g => (blk6_at V c t 0 g j _ rfl).trans (hbr g _))

/-! ## The four blocks tile the result -/

/-- An index of the result is in point t's block iff each coordinate is in the block's range on its axis. -/
theorem mem_blk (t : Fin cfg1.N) (i : S128x1024.Idx) :
    i ∈ ((cfg1.win 7).blk t).view.set ↔ ∀ a : Fin 2, win1_7.index t a * S128x256.size a ≤ (i a).val ∧ (i a).val < win1_7.index t a * S128x256.size a + S128x256.size a := by
  show i ∈ ((View.whole main_v17).slice (win1_7.rect t)).set ↔ _
  rw [View.set_slice_whole, Rect.mem_set_unit]
  exact Iff.rfl

/-- Hidden unit q is written back by point q / 256. -/
theorem cover (i : S128x1024.Idx) : ∃ t : Fin cfg1.N, (cfg1.win 7).flush t = true ∧ i ∈ ((cfg1.win 7).blk t).view.set := by
  have hi0 : (i 0).val < 128 := (i 0).isLt
  have hi1 : (i 1).val < 1024 := (i 1).isLt
  obtain ⟨t, ht⟩ := idx_onto ⟨(i 1).val / 256, by omega⟩
  have q0 : win1_7.index t (0 : Fin 2) = 0 := congrFun ht 0
  have q1 : win1_7.index t (1 : Fin 2) = (i 1).val / 256 := congrFun ht 1
  refine ⟨t, flush1_7 t, ?_⟩
  rw [mem_blk]
  intro a
  match a with
  | ⟨0, _⟩ => show win1_7.index t (0 : Fin 2) * 128 ≤ (i 0).val ∧ (i 0).val < win1_7.index t (0 : Fin 2) * 128 + 128; omega
  | ⟨1, _⟩ => show win1_7.index t (1 : Fin 2) * 256 ≤ (i 1).val ∧ (i 1).val < win1_7.index t (1 : Fin 2) * 256 + 256; omega

end Cert.KernelIdeal.Val.L1

namespace Cert.KernelIdeal.Val

open Cert.KernelIdeal Cert.KernelIdeal.Gen Cert.KernelIdeal.Fr Idealize.ShloMosaic Idealize.ShloMosaic.ValueIdx Idealize.ShloMosaic.TcCoe in
/-- The result array after layer 1's region is the step's array of the input, the previous state and the packed
    weights and biases. -/
theorem gru1_final (V : (c : Dev nD) → (b : Ref sig .tc) → Buf (Elt Ideal) ((c : Thread nD τ).loc b)) (c : Dev nD)
    (Wi : (⟨2, ![1024, 3072]⟩ : Shape).Idx → EReal) (Wr : (⟨2, ![1024, 3072]⟩ : Shape).Idx → EReal) (bi br : (⟨1, ![3072]⟩ : Shape).Idx → EReal)
    (hWi : ∀ (k : Fin 1024) (g : Fin 3) (q : Fin 1024), V c main_v13 (ix3 k g q) = Wi (ix2 k (Cert.Gru.gcol g q)))
    (hWr : ∀ (k : Fin 1024) (g : Fin 3) (q : Fin 1024), V c main_v14 (ix3 k g q) = Wr (ix2 k (Cert.Gru.gcol g q)))
    (hbi : ∀ (g : Fin 3) (q : Fin 1024), V c main_v15 (ix3 0 g q) = bi (ix1 (Cert.Gru.gcol g q)))
    (hbr : ∀ (g : Fin 3) (q : Fin 1024), V c main_v16 (ix3 0 g q) = br (ix1 (Cert.Gru.gcol g q))) :
    (dat1 (F := Ideal) V c).arrAt 7 cfg1.N = Cert.Gru.gru (V c main_v12) (V c main_arg2) Wi Wr bi br :=
  (dat1 (F := Ideal) V c).arrAt_eq_of_cover 7 (Cert.Gru.gru (V c main_v12) (V c main_arg2) Wi Wr bi br)
    (fun t _ => L1.flushed_eq V c Wi Wr bi br hWi hWr hbi hbr t) L1.cover

end Cert.KernelIdeal.Val

end
-- ==== Proof.HostReads.lean ====
/-
  The packed weights and biases, re-laid for the kernels, read at an index.

  Before each region the program reshapes a weight matrix of 3 * 1024 columns into three gates of 1024 columns, a bias
  of 3 * 1024 entries into one row of three gates, and the head's bias into one row. A reshape keeps the row-major
  order of the entries: entry (k, g, q) of [K, 3, 1024] sits at position (k * 3 + g) * 1024 + q, which is position
  k * 3072 + (g * 1024 + q), entry (k, g * 1024 + q) of [K, 3072]; entry (0, g, q) of [1, 3, 1024] sits at
  g * 1024 + q; entry (0, v) of [1, 32000] sits at v. Nothing here mentions a program state: the operand is a variable,
  and so is the proof that the two shapes hold the same number of entries.
-/
import proofs.«120770_j4544075399464_2_alg».proof.KernelIdeal
import proofs.«120770_j4544075399464_2_alg».proof.Proof.GruSpec
import Idealize.ShloMosaic.Lib.Pipeline.Value
import Idealize.ShloMosaic.Lib.ValueIdx

noncomputable section

namespace Cert.KernelIdeal.HostReads

open Cert.KernelIdeal Idealize.ShloMosaic Idealize.ShloMosaic.ValueIdx Cert.Gru

variable {α : Type}

/-- A weight matrix of K rows: gate g, unit q of row k is column g * 1024 + q of row k. -/
theorem unpackW_at {K : ℕ} {h : (⟨2, ![K, 3072]⟩ : Shape).ShapeCasts ⟨3, ![K, 3, 1024]⟩}
    (x : (⟨2, ![K, 3072]⟩ : Shape).Idx → α) (k : Fin K) (g : Fin 3) (q : Fin 1024) :
    shapeCast ⟨3, ![K, 3, 1024]⟩ x h (ix3 k g q) = x (ix2 k (gcol g q)) := by
  refine shapeCast_apply x h (ix3 k g q) (ix2 k (gcol g q)) ?_
  rw [Shape.rowMajor_val_two, Shape.rowMajor_val_three]
  show k.val * 3072 + (g.val * 1024 + q.val) = (k.val * 3 + g.val) * 1024 + q.val
  omega

/-- Layer 0's input weights, 256 rows. -/
theorem unpack256_at {h : S256x3072.ShapeCasts S256x3x1024} (x : S256x3072.Idx → α) (k : Fin 256) (g : Fin 3) (q : Fin 1024) :
    shapeCast S256x3x1024 x h (ix3 k g q) = x (ix2 k (gcol g q)) :=
  unpackW_at (h := h) x k g q

/-- The weights of 1024 rows: both layers' recurrent weights and layer 1's input weights. -/
theorem unpack1024_at {h : S1024x3072.ShapeCasts S1024x3x1024} (x : S1024x3072.Idx → α) (k : Fin 1024) (g : Fin 3) (q : Fin 1024) :
    shapeCast S1024x3x1024 x h (ix3 k g q) = x (ix2 k (gcol g q)) :=
  unpackW_at (h := h) x k g q

/-- A bias: gate g, unit q of its one row is entry g * 1024 + q. -/
theorem unpackB_at {h : S3072.ShapeCasts S1x3x1024} (b : S3072.Idx → α) (g : Fin 3) (q : Fin 1024) :
    shapeCast S1x3x1024 b h (ix3 0 g q) = b (ix1 (gcol g q)) := by
  refine shapeCast_apply b h (ix3 0 g q) (ix1 (gcol g q)) ?_
  rw [Shape.rowMajor_val_one, Shape.rowMajor_val_three]
  show g.val * 1024 + q.val = (0 * 3 + g.val) * 1024 + q.val
  omega

/-- The head's bias as one row: column v of the row is entry v. -/
theorem rowB_at {h : S32000.ShapeCasts S1x32000} (b : S32000.Idx → α) (v : Fin 32000) :
    shapeCast S1x32000 b h (ix2 0 v) = b (ix1 v) := by
  refine shapeCast_apply b h (ix2 0 v) (ix1 v) ?_
  rw [Shape.rowMajor_val_one, Shape.rowMajor_val_two]
  show v.val = 0 * 32000 + v.val
  omega

end Cert.KernelIdeal.HostReads

end
-- ==== Proof.ValueRun.lean ====
/-
  What the kernel program computes, read off its run.

  After the run every unscoped buffer sits at the last valuation of the chain. Walking that valuation back: the
  logits are what the head's region leaves, the two new states what the two recurrent regions leave, and no later
  item touches them. What a region leaves is the specification's function of the arrays the region finds: the first
  layer finds the embedded tokens, the previous state, and the packed weights and biases regrouped by gate; the
  second finds the first layer's result in place of the tokens; the head finds the second layer's result, its weight
  matrix, and its bias as a row. Regrouping a packed axis of 3 * 1024 columns into 3 gates of 1024 moves entry
  g * 1024 + q to (g, q), which is how the specification reads a gate's column. The embedded tokens are the same ten
  host operations in both programs, so they are carried as one array and never opened.
-/
import proofs.«120770_j4544075399464_2_alg».proof.Proof.FrameRun
import proofs.«120770_j4544075399464_2_alg».proof.Proof.ValueHead
import proofs.«120770_j4544075399464_2_alg».proof.Proof.ValueGru0
import proofs.«120770_j4544075399464_2_alg».proof.Proof.ValueGru1
import proofs.«120770_j4544075399464_2_alg».proof.Proof.HostReads
import proofs.«120770_j4544075399464_2_alg».proof.Proof.Gen.ReferenceIdeal.Read
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Fr

variable (m : (ℓ : Loc nD τ sig) → Buf (Elt Ideal) ℓ)

/-! ## The results as functions of the arguments -/

/-- The embedded tokens: the rows of the table the token array selects. -/
def emb (c : Dev nD) : (⟨2, ![128, 256]⟩ : Shape).Idx → EReal :=
  Cert.ReferenceIdeal.Read.val_main_v7 (F := Ideal) (m ((c.tc : Thread nD τ).loc main_arg0)) (m ((c.tc : Thread nD τ).loc main_arg3))
/-- The first layer's new state. -/
def h0n (c : Dev nD) : (⟨2, ![128, 1024]⟩ : Shape).Idx → EReal :=
  Cert.Gru.gru (emb m c) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
/-- The second layer's new state. -/
def h1n (c : Dev nD) : (⟨2, ![128, 1024]⟩ : Shape).Idx → EReal :=
  Cert.Gru.gru (h0n m c) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11))
/-- The logits. -/
def logits (c : Dev nD) : (⟨2, ![128, 32000]⟩ : Shape).Idx → EReal :=
  Cert.Gru.head (h1n m c) (m ((c.tc : Thread nD τ).loc main_arg12)) (m ((c.tc : Thread nD τ).loc main_arg13))

/-! ## What the first layer's region finds, and leaves -/

theorem s0_v7 (c : Dev nD) : tcV (V1 m) c main_v7 = emb m c := by
  show StableHlo.after hostOps0 (V0 m c) (Proc.devRef .tc main_v7) = _
  after_results
  rfl
theorem s0_arg1 (c : Dev nD) : tcV (V1 m) c main_arg1 = (m ((c.tc : Thread nD τ).loc main_arg1)) := V1_of m c main_arg1 (by decide)
theorem s0_v8 (c : Dev nD) : tcV (V1 m) c main_v8 = shapeCast S256x3x1024 (m ((c.tc : Thread nD τ).loc main_arg4)) shapeCasts_S256x3072_S256x3x1024 := by
  show StableHlo.after hostOps0 (V0 m c) (Proc.devRef .tc main_v8) = _
  after_results
  rfl
theorem s0_v9 (c : Dev nD) : tcV (V1 m) c main_v9 = shapeCast S1024x3x1024 (m ((c.tc : Thread nD τ).loc main_arg5)) shapeCasts_S1024x3072_S1024x3x1024 := by
  show StableHlo.after hostOps0 (V0 m c) (Proc.devRef .tc main_v9) = _
  after_results
  rfl
theorem s0_v10 (c : Dev nD) : tcV (V1 m) c main_v10 = shapeCast S1x3x1024 (m ((c.tc : Thread nD τ).loc main_arg6)) shapeCasts_S3072_S1x3x1024 := by
  show StableHlo.after hostOps0 (V0 m c) (Proc.devRef .tc main_v10) = _
  after_results
  rfl
theorem s0_v11 (c : Dev nD) : tcV (V1 m) c main_v11 = shapeCast S1x3x1024 (m ((c.tc : Thread nD τ).loc main_arg7)) shapeCasts_S3072_S1x3x1024 := by
  show StableHlo.after hostOps0 (V0 m c) (Proc.devRef .tc main_v11) = _
  after_results
  rfl

/-- The first layer's region leaves the specification's step of the embedded tokens and the first previous state. -/
theorem o0_eq (c : Dev nD) : o0 m c = h0n m c := by
  have h := gru0_final (tcV (V1 m)) c (m ((c.tc : Thread nD τ).loc main_arg4)) (m ((c.tc : Thread nD τ).loc main_arg5)) (m ((c.tc : Thread nD τ).loc main_arg6)) (m ((c.tc : Thread nD τ).loc main_arg7))
    (fun k g q => by rw [s0_v8]; exact HostReads.unpack256_at _ k g q)
    (fun k g q => by rw [s0_v9]; exact HostReads.unpack1024_at _ k g q)
    (fun g q => by rw [s0_v10]; exact HostReads.unpackB_at _ g q)
    (fun g q => by rw [s0_v11]; exact HostReads.unpackB_at _ g q)
  rw [s0_v7, s0_arg1] at h
  exact h

/-! ## What the second layer's region finds, and leaves -/

theorem s1_v12 (c : Dev nD) : tcV (V3 m (outsA m)) c main_v12 = o0 m c :=
  (V3_of m (outsA m) c main_v12 (by decide)).trans (by
    show V2 m (outsA m) c main_v12 = _
    unfold V2 outsA; rw [Function.update_self, Function.update_self])
theorem s1_in (c : Dev nD) (r : Ref sig .tc) (h2 : r ∉ ([main_v12] : List (Ref sig .tc))) (h1 : r ∉ hostOps0_W) :
    tcV (V2 m (outsA m)) c r = m ((c.tc : Thread nD τ).loc r) :=
  (V2_of m (outsA m) c r h2).trans (V1_of m c r h1)
theorem s1_arg2 (c : Dev nD) : tcV (V3 m (outsA m)) c main_arg2 = (m ((c.tc : Thread nD τ).loc main_arg2)) :=
  (V3_of m (outsA m) c main_arg2 (by decide)).trans (s1_in m c main_arg2 (by decide) (by decide))
theorem s1_v13 (c : Dev nD) : tcV (V3 m (outsA m)) c main_v13 = shapeCast S1024x3x1024 (m ((c.tc : Thread nD τ).loc main_arg8)) shapeCasts_S1024x3072_S1024x3x1024 := by
  rw [← s1_in m c main_arg8 (by decide) (by decide)]
  show StableHlo.after hostOps1 (V2 m (outsA m) c) (Proc.devRef .tc main_v13) = _
  after_results
  rfl
theorem s1_v14 (c : Dev nD) : tcV (V3 m (outsA m)) c main_v14 = shapeCast S1024x3x1024 (m ((c.tc : Thread nD τ).loc main_arg9)) shapeCasts_S1024x3072_S1024x3x1024 := by
  rw [← s1_in m c main_arg9 (by decide) (by decide)]
  show StableHlo.after hostOps1 (V2 m (outsA m) c) (Proc.devRef .tc main_v14) = _
  after_results
  rfl
theorem s1_v15 (c : Dev nD) : tcV (V3 m (outsA m)) c main_v15 = shapeCast S1x3x1024 (m ((c.tc : Thread nD τ).loc main_arg10)) shapeCasts_S3072_S1x3x1024 := by
  rw [← s1_in m c main_arg10 (by decide) (by decide)]
  show StableHlo.after hostOps1 (V2 m (outsA m) c) (Proc.devRef .tc main_v15) = _
  after_results
  rfl
theorem s1_v16 (c : Dev nD) : tcV (V3 m (outsA m)) c main_v16 = shapeCast S1x3x1024 (m ((c.tc : Thread nD τ).loc main_arg11)) shapeCasts_S3072_S1x3x1024 := by
  rw [← s1_in m c main_arg11 (by decide) (by decide)]
  show StableHlo.after hostOps1 (V2 m (outsA m) c) (Proc.devRef .tc main_v16) = _
  after_results
  rfl

/-- The second layer's region leaves the step of the first layer's result and the second previous state. -/
theorem o1_eq (c : Dev nD) : o1 m c = h1n m c := by
  have h := gru1_final (tcV (V3 m (outsA m))) c (m ((c.tc : Thread nD τ).loc main_arg8)) (m ((c.tc : Thread nD τ).loc main_arg9)) (m ((c.tc : Thread nD τ).loc main_arg10)) (m ((c.tc : Thread nD τ).loc main_arg11))
    (fun k g q => by rw [s1_v13]; exact HostReads.unpack1024_at _ k g q)
    (fun k g q => by rw [s1_v14]; exact HostReads.unpack1024_at _ k g q)
    (fun g q => by rw [s1_v15]; exact HostReads.unpackB_at _ g q)
    (fun g q => by rw [s1_v16]; exact HostReads.unpackB_at _ g q)
  rw [s1_v12, s1_arg2, o0_eq] at h
  exact h

/-! ## What the head's region finds, and leaves -/

theorem s2_v17 (c : Dev nD) : tcV (V5 m (outsB m)) c main_v17 = o1 m c :=
  (V5_of m (outsB m) c main_v17 (by decide)).trans (by
    show V4 m (outsB m) c main_v17 = _
    unfold V4 outsB; simp only [show ¬ (4 = 2) by decide, if_false, Function.update_self])
theorem s2_in (c : Dev nD) (r : Ref sig .tc) (h4 : r ∉ ([main_v17] : List (Ref sig .tc))) (h3 : r ∉ hostOps1_W)
    (h2 : r ∉ ([main_v12] : List (Ref sig .tc))) (h1 : r ∉ hostOps0_W) :
    tcV (V4 m (outsB m)) c r = m ((c.tc : Thread nD τ).loc r) :=
  (V4_of m (outsB m) c r h4).trans ((V3_of m (outsB m) c r h3).trans ((V2_of m (outsB m) c r h2).trans (V1_of m c r h1)))
theorem s2_arg12 (c : Dev nD) : tcV (V5 m (outsB m)) c main_arg12 = (m ((c.tc : Thread nD τ).loc main_arg12)) :=
  (V5_of m (outsB m) c main_arg12 (by decide)).trans (s2_in m c main_arg12 (by decide) (by decide) (by decide) (by decide))
theorem s2_v18 (c : Dev nD) : tcV (V5 m (outsB m)) c main_v18 = shapeCast S1x32000 (m ((c.tc : Thread nD τ).loc main_arg13)) shapeCasts_S32000_S1x32000 := by
  rw [← s2_in m c main_arg13 (by decide) (by decide) (by decide) (by decide)]
  show StableHlo.after hostOps2 (V4 m (outsB m) c) (Proc.devRef .tc main_v18) = _
  after_results
  rfl

/-- The head's region leaves the specification's head of the second layer's result. -/
theorem o2_eq (c : Dev nD) : o2 m c = logits m c := by
  have h := head_final (tcV (V5 m (outsB m))) c (m ((c.tc : Thread nD τ).loc main_arg13))
    (fun v => by rw [s2_v18]; exact HostReads.rowB_at _ v)
  rw [s2_v17, s2_arg12, o1_eq] at h
  exact h

/-! ## The run with its results named -/

/-- Every execution of the idealized kernel program ends with the logits, the first and the second new state at the
    specification's functions of the arguments, and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = logits m c
      ∧ r.2.mem ((c.tc : Thread nD τ).loc main_v12) = h0n m c
      ∧ r.2.mem ((c.tc : Thread nD τ).loc main_v17) = h1n m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c =>
    ⟨((h c (Proc.devRef .tc main_v19) (Finset.mem_filter.mpr ⟨StableHlo.devRef_mem_tcRefs main_v19, by decide⟩)).trans (V6_out m c)).trans (o2_eq m c),
     ((h c (Proc.devRef .tc main_v12) (Finset.mem_filter.mpr ⟨StableHlo.devRef_mem_tcRefs main_v12, by decide⟩)).trans
        ((V6_of m (outs m) c main_v12 (by decide)).trans ((V5_of m (outs m) c main_v12 (by decide)).trans
          ((V4_of m (outs m) c main_v12 (by decide)).trans ((V3_of m (outs m) c main_v12 (by decide)).trans (V2_out m c)))))).trans (o0_eq m c),
     ((h c (Proc.devRef .tc main_v17) (Finset.mem_filter.mpr ⟨StableHlo.devRef_mem_tcRefs main_v17, by decide⟩)).trans
        ((V6_of m (outs m) c main_v17 (by decide)).trans ((V5_of m (outs m) c main_v17 (by decide)).trans (V4_out m c)))).trans (o1_eq m c),
     (h c (Proc.devRef .tc main_arg0) (Finset.mem_filter.mpr ⟨StableHlo.devRef_mem_tcRefs main_arg0, by decide⟩)).trans (V6_main_arg0 m (outs m) c),
     (h c (Proc.devRef .tc main_arg1) (Finset.mem_filter.mpr ⟨StableHlo.devRef_mem_tcRefs main_arg1, by decide⟩)).trans (V6_main_arg1 m (outs m) c),
     (h c (Proc.devRef .tc main_arg2) (Finset.mem_filter.mpr ⟨StableHlo.devRef_mem_tcRefs main_arg2, by decide⟩)).trans (V6_main_arg2 m (outs m) c),
     (h c (Proc.devRef .tc main_arg3) (Finset.mem_filter.mpr ⟨StableHlo.devRef_mem_tcRefs main_arg3, by decide⟩)).trans (V6_main_arg3 m (outs m) c),
     (h c (Proc.devRef .tc main_arg4) (Finset.mem_filter.mpr ⟨StableHlo.devRef_mem_tcRefs main_arg4, by decide⟩)).trans (V6_main_arg4 m (outs m) c),
     (h c (Proc.devRef .tc main_arg5) (Finset.mem_filter.mpr ⟨StableHlo.devRef_mem_tcRefs main_arg5, by decide⟩)).trans (V6_main_arg5 m (outs m) c),
     (h c (Proc.devRef .tc main_arg6) (Finset.mem_filter.mpr ⟨StableHlo.devRef_mem_tcRefs main_arg6, by decide⟩)).trans (V6_main_arg6 m (outs m) c),
     (h c (Proc.devRef .tc main_arg7) (Finset.mem_filter.mpr ⟨StableHlo.devRef_mem_tcRefs main_arg7, by decide⟩)).trans (V6_main_arg7 m (outs m) c),
     (h c (Proc.devRef .tc main_arg8) (Finset.mem_filter.mpr ⟨StableHlo.devRef_mem_tcRefs main_arg8, by decide⟩)).trans (V6_main_arg8 m (outs m) c),
     (h c (Proc.devRef .tc main_arg9) (Finset.mem_filter.mpr ⟨StableHlo.devRef_mem_tcRefs main_arg9, by decide⟩)).trans (V6_main_arg9 m (outs m) c),
     (h c (Proc.devRef .tc main_arg10) (Finset.mem_filter.mpr ⟨StableHlo.devRef_mem_tcRefs main_arg10, by decide⟩)).trans (V6_main_arg10 m (outs m) c),
     (h c (Proc.devRef .tc main_arg11) (Finset.mem_filter.mpr ⟨StableHlo.devRef_mem_tcRefs main_arg11, by decide⟩)).trans (V6_main_arg11 m (outs m) c),
     (h c (Proc.devRef .tc main_arg12) (Finset.mem_filter.mpr ⟨StableHlo.devRef_mem_tcRefs main_arg12, by decide⟩)).trans (V6_main_arg12 m (outs m) c),
     (h c (Proc.devRef .tc main_arg13) (Finset.mem_filter.mpr ⟨StableHlo.devRef_mem_tcRefs main_arg13, by decide⟩)).trans (V6_main_arg13 m (outs m) c)⟩)
    (run_all (F := Ideal) m ρ)

end Cert.KernelIdeal.Val

end
-- ==== Proof.RefValue.lean ====
/-
  The reference program's three results are the specification's functions.

  The reference computes, for each of two layers, two packed pre-activation arrays of 3 * 1024 columns (an inner product
  with the input weights plus a bias, and one with the recurrent weights plus a bias), cuts each into its three gates at
  column offsets 0, 1024 and 2048, and combines them entry by entry:
      z = 1 / (1 + e^-(iz + rz)),   r = 1 / (1 + e^-(ir + rr)),   hh = tanh (ih + r * rh),   h' = z * h + (1 - z) * hh.
  Read at row p, unit q, every operation of that chain depends on one entry of each operand, so the result at (p, q) is
  the same expression over the entries (p, g * 1024 + q) of the two packed arrays; those entries are the specification's
  gate pre-activations, and 1 / (1 + e^-s) is the logistic function by definition. Layer 1 is the same chain on layer 0's
  result, and the head is one more inner product plus a bias. The embedded tokens enter only as an array.
-/
import proofs.«120770_j4544075399464_2_alg».proof.Proof.Gen.ReferenceIdeal.Read
import proofs.«120770_j4544075399464_2_alg».proof.Proof.GruSpec

noncomputable section

namespace Cert.ReferenceIdeal.RefValue

open Cert.ReferenceIdeal Cert.ReferenceIdeal.Gen Cert.ReferenceIdeal.Read
open Idealize.ShloMosaic Idealize.ShloMosaic.ValueIdx Cert.Gru
open scoped BigOperators

/-- The reference spells the logistic function out: one over one plus the exponential of the negated argument. -/
theorem sigmoid_eq (s : EReal) : Ideal.div one (one + Ideal.exp (-s)) = Ideal.logistic s := by
  rw [one_eq]; rfl

/-- The step from the two packed pre-activation arrays: if gi and gr are, entry by entry, the input side's and the
    recurrent side's inner products plus biases, the reference's chain of slices, sigmoids and the convex mix is the
    specification's step. -/
theorem step_of_pre {K : Nat} (x : (⟨2, ![128, K]⟩ : Shape).Idx → EReal) (h : (⟨2, ![128, 1024]⟩ : Shape).Idx → EReal)
    (Wi : (⟨2, ![K, 3072]⟩ : Shape).Idx → EReal) (Wr : (⟨2, ![1024, 3072]⟩ : Shape).Idx → EReal)
    (bi br : (⟨1, ![3072]⟩ : Shape).Idx → EReal)
    (gi gr : (⟨2, ![128, 3072]⟩ : Shape).Idx → EReal)
    (hgi : ∀ (p : Fin 128) (c : Fin 3072), gi (ix2 p c) = (∑ k : Fin K, x (ix2 p k) * Wi (ix2 k c)) + bi (ix1 c))
    (hgr : ∀ (p : Fin 128) (c : Fin 3072), gr (ix2 p c) = (∑ k : Fin 1024, h (ix2 p k) * Wr (ix2 k c)) + br (ix1 c))
    (p : Fin 128) (q : Fin 1024) :
    Ideal.div one (one + Ideal.exp (-(gi (ix2 p (gcol 0 q)) + gr (ix2 p (gcol 0 q))))) * h (ix2 p q)
      + (one - Ideal.div one (one + Ideal.exp (-(gi (ix2 p (gcol 0 q)) + gr (ix2 p (gcol 0 q))))))
        * Ideal.tanh (gi (ix2 p (gcol 2 q))
            + Ideal.div one (one + Ideal.exp (-(gi (ix2 p (gcol 1 q)) + gr (ix2 p (gcol 1 q))))) * gr (ix2 p (gcol 2 q)))
      = gruAt x h Wi Wr bi br p q := by
  unfold gruAt gate
  simp only [sigmoid_eq, hgi, hgr]

/-! ## The three slices of the packed gate axis, and the bias broadcasts, by coordinates -/

theorem slice0_ix (p : Fin 128) (q : Fin 1024) : idx_main_v16 (ix2 p q) = ix2 p (gcol 0 q) :=
  funext fun a => Fin.ext (by match a with | ⟨0, _⟩ => rfl | ⟨1, _⟩ => show q.val = 0 * 1024 + q.val; omega)
theorem slice1_ix (p : Fin 128) (q : Fin 1024) : idx_main_v17 (ix2 p q) = ix2 p (gcol 1 q) :=
  funext fun a => Fin.ext (by match a with | ⟨0, _⟩ => rfl | ⟨1, _⟩ => show 1024 + q.val = 1 * 1024 + q.val; omega)
theorem slice2_ix (p : Fin 128) (q : Fin 1024) : idx_main_v18 (ix2 p q) = ix2 p (gcol 2 q) :=
  funext fun a => Fin.ext (by match a with | ⟨0, _⟩ => rfl | ⟨1, _⟩ => show 2048 + q.val = 2 * 1024 + q.val; omega)

/-! ## Layer 0: indices by coordinates -/

theorem dot0i_l (p : Fin 128) (c : Fin 3072) (k : Fin 256) : lidx_main_v8 (ix2 p c) k = ix2 p k :=
  funext fun a => Fin.ext (by match a with | ⟨0, _⟩ => rfl | ⟨1, _⟩ => rfl)
theorem dot0i_r (p : Fin 128) (c : Fin 3072) (k : Fin 256) : ridx_main_v8 (ix2 p c) k = ix2 k c :=
  funext fun a => Fin.ext (by match a with | ⟨0, _⟩ => rfl | ⟨1, _⟩ => rfl)
theorem dot0r_l (p : Fin 128) (c : Fin 3072) (k : Fin 1024) : lidx_main_v12 (ix2 p c) k = ix2 p k :=
  funext fun a => Fin.ext (by match a with | ⟨0, _⟩ => rfl | ⟨1, _⟩ => rfl)
theorem dot0r_r (p : Fin 128) (c : Fin 3072) (k : Fin 1024) : ridx_main_v12 (ix2 p c) k = ix2 k c :=
  funext fun a => Fin.ext (by match a with | ⟨0, _⟩ => rfl | ⟨1, _⟩ => rfl)
theorem bias0i_ix (p : Fin 128) (c : Fin 3072) : idx_main_v9 (idx_main_v10 (ix2 p c)) = ix1 c :=
  funext fun a => Fin.ext (by match a with | ⟨0, _⟩ => rfl)
theorem bias0r_ix (p : Fin 128) (c : Fin 3072) : idx_main_v13 (idx_main_v14 (ix2 p c)) = ix1 c :=
  funext fun a => Fin.ext (by match a with | ⟨0, _⟩ => rfl)
theorem slice0iz_ix (p : Fin 128) (q : Fin 1024) : idx_main_v16 (ix2 p q) = ix2 p (gcol 0 q) :=
  funext fun a => Fin.ext (by match a with | ⟨0, _⟩ => rfl | ⟨1, _⟩ => show q.val = 0 * 1024 + q.val; omega)
theorem slice0ir_ix (p : Fin 128) (q : Fin 1024) : idx_main_v17 (ix2 p q) = ix2 p (gcol 1 q) :=
  funext fun a => Fin.ext (by match a with | ⟨0, _⟩ => rfl | ⟨1, _⟩ => show 1024 + q.val = 1 * 1024 + q.val; omega)
theorem slice0ih_ix (p : Fin 128) (q : Fin 1024) : idx_main_v18 (ix2 p q) = ix2 p (gcol 2 q) :=
  funext fun a => Fin.ext (by match a with | ⟨0, _⟩ => rfl | ⟨1, _⟩ => show 2048 + q.val = 2 * 1024 + q.val; omega)
theorem slice0rz_ix (p : Fin 128) (q : Fin 1024) : idx_main_v19 (ix2 p q) = ix2 p (gcol 0 q) :=
  funext fun a => Fin.ext (by match a with | ⟨0, _⟩ => rfl | ⟨1, _⟩ => show q.val = 0 * 1024 + q.val; omega)
theorem slice0rr_ix (p : Fin 128) (q : Fin 1024) : idx_main_v20 (ix2 p q) = ix2 p (gcol 1 q) :=
  funext fun a => Fin.ext (by match a with | ⟨0, _⟩ => rfl | ⟨1, _⟩ => show 1024 + q.val = 1 * 1024 + q.val; omega)
theorem slice0rh_ix (p : Fin 128) (q : Fin 1024) : idx_main_v21 (ix2 p q) = ix2 p (gcol 2 q) :=
  funext fun a => Fin.ext (by match a with | ⟨0, _⟩ => rfl | ⟨1, _⟩ => show 2048 + q.val = 2 * 1024 + q.val; omega)

/-! ## Layer 0: the two packed pre-activation arrays -/

/-- The input side: the inner product with a column of the input weights, plus the bias there. -/
theorem gi0_at (x0 : (⟨S128x1, .i32⟩ : BufTy).Contents (Elt Ideal)) (x3 : (⟨S32000x256, .f32⟩ : BufTy).Contents (Elt Ideal)) (x4 : (⟨S256x3072, .f32⟩ : BufTy).Contents (Elt Ideal)) (x6 : (⟨S3072, .f32⟩ : BufTy).Contents (Elt Ideal)) (p : Fin 128) (c : Fin 3072) :
    val_main_v11 (F := Ideal) x0 x3 x4 x6 (ix2 p c)
      = (∑ k : Fin 256, val_main_v7 (F := Ideal) x0 x3 (ix2 p k) * x4 (ix2 k c)) + x6 (ix1 c) := by
  rw [val_main_v11_apply, val_main_v8_apply, val_main_v10_apply, val_main_v9_apply, bias0i_ix]
  simp only [dot0i_l, dot0i_r, Ideal.addf_def]

/-- The recurrent side: the inner product with a column of the recurrent weights, plus the bias there. -/
theorem gr0_at (x1 : (⟨S128x1024, .f32⟩ : BufTy).Contents (Elt Ideal)) (x5 : (⟨S1024x3072, .f32⟩ : BufTy).Contents (Elt Ideal)) (x7 : (⟨S3072, .f32⟩ : BufTy).Contents (Elt Ideal)) (p : Fin 128) (c : Fin 3072) :
    val_main_v15 (F := Ideal) x1 x5 x7 (ix2 p c)
      = (∑ k : Fin 1024, x1 (ix2 p k) * x5 (ix2 k c)) + x7 (ix1 c) := by
  rw [val_main_v15_apply, val_main_v12_apply, val_main_v14_apply, val_main_v13_apply, bias0r_ix]
  simp only [dot0r_l, dot0r_r, Ideal.addf_def]

/-! ## Layer 0: the gates and the mix, read at an entry -/

/-- The layer's result at row p, unit q, from the two packed arrays: the operations read one by one, outermost first. -/
theorem out0_at (x0 : (⟨S128x1, .i32⟩ : BufTy).Contents (Elt Ideal)) (x1 : (⟨S128x1024, .f32⟩ : BufTy).Contents (Elt Ideal)) (x3 : (⟨S32000x256, .f32⟩ : BufTy).Contents (Elt Ideal)) (x4 : (⟨S256x3072, .f32⟩ : BufTy).Contents (Elt Ideal)) (x5 : (⟨S1024x3072, .f32⟩ : BufTy).Contents (Elt Ideal)) (x6 x7 : (⟨S3072, .f32⟩ : BufTy).Contents (Elt Ideal)) (p : Fin 128) (q : Fin 1024) :
    val_main_v43 (F := Ideal) x0 x1 x3 x4 x5 x6 x7 (ix2 p q)
      = Ideal.div one (one + Ideal.exp (-(val_main_v11 (F := Ideal) x0 x3 x4 x6 (ix2 p (gcol 0 q)) + val_main_v15 (F := Ideal) x1 x5 x7 (ix2 p (gcol 0 q))))) * x1 (ix2 p q)
      + (one - Ideal.div one (one + Ideal.exp (-(val_main_v11 (F := Ideal) x0 x3 x4 x6 (ix2 p (gcol 0 q)) + val_main_v15 (F := Ideal) x1 x5 x7 (ix2 p (gcol 0 q))))))
        * Ideal.tanh (val_main_v11 (F := Ideal) x0 x3 x4 x6 (ix2 p (gcol 2 q))
            + Ideal.div one (one + Ideal.exp (-(val_main_v11 (F := Ideal) x0 x3 x4 x6 (ix2 p (gcol 1 q)) + val_main_v15 (F := Ideal) x1 x5 x7 (ix2 p (gcol 1 q))))) * val_main_v15 (F := Ideal) x1 x5 x7 (ix2 p (gcol 2 q))) := by
  rw [val_main_v43_apply, val_main_v39_apply, val_main_v42_apply, val_main_v41_apply, val_main_v40_apply, val_main_cst_4_apply,
    val_main_v28_apply, val_main_v27_apply, val_main_cst_1_apply, val_main_v26_apply, val_main_v25_apply, val_main_cst_apply,
    val_main_v24_apply, val_main_v23_apply, val_main_v22_apply, val_main_v16_apply, val_main_v19_apply,
    val_main_v38_apply, val_main_v37_apply, val_main_v18_apply, val_main_v36_apply, val_main_v35_apply, val_main_v34_apply, val_main_cst_3_apply,
    val_main_v33_apply, val_main_v32_apply, val_main_cst_2_apply, val_main_v31_apply, val_main_v30_apply, val_main_v29_apply,
    val_main_v17_apply, val_main_v20_apply, val_main_v21_apply,
    slice0iz_ix, slice0ir_ix, slice0ih_ix, slice0rz_ix, slice0rr_ix, slice0rh_ix]
  generalize val_main_v11 (F := Ideal) x0 x3 x4 x6 = gi
  generalize val_main_v15 (F := Ideal) x1 x5 x7 = gr
  rfl

/-- Layer 0 of the reference is the specification's step on the embedded tokens. -/
theorem h0n_eq (x0 : (⟨S128x1, .i32⟩ : BufTy).Contents (Elt Ideal)) (x1 : (⟨S128x1024, .f32⟩ : BufTy).Contents (Elt Ideal)) (x3 : (⟨S32000x256, .f32⟩ : BufTy).Contents (Elt Ideal)) (x4 : (⟨S256x3072, .f32⟩ : BufTy).Contents (Elt Ideal)) (x5 : (⟨S1024x3072, .f32⟩ : BufTy).Contents (Elt Ideal)) (x6 x7 : (⟨S3072, .f32⟩ : BufTy).Contents (Elt Ideal)) :
    val_main_v43 (F := Ideal) x0 x1 x3 x4 x5 x6 x7 = Cert.Gru.gru (val_main_v7 (F := Ideal) x0 x3) x1 x4 x5 x6 x7 := by
  funext i
  obtain ⟨p, q, rfl⟩ : ∃ (p : Fin 128) (q : Fin 1024), i = ix2 p q := ⟨i 0, i 1, eq_ix2 i⟩
  rw [gru_ix2, out0_at]
  exact step_of_pre _ x1 x4 x5 x6 x7 _ _ (gi0_at x0 x3 x4 x6) (gr0_at x1 x5 x7) p q

/-! ## Layer 1: indices by coordinates -/

theorem dot1i_l (p : Fin 128) (c : Fin 3072) (k : Fin 1024) : lidx_main_v44 (ix2 p c) k = ix2 p k :=
  funext fun a => Fin.ext (by match a with | ⟨0, _⟩ => rfl | ⟨1, _⟩ => rfl)
theorem dot1i_r (p : Fin 128) (c : Fin 3072) (k : Fin 1024) : ridx_main_v44 (ix2 p c) k = ix2 k c :=
  funext fun a => Fin.ext (by match a with | ⟨0, _⟩ => rfl | ⟨1, _⟩ => rfl)
theorem dot1r_l (p : Fin 128) (c : Fin 3072) (k : Fin 1024) : lidx_main_v48 (ix2 p c) k = ix2 p k :=
  funext fun a => Fin.ext (by match a with | ⟨0, _⟩ => rfl | ⟨1, _⟩ => rfl)
theorem dot1r_r (p : Fin 128) (c : Fin 3072) (k : Fin 1024) : ridx_main_v48 (ix2 p c) k = ix2 k c :=
  funext fun a => Fin.ext (by match a with | ⟨0, _⟩ => rfl | ⟨1, _⟩ => rfl)
theorem bias1i_ix (p : Fin 128) (c : Fin 3072) : idx_main_v45 (idx_main_v46 (ix2 p c)) = ix1 c :=
  funext fun a => Fin.ext (by match a with | ⟨0, _⟩ => rfl)
theorem bias1r_ix (p : Fin 128) (c : Fin 3072) : idx_main_v49 (idx_main_v50 (ix2 p c)) = ix1 c :=
  funext fun a => Fin.ext (by match a with | ⟨0, _⟩ => rfl)
theorem slice1iz_ix (p : Fin 128) (q : Fin 1024) : idx_main_v52 (ix2 p q) = ix2 p (gcol 0 q) :=
  funext fun a => Fin.ext (by match a with | ⟨0, _⟩ => rfl | ⟨1, _⟩ => show q.val = 0 * 1024 + q.val; omega)
theorem slice1ir_ix (p : Fin 128) (q : Fin 1024) : idx_main_v53 (ix2 p q) = ix2 p (gcol 1 q) :=
  funext fun a => Fin.ext (by match a with | ⟨0, _⟩ => rfl | ⟨1, _⟩ => show 1024 + q.val = 1 * 1024 + q.val; omega)
theorem slice1ih_ix (p : Fin 128) (q : Fin 1024) : idx_main_v54 (ix2 p q) = ix2 p (gcol 2 q) :=
  funext fun a => Fin.ext (by match a with | ⟨0, _⟩ => rfl | ⟨1, _⟩ => show 2048 + q.val = 2 * 1024 + q.val; omega)
theorem slice1rz_ix (p : Fin 128) (q : Fin 1024) : idx_main_v55 (ix2 p q) = ix2 p (gcol 0 q) :=
  funext fun a => Fin.ext (by match a with | ⟨0, _⟩ => rfl | ⟨1, _⟩ => show q.val = 0 * 1024 + q.val; omega)
theorem slice1rr_ix (p : Fin 128) (q : Fin 1024) : idx_main_v56 (ix2 p q) = ix2 p (gcol 1 q) :=
  funext fun a => Fin.ext (by match a with | ⟨0, _⟩ => rfl | ⟨1, _⟩ => show 1024 + q.val = 1 * 1024 + q.val; omega)
theorem slice1rh_ix (p : Fin 128) (q : Fin 1024) : idx_main_v57 (ix2 p q) = ix2 p (gcol 2 q) :=
  funext fun a => Fin.ext (by match a with | ⟨0, _⟩ => rfl | ⟨1, _⟩ => show 2048 + q.val = 2 * 1024 + q.val; omega)

/-! ## Layer 1: the two packed pre-activation arrays -/

/-- The input side: the inner product with a column of the input weights, plus the bias there. -/
theorem gi1_at (x0 : (⟨S128x1, .i32⟩ : BufTy).Contents (Elt Ideal)) (x1 : (⟨S128x1024, .f32⟩ : BufTy).Contents (Elt Ideal)) (x3 : (⟨S32000x256, .f32⟩ : BufTy).Contents (Elt Ideal)) (x4 : (⟨S256x3072, .f32⟩ : BufTy).Contents (Elt Ideal)) (x5 : (⟨S1024x3072, .f32⟩ : BufTy).Contents (Elt Ideal)) (x6 x7 : (⟨S3072, .f32⟩ : BufTy).Contents (Elt Ideal)) (x8 : (⟨S1024x3072, .f32⟩ : BufTy).Contents (Elt Ideal)) (x10 : (⟨S3072, .f32⟩ : BufTy).Contents (Elt Ideal)) (p : Fin 128) (c : Fin 3072) :
    val_main_v47 (F := Ideal) x0 x1 x3 x4 x5 x6 x7 x8 x10 (ix2 p c)
      = (∑ k : Fin 1024, val_main_v43 (F := Ideal) x0 x1 x3 x4 x5 x6 x7 (ix2 p k) * x8 (ix2 k c)) + x10 (ix1 c) := by
  rw [val_main_v47_apply, val_main_v44_apply, val_main_v46_apply, val_main_v45_apply, bias1i_ix]
  simp only [dot1i_l, dot1i_r, Ideal.addf_def]

/-- The recurrent side: the inner product with a column of the recurrent weights, plus the bias there. -/
theorem gr1_at (x2 : (⟨S128x1024, .f32⟩ : BufTy).Contents (Elt Ideal)) (x9 : (⟨S1024x3072, .f32⟩ : BufTy).Contents (Elt Ideal)) (x11 : (⟨S3072, .f32⟩ : BufTy).Contents (Elt Ideal)) (p : Fin 128) (c : Fin 3072) :
    val_main_v51 (F := Ideal) x2 x9 x11 (ix2 p c)
      = (∑ k : Fin 1024, x2 (ix2 p k) * x9 (ix2 k c)) + x11 (ix1 c) := by
  rw [val_main_v51_apply, val_main_v48_apply, val_main_v50_apply, val_main_v49_apply, bias1r_ix]
  simp only [dot1r_l, dot1r_r, Ideal.addf_def]

/-! ## Layer 1: the gates and the mix, read at an entry -/

/-- The layer's result at row p, unit q, from the two packed arrays: the operations read one by one, outermost first. -/
theorem out1_at (x0 : (⟨S128x1, .i32⟩ : BufTy).Contents (Elt Ideal)) (x1 x2 : (⟨S128x1024, .f32⟩ : BufTy).Contents (Elt Ideal)) (x3 : (⟨S32000x256, .f32⟩ : BufTy).Contents (Elt Ideal)) (x4 : (⟨S256x3072, .f32⟩ : BufTy).Contents (Elt Ideal)) (x5 : (⟨S1024x3072, .f32⟩ : BufTy).Contents (Elt Ideal)) (x6 x7 : (⟨S3072, .f32⟩ : BufTy).Contents (Elt Ideal)) (x8 x9 : (⟨S1024x3072, .f32⟩ : BufTy).Contents (Elt Ideal)) (x10 x11 : (⟨S3072, .f32⟩ : BufTy).Contents (Elt Ideal)) (p : Fin 128) (q : Fin 1024) :
    val_main_v79 (F := Ideal) x0 x1 x2 x3 x4 x5 x6 x7 x8 x9 x10 x11 (ix2 p q)
      = Ideal.div one (one + Ideal.exp (-(val_main_v47 (F := Ideal) x0 x1 x3 x4 x5 x6 x7 x8 x10 (ix2 p (gcol 0 q)) + val_main_v51 (F := Ideal) x2 x9 x11 (ix2 p (gcol 0 q))))) * x2 (ix2 p q)
      + (one - Ideal.div one (one + Ideal.exp (-(val_main_v47 (F := Ideal) x0 x1 x3 x4 x5 x6 x7 x8 x10 (ix2 p (gcol 0 q)) + val_main_v51 (F := Ideal) x2 x9 x11 (ix2 p (gcol 0 q))))))
        * Ideal.tanh (val_main_v47 (F := Ideal) x0 x1 x3 x4 x5 x6 x7 x8 x10 (ix2 p (gcol 2 q))
            + Ideal.div one (one + Ideal.exp (-(val_main_v47 (F := Ideal) x0 x1 x3 x4 x5 x6 x7 x8 x10 (ix2 p (gcol 1 q)) + val_main_v51 (F := Ideal) x2 x9 x11 (ix2 p (gcol 1 q))))) * val_main_v51 (F := Ideal) x2 x9 x11 (ix2 p (gcol 2 q))) := by
  rw [val_main_v79_apply, val_main_v75_apply, val_main_v78_apply, val_main_v77_apply, val_main_v76_apply, val_main_cst_9_apply,
    val_main_v64_apply, val_main_v63_apply, val_main_cst_6_apply, val_main_v62_apply, val_main_v61_apply, val_main_cst_5_apply,
    val_main_v60_apply, val_main_v59_apply, val_main_v58_apply, val_main_v52_apply, val_main_v55_apply,
    val_main_v74_apply, val_main_v73_apply, val_main_v54_apply, val_main_v72_apply, val_main_v71_apply, val_main_v70_apply, val_main_cst_8_apply,
    val_main_v69_apply, val_main_v68_apply, val_main_cst_7_apply, val_main_v67_apply, val_main_v66_apply, val_main_v65_apply,
    val_main_v53_apply, val_main_v56_apply, val_main_v57_apply,
    slice1iz_ix, slice1ir_ix, slice1ih_ix, slice1rz_ix, slice1rr_ix, slice1rh_ix]
  generalize val_main_v47 (F := Ideal) x0 x1 x3 x4 x5 x6 x7 x8 x10 = gi
  generalize val_main_v51 (F := Ideal) x2 x9 x11 = gr
  rfl

/-- Layer 1 of the reference is the specification's step on layer 0's result. -/
theorem h1n_eq (x0 : (⟨S128x1, .i32⟩ : BufTy).Contents (Elt Ideal)) (x1 x2 : (⟨S128x1024, .f32⟩ : BufTy).Contents (Elt Ideal)) (x3 : (⟨S32000x256, .f32⟩ : BufTy).Contents (Elt Ideal)) (x4 : (⟨S256x3072, .f32⟩ : BufTy).Contents (Elt Ideal)) (x5 : (⟨S1024x3072, .f32⟩ : BufTy).Contents (Elt Ideal)) (x6 x7 : (⟨S3072, .f32⟩ : BufTy).Contents (Elt Ideal)) (x8 x9 : (⟨S1024x3072, .f32⟩ : BufTy).Contents (Elt Ideal)) (x10 x11 : (⟨S3072, .f32⟩ : BufTy).Contents (Elt Ideal)) :
    val_main_v79 (F := Ideal) x0 x1 x2 x3 x4 x5 x6 x7 x8 x9 x10 x11
      = Cert.Gru.gru (Cert.Gru.gru (val_main_v7 (F := Ideal) x0 x3) x1 x4 x5 x6 x7) x2 x8 x9 x10 x11 := by
  rw [← h0n_eq]
  funext i
  obtain ⟨p, q, rfl⟩ : ∃ (p : Fin 128) (q : Fin 1024), i = ix2 p q := ⟨i 0, i 1, eq_ix2 i⟩
  rw [gru_ix2, out1_at]
  exact step_of_pre _ x2 x8 x9 x10 x11 _ _ (gi1_at x0 x1 x3 x4 x5 x6 x7 x8 x10) (gr1_at x2 x9 x11) p q

/-! ## The vocabulary head -/

theorem doth_l (p : Fin 128) (c : Fin 32000) (k : Fin 1024) : lidx_main_v80 (ix2 p c) k = ix2 p k :=
  funext fun a => Fin.ext (by match a with | ⟨0, _⟩ => rfl | ⟨1, _⟩ => rfl)
theorem doth_r (p : Fin 128) (c : Fin 32000) (k : Fin 1024) : ridx_main_v80 (ix2 p c) k = ix2 k c :=
  funext fun a => Fin.ext (by match a with | ⟨0, _⟩ => rfl | ⟨1, _⟩ => rfl)
theorem biash_ix (p : Fin 128) (c : Fin 32000) : idx_main_v81 (idx_main_v82 (ix2 p c)) = ix1 c :=
  funext fun a => Fin.ext (by match a with | ⟨0, _⟩ => rfl)

/-- The head at row p, column v: the inner product of row p of layer 1's result with column v of the weights, plus the bias. -/
theorem head_at (x0 : (⟨S128x1, .i32⟩ : BufTy).Contents (Elt Ideal)) (x1 x2 : (⟨S128x1024, .f32⟩ : BufTy).Contents (Elt Ideal)) (x3 : (⟨S32000x256, .f32⟩ : BufTy).Contents (Elt Ideal)) (x4 : (⟨S256x3072, .f32⟩ : BufTy).Contents (Elt Ideal)) (x5 : (⟨S1024x3072, .f32⟩ : BufTy).Contents (Elt Ideal)) (x6 x7 : (⟨S3072, .f32⟩ : BufTy).Contents (Elt Ideal)) (x8 x9 : (⟨S1024x3072, .f32⟩ : BufTy).Contents (Elt Ideal)) (x10 x11 : (⟨S3072, .f32⟩ : BufTy).Contents (Elt Ideal)) (x12 : (⟨S1024x32000, .f32⟩ : BufTy).Contents (Elt Ideal)) (x13 : (⟨S32000, .f32⟩ : BufTy).Contents (Elt Ideal)) (p : Fin 128) (v : Fin 32000) :
    val_main_v83 (F := Ideal) x0 x1 x2 x3 x4 x5 x6 x7 x8 x9 x10 x11 x12 x13 (ix2 p v)
      = (∑ k : Fin 1024, val_main_v79 (F := Ideal) x0 x1 x2 x3 x4 x5 x6 x7 x8 x9 x10 x11 (ix2 p k) * x12 (ix2 k v)) + x13 (ix1 v) := by
  rw [val_main_v83_apply, val_main_v80_apply, val_main_v82_apply, val_main_v81_apply, biash_ix]
  simp only [doth_l, doth_r, Ideal.addf_def]

/-- The reference's logits are the specification's head on the two steps. -/
theorem logits_eq (x0 : (⟨S128x1, .i32⟩ : BufTy).Contents (Elt Ideal)) (x1 x2 : (⟨S128x1024, .f32⟩ : BufTy).Contents (Elt Ideal)) (x3 : (⟨S32000x256, .f32⟩ : BufTy).Contents (Elt Ideal)) (x4 : (⟨S256x3072, .f32⟩ : BufTy).Contents (Elt Ideal)) (x5 : (⟨S1024x3072, .f32⟩ : BufTy).Contents (Elt Ideal)) (x6 x7 : (⟨S3072, .f32⟩ : BufTy).Contents (Elt Ideal)) (x8 x9 : (⟨S1024x3072, .f32⟩ : BufTy).Contents (Elt Ideal)) (x10 x11 : (⟨S3072, .f32⟩ : BufTy).Contents (Elt Ideal)) (x12 : (⟨S1024x32000, .f32⟩ : BufTy).Contents (Elt Ideal)) (x13 : (⟨S32000, .f32⟩ : BufTy).Contents (Elt Ideal)) :
    val_main_v83 (F := Ideal) x0 x1 x2 x3 x4 x5 x6 x7 x8 x9 x10 x11 x12 x13
      = Cert.Gru.head (Cert.Gru.gru (Cert.Gru.gru (val_main_v7 (F := Ideal) x0 x3) x1 x4 x5 x6 x7) x2 x8 x9 x10 x11) x12 x13 := by
  rw [← h1n_eq]
  funext i
  obtain ⟨p, v, rfl⟩ : ∃ (p : Fin 128) (v : Fin 32000), i = ix2 p v := ⟨i 0, i 1, eq_ix2 i⟩
  rw [head_ix2, head_at]
  unfold headAt
  rfl

end Cert.ReferenceIdeal.RefValue

end
-- ==== Proof.lean ====
/-
  The certificate's five claims for the decoder step (an embedding lookup, two gated recurrent layers, a vocabulary head).

  Both kernel programs run and leave their fourteen argument arrays as they found them; the reference does too, by
  its run with the results dropped. Read on the extended reals, the kernel program ends with the specification's
  logits and two hidden states of its arguments (its three regions read block by block), and the reference's three
  results are the same functions of arguments that agree (its operations read one by one), so the two programs'
  results are equal entry by entry.
-/
import proofs.«120770_j4544075399464_2_alg».proof.Defs
import proofs.«120770_j4544075399464_2_alg».proof.Proof.Gen.Kernel
import proofs.«120770_j4544075399464_2_alg».proof.Proof.Gen.Kernel.Skeleton
import proofs.«120770_j4544075399464_2_alg».proof.Proof.Gen.Kernel.Launch
import proofs.«120770_j4544075399464_2_alg».proof.Proof.Gen.Kernel.Regions
import proofs.«120770_j4544075399464_2_alg».proof.Proof.Gen.Kernel.Points
import proofs.«120770_j4544075399464_2_alg».proof.Proof.Gen.KernelIdeal
import proofs.«120770_j4544075399464_2_alg».proof.Proof.Gen.KernelIdeal.Skeleton
import proofs.«120770_j4544075399464_2_alg».proof.Proof.Gen.KernelIdeal.Launch
import proofs.«120770_j4544075399464_2_alg».proof.Proof.Gen.KernelIdeal.Regions
import proofs.«120770_j4544075399464_2_alg».proof.Proof.Gen.KernelIdeal.Points
import proofs.«120770_j4544075399464_2_alg».proof.Proof.Gen.ReferenceIdeal
import proofs.«120770_j4544075399464_2_alg».proof.Proof.Gen.Pre_finite_inputs
import proofs.«120770_j4544075399464_2_alg».proof.Proof.Gen.ReferenceIdeal.Run
import proofs.«120770_j4544075399464_2_alg».proof.Proof.Gen.ReferenceIdeal.Read
import proofs.«120770_j4544075399464_2_alg».proof.Proof.KFrameArgs
import proofs.«120770_j4544075399464_2_alg».proof.Proof.FrameArgs
import proofs.«120770_j4544075399464_2_alg».proof.Proof.ValueRun
import proofs.«120770_j4544075399464_2_alg».proof.Proof.RefValue
import Idealize.ShloMosaic.Adequacy
import Idealize.ShloMosaic.Init

noncomputable section

namespace Cert.Proof

open Idealize.ShloMosaic Idealize.SL.Sem

/-! ## The reference's three results, as the specification's functions of the kernel program's arguments -/

section Results

open Cert.ReferenceIdeal Cert.ReferenceIdeal.Read Cert.ReferenceIdeal.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same fourteen argument arrays on core c. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

variable {m m' c}

/-- Layer 0's result of the reference is the specification's first step on the kernel program's arguments. -/
theorem ref_h0n (h : Agree m m' c) : Cert.ReferenceIdeal.Value.res_main_v43 m' c = Cert.KernelIdeal.Val.h0n m c := by
  obtain ⟨e0, e1, e2, e3, e4, e5, e6, e7, e8, e9, e10, e11, e12, e13⟩ := h
  rw [val_main_v43_eq, e0, e1, e3, e4, e5, e6, e7]
  exact h0n_eq _ _ _ _ _ _ _

/-- Layer 1's result of the reference is the second step. -/
theorem ref_h1n (h : Agree m m' c) : Cert.ReferenceIdeal.Value.res_main_v79 m' c = Cert.KernelIdeal.Val.h1n m c := by
  obtain ⟨e0, e1, e2, e3, e4, e5, e6, e7, e8, e9, e10, e11, e12, e13⟩ := h
  rw [val_main_v79_eq, e0, e1, e2, e3, e4, e5, e6, e7, e8, e9, e10, e11]
  exact h1n_eq _ _ _ _ _ _ _ _ _ _ _ _

/-- The reference's logits are the head on the two steps. -/
theorem ref_logits (h : Agree m m' c) : Cert.ReferenceIdeal.Value.res_main_v83 m' c = Cert.KernelIdeal.Val.logits m c := by
  obtain ⟨e0, e1, e2, e3, e4, e5, e6, e7, e8, e9, e10, e11, e12, e13⟩ := h
  rw [val_main_v83_eq, e0, e1, e2, e3, e4, e5, e6, e7, e8, e9, e10, e11, e12, e13]
  exact logits_eq _ _ _ _ _ _ _ _ _ _ _ _ _ _

end Results

/-! ## The claims -/

theorem frame_k : Cert.frame_Kernel := fun m ρ _ => Cert.Kernel.Fr.frame_args (F := Bits) m ρ

theorem frame_ki : Cert.frame_KernelIdeal := fun m ρ _ => Cert.KernelIdeal.Fr.frame_args (F := Ideal) m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- At the extended reals both programs end with the specification's logits and two hidden states of arguments that
    agree: the kernel program by its run read region by region, the reference by its operations read one by one. -/
theorem algebraic : Cert.algebraic_KernelIdeal_ReferenceIdeal := by
  intro m ρ m' ρ' _ hagree
  refine ⟨Cert.KernelIdeal.Val.logits m, Cert.KernelIdeal.Val.h0n m, Cert.KernelIdeal.Val.h1n m,
    Cert.KernelIdeal.Val.kernel_run m ρ, ?_⟩
  exact (θ_run Cert.ReferenceIdeal.defs _ _).mono
    (fun _ h c => ⟨(h c).1.trans (ref_logits (hagree c)), (h c).2.1.trans (ref_h0n (hagree c)),
      (h c).2.2.1.trans (ref_h1n (hagree c)), (h c).2.2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
